-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v180)) (v1 : (c : Dev Cert.KernelIdeal.nD) → Buf (Elt Ideal) ((c.tc : Thread Cert.KernelIdeal.nD Cert.KernelIdeal.τ).loc Cert.KernelIdeal.main_v183)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v180) = v0 c
          ∧ r.2.mem ((c.tc : Thread Cert.KernelIdeal.nD Cert.KernelIdeal.τ).loc Cert.KernelIdeal.main_v183) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_v199) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S2 .f32) (main_arg14 : FVec F S64x2 .f32) (main_arg15 : FVec F S2 .f32) (main_v48 : IVec S_ 1) (main_v49 : FVec F S64x2 .f32) (main_v50 : FVec F S64x2 .f32) : IVec S_ 1 :=
  let main_v51 : IVec S64x2 1 := cmpf .olt main_v49 main_v50
  let main_c_19 : IVec S_ 1 := constantI S_ 1 1#1
  let main_v52 : IVec S_ 1 := (fun x v => Host.reduce IntOp.andi x v reducesTo_S64x2_S_d0_1 h_S_) main_v51 main_c_19
  let main_v53 : IVec S_ 1 := andi main_v48 main_v52
  let main_v54 : FVec F S2 .f32 := Host.absf main_arg13
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  let main_v59 : FVec F S64x2 .f32 := Host.absf main_arg14
  let main_cst_22 : FVec F S_ .f32 := constant S_ .f32 0x7F800000#32
  let main_v60 : FVec F S64x2 .f32 := broadcastInDim S64x2 ![] bcast_S_S64x2 main_cst_22
  let main_v61 : IVec S64x2 1 := cmpf .olt main_v59 main_v60
  let main_c_23 : IVec S_ 1 := constantI S_ 1 1#1
  let main_v62 : IVec S_ 1 := (fun x v => Host.reduce IntOp.andi x v reducesTo_S64x2_S_d0_1 h_S_) main_v61 main_c_23
  let main_v63 : IVec S_ 1 := andi main_v58 main_v62
  let main_v64 : FVec F S2 .f32 := Host.absf main_arg15
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg9 : FVec F S64 .f32) (main_arg10 : FVec F S64x64 .f32) (main_arg11 : FVec F S64 .f32) (main_arg12 : FVec F S64x2 .f32) (main_arg13 : FVec F S2 .f32) (main_arg14 : FVec F S64x2 .f32) (main_arg15 : FVec F S2 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x2 .f32 := Host.absf main_arg12
  let main_cst_18 : FVec F S_ .f32 := constant S_ .f32 0x7F800000#32
  let main_v50 : FVec F S64x2 .f32 := broadcastInDim S64x2 ![] bcast_S_S64x2 main_cst_18
  fn_part3 (F := F) main_arg13 main_arg14 main_arg15 main_v48 main_v49 main_v50

def fn_part1 {F : FTy → Type} [FloatOps F] (main_arg6 : FVec F S128x64 .f32) (main_arg7 : FVec F S64 .f32) (main_arg8 : FVec F S64x64 .f32) (main_arg9 : FVec F S64 .f32) (main_arg10 : FVec F S64x64 .f32) (main_arg11 : FVec F S64 .f32) (main_arg12 : FVec F S64x2 .f32) (main_arg13 : FVec F S2 .f32) (main_arg14 : FVec F S64x2 .f32) (main_arg15 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : FVec F S100000x128 .f32) (main_arg2 : IVec S2x1600000 32) (main_arg3 : IVec S2x1600000 32) (main_arg4 : FVec F S128x64 .f32) (main_arg5 : FVec F S64 .f32) (main_arg6 : FVec F S128x64 .f32) (main_arg7 : FVec F S64 .f32) (main_arg8 : FVec F S64x64 .f32) (main_arg9 : FVec F S64 .f32) (main_arg10 : FVec F S64x64 .f32) (main_arg11 : FVec F S64 .f32) (main_arg12 : FVec F S64x2 .f32) (main_arg13 : FVec F S2 .f32) (main_arg14 : FVec F S64x2 .f32) (main_arg15 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S100000x64 : Shape := ⟨2, ![100000, 64]⟩
abbrev S10000x128 : Shape := ⟨2, ![10000, 128]⟩
abbrev S10000x64 : Shape := ⟨2, ![10000, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S1x2 : Shape := ⟨2, ![1, 2]⟩
abbrev S100000x2 : Shape := ⟨2, ![100000, 2]⟩
abbrev S10000x2 : Shape := ⟨2, ![10000, 2]⟩

abbrev nBuf : Space → Nat
  | .hbm => 252
  | .vmem => 36
  | .smem => 0
  | _ => 0

abbrev hbmTy0_0 (i : Nat) : BufTy := match i % 128 with
  | 0 => ⟨S100000x128, .f32⟩
  | 1 => ⟨S100000x128, .f32⟩
  | 2 => ⟨S2x1600000, .i32⟩
  | 3 => ⟨S2x1600000, .i32⟩
  | 4 => ⟨S128x64, .f32⟩
  | 5 => ⟨S64, .f32⟩
  | 6 => ⟨S128x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x2, .f32⟩
  | 13 => ⟨S2, .f32⟩
  | 14 => ⟨S64x2, .f32⟩
  | 15 => ⟨S2, .f32⟩
  | 16 => ⟨S100000x64, .f32⟩
  | 17 => ⟨S100000x64, .f32⟩
  | 18 => ⟨S1x1600000, .i32⟩
  | 19 => ⟨S1600000, .i32⟩
  | 20 => ⟨S1x1600000, .i32⟩
  | 21 => ⟨S1600000, .i32⟩
  | 22 => ⟨S100000, .i32⟩
  | 23 => ⟨S1700000, .i32⟩
  | 24 => ⟨S1700000, .i32⟩
  | 25 => ⟨S_, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S_, .f32⟩
  | 32 => ⟨S100000, .f32⟩
  | 33 => ⟨S100000, .i1⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x64, .f32⟩
  | 67 => ⟨S1700000x1, .f32⟩
  | 68 => ⟨S1700000x64, .f32⟩
  | 69 => ⟨S1700000x64, .f32⟩
  | 70 => ⟨S_, .f32⟩
  | 71 => ⟨S100000x64, .f32⟩
  | 72 => ⟨S1700000x1, .i32⟩
  | 73 => ⟨S100000x64, .f32⟩
  | 74 => ⟨S1x1600000, .i32⟩
  | 75 => ⟨S1600000, .i32⟩
  | 76 => ⟨S1x1600000, .i32⟩
  | 77 => ⟨S1600000, .i32⟩
  | 78 => ⟨S100000, .i32⟩
  | 79 => ⟨S1700000, .i32⟩
  | 80 => ⟨S1700000, .i32⟩
  | 81 => ⟨S_, .f32⟩
  | 82 => ⟨S1700000, .f32⟩
  | 83 => ⟨S_, .f32⟩
  | 84 => ⟨S100000, .f32⟩
  | 85 => ⟨S1700000x1, .i32⟩
  | 86 => ⟨S100000, .f32⟩
  | 87 => ⟨S_, .f32⟩
  | 88 => ⟨S100000, .f32⟩
  | 89 => ⟨S100000, .i1⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000, .f32⟩
  | 113 => ⟨S1700000, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x64, .f32⟩
  | 123 => ⟨S1700000x1, .f32⟩
  | 124 => ⟨S1700000x64, .f32⟩
  | 125 => ⟨S1700000x64, .f32⟩
  | 126 => ⟨S_, .f32⟩
  | 127 => ⟨S100000x64, .f32⟩
  | _ => ⟨S100000x128, .f32⟩

abbrev hbmTy0_1 (i : Nat) : BufTy := match i % 128 with
  | 0 => ⟨S1700000x1, .i32⟩
  | 1 => ⟨S100000x64, .f32⟩
  | 2 => ⟨S1x64, .f32⟩
  | 3 => ⟨S100000x64, .f32⟩
  | 4 => ⟨S1x64, .f32⟩
  | 5 => ⟨S100000x64, .f32⟩
  | 6 => ⟨S1x1600000, .i32⟩
  | 7 => ⟨S1600000, .i32⟩
  | 8 => ⟨S1x1600000, .i32⟩
  | 9 => ⟨S1600000, .i32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x64, .f32⟩
  | 55 => ⟨S1700000x1, .f32⟩
  | 56 => ⟨S1700000x64, .f32⟩
  | 57 => ⟨S1700000x64, .f32⟩
  | 58 => ⟨S_, .f32⟩
  | 59 => ⟨S100000x64, .f32⟩
  | 60 => ⟨S1700000x1, .i32⟩
  | 61 => ⟨S100000x64, .f32⟩
  | 62 => ⟨S1x1600000, .i32⟩
  | 63 => ⟨S1600000, .i32⟩
  | 64 => ⟨S1x1600000, .i32⟩
  | 65 => ⟨S1600000, .i32⟩
  | 66 => ⟨S100000, .i32⟩
  | 67 => ⟨S1700000, .i32⟩
  | 68 => ⟨S1700000, .i32⟩
  | 69 => ⟨S_, .f32⟩
  | 70 => ⟨S1700000, .f32⟩
  | 71 => ⟨S_, .f32⟩
  | 72 => ⟨S100000, .f32⟩
  | 73 => ⟨S1700000x1, .i32⟩
  | 74 => ⟨S100000, .f32⟩
  | 75 => ⟨S_, .f32⟩
  | 76 => ⟨S100000, .f32⟩
  | 77 => ⟨S100000, .i1⟩
  | 78 => ⟨S100000, .f32⟩
  | 79 => ⟨S_, .f32⟩
  | 80 => ⟨S_, .f32⟩
  | 81 => ⟨S100000, .f32⟩
  | 82 => ⟨S100000, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x64, .f32⟩
  | 111 => ⟨S1700000x1, .f32⟩
  | 112 => ⟨S1700000x64, .f32⟩
  | 113 => ⟨S1700000x64, .f32⟩
  | 114 => ⟨S_, .f32⟩
  | 115 => ⟨S100000x64, .f32⟩
  | 116 => ⟨S1700000x1, .i32⟩
  | 117 => ⟨S100000x64, .f32⟩
  | 118 => ⟨S1x64, .f32⟩
  | 119 => ⟨S1x2, .f32⟩
  | 120 => ⟨S100000x2, .f32⟩
  | 121 => ⟨S1x64, .f32⟩
  | 122 => ⟨S1x2, .f32⟩
  | 123 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S64x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S1x64, .f32⟩
  | .local _ .vmem, ⟨19, _⟩ => ⟨S64x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S1x64, .f32⟩
  | .local _ .vmem, ⟨25, _⟩ => ⟨S64x2, .f32⟩
  | .local _ .vmem, ⟨26, _⟩ => ⟨S1x2, .f32⟩
  | .local _ .vmem, ⟨27, _⟩ => ⟨S10000x2, .f32⟩
  | .local _ .vmem, ⟨28, _⟩ => ⟨S10000x2, .f32⟩
  | .local _ .vmem, ⟨29, _⟩ => ⟨S10000x64, .f32⟩
  | .local _ .vmem, ⟨30, _⟩ => ⟨S10000x64, .f32⟩
  | .local _ .vmem, ⟨31, _⟩ => ⟨S1x64, .f32⟩
  | .local _ .vmem, ⟨32, _⟩ => ⟨S64x2, .f32⟩
  | .local _ .vmem, ⟨33, _⟩ => ⟨S1x2, .f32⟩
  | .local _ .vmem, ⟨34, _⟩ => ⟨S10000x2, .f32⟩
  | .local _ .vmem, ⟨35, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_c_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_call1_v0 : Ref sig .tc := ⟨.hbm, 92, rfl⟩
abbrev main_call1_v1 : Ref sig .tc := ⟨.hbm, 93, rfl⟩
abbrev main_v59 : Ref sig .tc := ⟨.hbm, 94, rfl⟩
abbrev main_c_13 : Ref sig .tc := ⟨.hbm, 95, rfl⟩
abbrev main_v60 : Ref sig .tc := ⟨.hbm, 96, rfl⟩
abbrev main_v61 : Ref sig .tc := ⟨.hbm, 97, rfl⟩
abbrev main_c_14 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_15 : Ref sig .tc := ⟨.hbm, 104, rfl⟩
abbrev main_v67 : Ref sig .tc := ⟨.hbm, 105, rfl⟩
abbrev main_v68 : Ref sig .tc := ⟨.hbm, 106, rfl⟩
abbrev main_c_16 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c_17 : Ref sig .tc := ⟨.hbm, 114, rfl⟩
abbrev main_v75 : Ref sig .tc := ⟨.hbm, 115, rfl⟩
abbrev main_v76 : Ref sig .tc := ⟨.hbm, 116, rfl⟩
abbrev main_c_18 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_19 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_20 : Ref sig .tc := ⟨.hbm, 141, rfl⟩
abbrev main_v99 : Ref sig .tc := ⟨.hbm, 142, rfl⟩
abbrev main_cst_21 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_22 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_23 : Ref sig .tc := ⟨.hbm, 151, rfl⟩
abbrev main_call2_v0 : Ref sig .tc := ⟨.hbm, 152, rfl⟩
abbrev main_call2_v1 : Ref sig .tc := ⟨.hbm, 153, rfl⟩
abbrev main_v106 : Ref sig .tc := ⟨.hbm, 154, rfl⟩
abbrev main_c_24 : Ref sig .tc := ⟨.hbm, 155, rfl⟩
abbrev main_v107 : Ref sig .tc := ⟨.hbm, 156, rfl⟩
abbrev main_v108 : Ref sig .tc := ⟨.hbm, 157, rfl⟩
abbrev main_c_25 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_c_26 : Ref sig .tc := ⟨.hbm, 164, rfl⟩
abbrev main_v114 : Ref sig .tc := ⟨.hbm, 165, rfl⟩
abbrev main_v115 : Ref sig .tc := ⟨.hbm, 166, rfl⟩
abbrev main_c_27 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_c_28 : Ref sig .tc := ⟨.hbm, 174, rfl⟩
abbrev main_v122 : Ref sig .tc := ⟨.hbm, 175, rfl⟩
abbrev main_v123 : Ref sig .tc := ⟨.hbm, 176, rfl⟩
abbrev main_c_29 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_30 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_cst_31 : Ref sig .tc := ⟨.hbm, 197, rfl⟩
abbrev main_v142 : Ref sig .tc := ⟨.hbm, 198, rfl⟩
abbrev main_cst_32 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_cst_33 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_cst_34 : Ref sig .tc := ⟨.hbm, 207, rfl⟩
abbrev main_call3_v0 : Ref sig .tc := ⟨.hbm, 208, rfl⟩
abbrev main_call3_v1 : Ref sig .tc := ⟨.hbm, 209, rfl⟩
abbrev main_v149 : Ref sig .tc := ⟨.hbm, 210, rfl⟩
abbrev main_c_35 : Ref sig .tc := ⟨.hbm, 211, rfl⟩
abbrev main_v150 : Ref sig .tc := ⟨.hbm, 212, rfl⟩
abbrev main_v151 : Ref sig .tc := ⟨.hbm, 213, rfl⟩
abbrev main_c_36 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_c_37 : Ref sig .tc := ⟨.hbm, 220, rfl⟩
abbrev main_v157 : Ref sig .tc := ⟨.hbm, 221, rfl⟩
abbrev main_v158 : Ref sig .tc := ⟨.hbm, 222, rfl⟩
abbrev main_c_38 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_c_39 : Ref sig .tc := ⟨.hbm, 230, rfl⟩
abbrev main_v165 : Ref sig .tc := ⟨.hbm, 231, rfl⟩
abbrev main_v166 : Ref sig .tc := ⟨.hbm, 232, rfl⟩
abbrev main_c_40 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_cst_41 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg4_0 : Ref sig .tc := ⟨.vmem, 27, rfl⟩
abbrev cc4_stg4_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem4_0 : DmaSem sig := 27
abbrev cc4_sem4_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem4_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x2 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64x2 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x2 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  dot_S10000x128_S128x64_S10000x64_1_0_0_1_n_n_wf : DotDims.WF S10000x128 S128x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x2_S10000x2_1_0_0_1_n_n_wf : DotDims.WF S10000x64 S64x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x2.size a ≤ S64x2.size a
  hwx4_2 : ∀ i : grid4.Coords, EltTy.bits .f32 = 32 ∨ (Rect.block (s := S64x2) S64x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x2.size a ≤ S1x2.size a
  hwx4_3 : ∀ i : grid4.Coords, EltTy.bits .f32 = 32 ∨ (Rect.block (s := S1x2) S1x2.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x2.size a ≤ S100000x2.size a
  hwx4_4 : ∀ i : grid4.Coords, EltTy.bits .f32 = 32 ∨ (Rect.block (s := S100000x2) S10000x2.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x2.size a ≤ S64x2.size a
  hwx5_2 : ∀ i : grid5.Coords, EltTy.bits .f32 = 32 ∨ (Rect.block (s := S64x2) S64x2.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x2.size a ≤ S1x2.size a
  hwx5_3 : ∀ i : grid5.Coords, EltTy.bits .f32 = 32 ∨ (Rect.block (s := S1x2) S1x2.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x2.size a ≤ S100000x2.size a
  hwx5_4 : ∀ i : grid5.Coords, EltTy.bits .f32 = 32 ∨ (Rect.block (s := S100000x2) S10000x2.size (cc5_transform_4 i) (hinb5_4 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v89) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v87) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v91) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v134) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v178) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S64x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v179) S1x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v180) S10000x2.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v177) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v181) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg14) S64x2.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v182) S1x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v183) S10000x2.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x2 : Shape := ⟨2, ![100000, 2]⟩
abbrev S1x2 : Shape := ⟨2, ![1, 2]⟩

abbrev nBuf : Space → Nat
  | .hbm => 276
  | .vmem => 0
  | .smem => 0
  | _ => 0

abbrev hbmTy0_0 (i : Nat) : BufTy := match i % 128 with
  | 0 => ⟨S100000x128, .f32⟩
  | 1 => ⟨S100000x128, .f32⟩
  | 2 => ⟨S2x1600000, .i32⟩
  | 3 => ⟨S2x1600000, .i32⟩
  | 4 => ⟨S128x64, .f32⟩
  | 5 => ⟨S64, .f32⟩
  | 6 => ⟨S128x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x2, .f32⟩
  | 13 => ⟨S2, .f32⟩
  | 14 => ⟨S64x2, .f32⟩
  | 15 => ⟨S2, .f32⟩
  | 16 => ⟨S1x1600000, .i32⟩
  | 17 => ⟨S1600000, .i32⟩
  | 18 => ⟨S1x1600000, .i32⟩
  | 19 => ⟨S1600000, .i32⟩
  | 20 => ⟨S100000, .i32⟩
  | 21 => ⟨S1700000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S100000x64, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x64, .f32⟩
  | 66 => ⟨S1700000x1, .f32⟩
  | 67 => ⟨S1700000x64, .f32⟩
  | 68 => ⟨S1700000x64, .f32⟩
  | 69 => ⟨S_, .f32⟩
  | 70 => ⟨S100000x64, .f32⟩
  | 71 => ⟨S1700000x1, .i32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S1x1600000, .i32⟩
  | 80 => ⟨S1600000, .i32⟩
  | 81 => ⟨S1x1600000, .i32⟩
  | 82 => ⟨S1600000, .i32⟩
  | 83 => ⟨S100000, .i32⟩
  | 84 => ⟨S1700000, .i32⟩
  | 85 => ⟨S1700000, .i32⟩
  | 86 => ⟨S_, .f32⟩
  | 87 => ⟨S1700000, .f32⟩
  | 88 => ⟨S_, .f32⟩
  | 89 => ⟨S100000, .f32⟩
  | 90 => ⟨S1700000x1, .i32⟩
  | 91 => ⟨S100000, .f32⟩
  | 92 => ⟨S_, .f32⟩
  | 93 => ⟨S100000, .f32⟩
  | 94 => ⟨S100000, .i1⟩
  | 95 => ⟨S100000, .f32⟩
  | 96 => ⟨S_, .f32⟩
  | 97 => ⟨S_, .f32⟩
  | 98 => ⟨S100000, .f32⟩
  | 99 => ⟨S100000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000, .f32⟩
  | 118 => ⟨S1700000, .f32⟩
  | 119 => ⟨S100000x64, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x128, .f32⟩

abbrev hbmTy0_1 (i : Nat) : BufTy := match i % 128 with
  | 0 => ⟨S1700000x64, .f32⟩
  | 1 => ⟨S1700000x1, .f32⟩
  | 2 => ⟨S1700000x64, .f32⟩
  | 3 => ⟨S1700000x64, .f32⟩
  | 4 => ⟨S_, .f32⟩
  | 5 => ⟨S100000x64, .f32⟩
  | 6 => ⟨S1700000x1, .i32⟩
  | 7 => ⟨S100000x64, .f32⟩
  | 8 => ⟨S1x64, .f32⟩
  | 9 => ⟨S100000x64, .f32⟩
  | 10 => ⟨S100000x64, .f32⟩
  | 11 => ⟨S_, .f32⟩
  | 12 => ⟨S100000x64, .f32⟩
  | 13 => ⟨S100000x64, .f32⟩
  | 14 => ⟨S1x1600000, .i32⟩
  | 15 => ⟨S1600000, .i32⟩
  | 16 => ⟨S1x1600000, .i32⟩
  | 17 => ⟨S1600000, .i32⟩
  | 18 => ⟨S100000, .i32⟩
  | 19 => ⟨S1700000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x64, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x64, .f32⟩
  | 64 => ⟨S1700000x1, .f32⟩
  | 65 => ⟨S1700000x64, .f32⟩
  | 66 => ⟨S1700000x64, .f32⟩
  | 67 => ⟨S_, .f32⟩
  | 68 => ⟨S100000x64, .f32⟩
  | 69 => ⟨S1700000x1, .i32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S1x1600000, .i32⟩
  | 78 => ⟨S1600000, .i32⟩
  | 79 => ⟨S1x1600000, .i32⟩
  | 80 => ⟨S1600000, .i32⟩
  | 81 => ⟨S100000, .i32⟩
  | 82 => ⟨S1700000, .i32⟩
  | 83 => ⟨S1700000, .i32⟩
  | 84 => ⟨S_, .f32⟩
  | 85 => ⟨S1700000, .f32⟩
  | 86 => ⟨S_, .f32⟩
  | 87 => ⟨S100000, .f32⟩
  | 88 => ⟨S1700000x1, .i32⟩
  | 89 => ⟨S100000, .f32⟩
  | 90 => ⟨S_, .f32⟩
  | 91 => ⟨S100000, .f32⟩
  | 92 => ⟨S100000, .i1⟩
  | 93 => ⟨S100000, .f32⟩
  | 94 => ⟨S_, .f32⟩
  | 95 => ⟨S_, .f32⟩
  | 96 => ⟨S100000, .f32⟩
  | 97 => ⟨S100000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000, .f32⟩
  | 116 => ⟨S1700000, .f32⟩
  | 117 => ⟨S100000x64, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x64, .f32⟩
  | 127 => ⟨S1700000x1, .f32⟩
  | _ => ⟨S100000x128, .f32⟩

abbrev hbmTy0_2 (i : Nat) : BufTy := match i % 128 with
  | 0 => ⟨S1700000x64, .f32⟩
  | 1 => ⟨S1700000x64, .f32⟩
  | 2 => ⟨S_, .f32⟩
  | 3 => ⟨S100000x64, .f32⟩
  | 4 => ⟨S1700000x1, .i32⟩
  | 5 => ⟨S100000x64, .f32⟩
  | 6 => ⟨S1x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S100000x2, .f32⟩
  | 13 => ⟨S1x2, .f32⟩
  | 14 => ⟨S100000x2, .f32⟩
  | 15 => ⟨S100000x2, .f32⟩
  | 16 => ⟨S100000x2, .f32⟩
  | 17 => ⟨S1x2, .f32⟩
  | 18 => ⟨S100000x2, .f32⟩
  | 19 => ⟨S100000x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call1_cst : Ref sig .tc := ⟨.hbm, 76, rfl⟩
abbrev main_call1_v0 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_call2_v0 : Ref sig .tc := ⟨.hbm, 97, rfl⟩
abbrev main_call2_v1 : Ref sig .tc := ⟨.hbm, 98, rfl⟩
abbrev main_v62 : Ref sig .tc := ⟨.hbm, 99, rfl⟩
abbrev main_c_13 : Ref sig .tc := ⟨.hbm, 100, rfl⟩
abbrev main_v63 : Ref sig .tc := ⟨.hbm, 101, rfl⟩
abbrev main_v64 : Ref sig .tc := ⟨.hbm, 102, rfl⟩
abbrev main_c_14 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_15 : Ref sig .tc := ⟨.hbm, 109, rfl⟩
abbrev main_v70 : Ref sig .tc := ⟨.hbm, 110, rfl⟩
abbrev main_v71 : Ref sig .tc := ⟨.hbm, 111, rfl⟩
abbrev main_c_16 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_c_17 : Ref sig .tc := ⟨.hbm, 120, rfl⟩
abbrev main_v79 : Ref sig .tc := ⟨.hbm, 121, rfl⟩
abbrev main_v80 : Ref sig .tc := ⟨.hbm, 122, rfl⟩
abbrev main_c_18 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_19 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_call3_cst : Ref sig .tc := ⟨.hbm, 139, rfl⟩
abbrev main_call3_v0 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_20 : Ref sig .tc := ⟨.hbm, 149, rfl⟩
abbrev main_v103 : Ref sig .tc := ⟨.hbm, 150, rfl⟩
abbrev main_cst_21 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_22 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_23 : Ref sig .tc := ⟨.hbm, 159, rfl⟩
abbrev main_call4_v0 : Ref sig .tc := ⟨.hbm, 160, rfl⟩
abbrev main_call4_v1 : Ref sig .tc := ⟨.hbm, 161, rfl⟩
abbrev main_v110 : Ref sig .tc := ⟨.hbm, 162, rfl⟩
abbrev main_c_24 : Ref sig .tc := ⟨.hbm, 163, rfl⟩
abbrev main_v111 : Ref sig .tc := ⟨.hbm, 164, rfl⟩
abbrev main_v112 : Ref sig .tc := ⟨.hbm, 165, rfl⟩
abbrev main_c_25 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_c_26 : Ref sig .tc := ⟨.hbm, 172, rfl⟩
abbrev main_v118 : Ref sig .tc := ⟨.hbm, 173, rfl⟩
abbrev main_v119 : Ref sig .tc := ⟨.hbm, 174, rfl⟩
abbrev main_c_27 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_c_28 : Ref sig .tc := ⟨.hbm, 183, rfl⟩
abbrev main_v127 : Ref sig .tc := ⟨.hbm, 184, rfl⟩
abbrev main_v128 : Ref sig .tc := ⟨.hbm, 185, rfl⟩
abbrev main_c_29 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_cst_30 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_call5_cst : Ref sig .tc := ⟨.hbm, 202, rfl⟩
abbrev main_call5_v0 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_cst_31 : Ref sig .tc := ⟨.hbm, 212, rfl⟩
abbrev main_v151 : Ref sig .tc := ⟨.hbm, 213, rfl⟩
abbrev main_cst_32 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_cst_33 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_cst_34 : Ref sig .tc := ⟨.hbm, 222, rfl⟩
abbrev main_call6_v0 : Ref sig .tc := ⟨.hbm, 223, rfl⟩
abbrev main_call6_v1 : Ref sig .tc := ⟨.hbm, 224, rfl⟩
abbrev main_v158 : Ref sig .tc := ⟨.hbm, 225, rfl⟩
abbrev main_c_35 : Ref sig .tc := ⟨.hbm, 226, rfl⟩
abbrev main_v159 : Ref sig .tc := ⟨.hbm, 227, rfl⟩
abbrev main_v160 : Ref sig .tc := ⟨.hbm, 228, rfl⟩
abbrev main_c_36 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_c_37 : Ref sig .tc := ⟨.hbm, 235, rfl⟩
abbrev main_v166 : Ref sig .tc := ⟨.hbm, 236, rfl⟩
abbrev main_v167 : Ref sig .tc := ⟨.hbm, 237, rfl⟩
abbrev main_c_38 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_c_39 : Ref sig .tc := ⟨.hbm, 246, rfl⟩
abbrev main_v175 : Ref sig .tc := ⟨.hbm, 247, rfl⟩
abbrev main_v176 : Ref sig .tc := ⟨.hbm, 248, rfl⟩
abbrev main_c_40 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_cst_41 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_call7_cst : Ref sig .tc := ⟨.hbm, 265, rfl⟩
abbrev main_call7_v0 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KernelRun.lean ====
/-
  The whole program's run with its two results named.

  The program is six launches among stretches of host operations. Its buffers at each boundary form a chain W0, …, W18:
  a launch replaces its output array by what its grid points write back and keeps every other buffer; a stretch of host
  operations replaces each buffer it writes by the operation's value. Every weakly fair execution ends with each
  unscoped buffer at the end of that chain, so the two result buffers end at W18 read at their references, and the
  sixteen argument arrays end as launched.
-/
import proofs.«149183_j34282428956831_1_alg».proof.Proof.Gen.KernelIdeal.Frame

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two results end at the last link of the chain of
    boundary contents, and the arguments end as launched. -/
theorem run_results : θ_run defs (onTc (τ := τ) (main (F := F))) ⟨m, fun _ => 0, ρ⟩ (fun r => ∀ c : Dev nD,
      r.2.mem ((c.tc : Thread nD τ).loc main_v180) = W18 m ρ c (Proc.devRef .tc main_v180)
      ∧ r.2.mem ((c.tc : Thread nD τ).loc main_v183) = W18 m ρ c (Proc.devRef .tc main_v183)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v180 (by decide)),
       h c _ (mem_uc main_v183 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c)⟩)

end Cert.KernelIdeal.Whole

end
-- ==== Proof.LibProductAt.lean ====
/-
  A matrix product read at an index.

  Dimension numbers of a product [A, K] × [K, B] → [A, B] that contract the left factor's axis 1 with the right factor's
  axis 0, with no batch axis, index the two factors at the result index (p, q) and the contraction index k by (p, k) and
  (k, q). So any sum over the contraction index — a product into a zero accumulator, a host dot_general — is the sum
  over k < K of l (p, k) · r (k, q), and in particular reads only row p of the left factor and column q of the right one.
  General: nothing here depends on a particular program. An instance supplies the two kept coordinates (`hl0`, `hr1`:
  each is `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.ProductAt

open Idealize.ShloMosaic

/-- The index (p, q) of a two-axis shape, from the two numbers and their bounds. -/
abbrev at2 {n0 n1 : Nat} (p : Nat) (hp : p < n0) (q : Nat) (hq : q < n1) : (⟨2, ![n0, n1]⟩ : Shape).Idx := fun a => match a with
  | ⟨0, _⟩ => ⟨p, hp⟩
  | ⟨1, _⟩ => ⟨q, hq⟩

/-- Equal coordinates give the same index. -/
theorem at2_congr {n0 n1 : Nat} {p p' q q' : Nat} (hp : p < n0) (hp' : p' < n0) (hq : q < n1) (hq' : q' < n1)
    (ep : p = p') (eq : q = q') : (at2 p hp q hq : (⟨2, ![n0, n1]⟩ : Shape).Idx) = at2 p' hp' q' hq' := by
  subst ep; subst eq; rfl

/-- Every index of a two-axis shape is the index of its two coordinates. -/
theorem eq_at2 {n0 n1 : Nat} (j : (⟨2, ![n0, n1]⟩ : Shape).Idx) :
    j = at2 (j 0).val (ValueIdx.idx2_lt0 j) (j 1).val (ValueIdx.idx2_lt1 j) := by
  funext a; match a with | ⟨0, _⟩ => rfl | ⟨1, _⟩ => rfl

/-- THE SUM, RE-INDEXED. Dimension numbers that contract the left factor's axis 1 with the right factor's axis 0 and
    keep the left factor's axis 0 and the right factor's axis 1 as the result's rows and columns (`hl0`, `hr1`): the sum
    over the contraction index is the sum over k < K of l (p, k) · r (k, q) at the result index (p, q). -/
theorem product_sum_eq {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (j : (⟨2, ![A, B]⟩ : Shape).Idx) :
    ∑ q : d.contr.Idx, l (d.lhsIdx j q) * r (d.rhsIdx j q)
      = ∑ k : Fin K, l (at2 (j 0).val (ValueIdx.idx2_lt0 j) k.val k.isLt) * r (at2 k.val k.isLt (j 1).val (ValueIdx.idx2_lt1 j)) := by
  rw [← Equiv.sum_comp (ValueIdx.contrEquiv1 d K hr hs).symm]
  refine Finset.sum_congr rfl fun k _ => ?_
  have hk := ValueIdx.contrEquiv1_symm_val d K hr hs k
  have el : d.lhsIdx j ((ValueIdx.contrEquiv1 d K hr hs).symm k) = at2 (j 0).val (ValueIdx.idx2_lt0 j) k.val k.isLt :=
    funext fun a => Fin.ext (by
      match a with
      | ⟨0, _⟩ => exact hl0 j _
      | ⟨1, _⟩ => exact (d.lhsIdx_val_of_single hlc j _).trans hk)
  have er : d.rhsIdx j ((ValueIdx.contrEquiv1 d K hr hs).symm k) = at2 k.val k.isLt (j 1).val (ValueIdx.idx2_lt1 j) :=
    funext fun a => Fin.ext (by
      match a with
      | ⟨0, _⟩ => exact (d.rhsIdx_val_of_single hrc j _).trans hk
      | ⟨1, _⟩ => exact hr1 j _)
  rw [el, er]

end Cert.ProductAt

end
-- ==== Proof.Blocks.lean ====
/-
  What one grid point's body computes, entry by entry.

  Each of the six bodies loads a block of 10000 rows, multiplies it by a whole weight matrix into a zero accumulator,
  and stores the product. Over the extended reals the change of float format before the product is the identity, so
  entry (p, q) of the stored block is a finite sum over the contraction index:
    * first layer:   Σ_k x(p,k) · w(k,q)                                   (k < 128)
    * hidden layer:  Σ_k max(a(p,k) + b(0,k), 0) · w(k,q)                  (k < 64)
    * output head:   Σ_k max(a(p,k) + b(0,k), 0) · w(k,q) + c(0,q)         (k < 64)
  where b and c are one-row arrays (the bias as a 1×64 or 1×2 block). The three item-side bodies are the same
  functions as the three user-side ones.
-/
import proofs.«149183_j34282428956831_1_alg».proof.Proof.Gen.KernelIdeal.Skeleton
import proofs.«149183_j34282428956831_1_alg».proof.Proof.LibProductAt
import Idealize.ShloMosaic.Lib.ValueIdx
import Idealize.ShloMosaic.Lib.Pipeline.Value
import Idealize.ShloMosaic.PureOps.Ideal.Laws

noncomputable section

namespace Cert.KernelIdeal.BlockValue

open Idealize.ShloMosaic Cert.KernelIdeal Cert.KernelIdeal.Gen Cert.ProductAt

/-- Entry (p, q) of the first layer's stored block: the row p of the loaded features against column q of the weights. -/
theorem first_layer_at (x : Vec Ideal S10000x128 .f32) (w : Vec Ideal S128x64 .f32) (j : S10000x64.Idx) :
    k0_pay1 (F := Ideal) x w j
      = ∑ k : Fin 128, x (at2 (j 0).val (ValueIdx.idx2_lt0 j) k.val k.isLt) * w (at2 k.val k.isLt (j 1).val (ValueIdx.idx2_lt1 j)) := by
  unfold k0_pay1
  refine (Ideal.matmul_constant_zero_apply dot_S10000x128_S128x64_S10000x64_1_0_0_1_n_n none _ _ j).trans ?_
  exact product_sum_eq dot_S10000x128_S128x64_S10000x64_1_0_0_1_n_n rfl rfl rfl rfl
    (fun j q => by unfold DotDims.lhsIdx; rw [dif_neg (by decide), dif_pos (by decide)]; rfl)
    (fun j q => by unfold DotDims.rhsIdx; rw [dif_neg (by decide), dif_pos (by decide)]; rfl) _ _ j

/-- The item side's first-layer body is the same function. -/
theorem first_layer_item : @k1_pay1 Ideal _ = @k0_pay1 Ideal _ := rfl

/-- A one-row array spread over 10000 rows, read at (p, k): the row's entry k. -/
theorem row_spread_at {n : Nat} (b : (⟨2, ![1, n]⟩ : Shape).Idx → EReal) (h : (⟨2, ![1, n]⟩ : Shape).Broadcasts (⟨2, ![10000, n]⟩ : Shape))
    (p : Nat) (hp : p < 10000) (k : Nat) (hk : k < n) (hn : n ≠ 1) :
    broadcastTo (⟨2, ![10000, n]⟩ : Shape) b h (at2 p hp k hk) = b (at2 0 (by decide) k hk) :=
  broadcastTo_apply b h _ _ (fun a => by
    match a with
    | ⟨0, _⟩ => rfl
    | ⟨1, _⟩ => exact (if_neg hn).symm)

/-- Entry (p, q) of the hidden layer's stored block: the loaded rows plus the bias row, clamped below at zero, against
    column q of the weights. -/
theorem hidden_layer_at (a : Vec Ideal S10000x64 .f32) (b : Vec Ideal S1x64 .f32) (w : Vec Ideal S64x64 .f32) (j : S10000x64.Idx) :
    k2_pay1 (F := Ideal) a b w j
      = ∑ k : Fin 64, max (a (at2 (j 0).val (ValueIdx.idx2_lt0 j) k.val k.isLt) + b (at2 0 (by decide) k.val k.isLt)) (Ideal.ofBits .f32 0x00000000#32)
          * w (at2 k.val k.isLt (j 1).val (ValueIdx.idx2_lt1 j)) := by
  unfold k2_pay1
  refine (Ideal.matmul_constant_zero_apply dot_S10000x64_S64x64_S10000x64_1_0_0_1_n_n none _ _ j).trans ?_
  refine (product_sum_eq dot_S10000x64_S64x64_S10000x64_1_0_0_1_n_n rfl rfl rfl rfl
    (fun j q => by unfold DotDims.lhsIdx; rw [dif_neg (by decide), dif_pos (by decide)]; rfl)
    (fun j q => by unfold DotDims.rhsIdx; rw [dif_neg (by decide), dif_pos (by decide)]; rfl) _ _ j).trans ?_
  refine Finset.sum_congr rfl fun k _ => ?_
  show max (shapeCast S10000x64 a shapeCasts_S10000x64_S10000x64 (at2 (j 0).val (ValueIdx.idx2_lt0 j) k.val k.isLt)
        + broadcastTo S10000x64 (shapeCast S1x64 b shapeCasts_S1x64_S1x64) broadcasts_S1x64_S10000x64 (at2 (j 0).val (ValueIdx.idx2_lt0 j) k.val k.isLt))
      (Ideal.ofBits .f32 0x00000000#32) * w (at2 k.val k.isLt (j 1).val (ValueIdx.idx2_lt1 j)) = _
  rw [shapeCast_self, shapeCast_self, row_spread_at b broadcasts_S1x64_S10000x64 _ _ _ _ (by decide)]

/-- The item side's hidden-layer body is the same function. -/
theorem hidden_layer_item : @k3_pay1 Ideal _ = @k2_pay1 Ideal _ := rfl

/-- Entry (p, q) of the output head's stored block: the clamped rows against column q of the weights, plus entry q of
    the head's bias row. -/
theorem head_at (a : Vec Ideal S10000x64 .f32) (b : Vec Ideal S1x64 .f32) (w : Vec Ideal S64x2 .f32) (c : Vec Ideal S1x2 .f32) (j : S10000x2.Idx) :
    k4_pay1 (F := Ideal) a b w c j
      = (∑ k : Fin 64, max (a (at2 (j 0).val (ValueIdx.idx2_lt0 j) k.val k.isLt) + b (at2 0 (by decide) k.val k.isLt)) (Ideal.ofBits .f32 0x00000000#32)
          * w (at2 k.val k.isLt (j 1).val (ValueIdx.idx2_lt1 j)))
        + c (at2 0 (by decide) (j 1).val (ValueIdx.idx2_lt1 j)) := by
  unfold k4_pay1
  show FloatOps.matmul (F := Ideal) dot_S10000x64_S64x2_S10000x2_1_0_0_1_n_n none _ _ (constant S10000x2 .f32 0x00000000#32) j
      + broadcastTo S10000x2 (shapeCast S1x2 c shapeCasts_S1x2_S1x2) broadcasts_S1x2_S10000x2 j = _
  refine congrArg₂ (· + ·) ?_ ?_
  · refine (Ideal.matmul_constant_zero_apply dot_S10000x64_S64x2_S10000x2_1_0_0_1_n_n none _ _ j).trans ?_
    refine (product_sum_eq dot_S10000x64_S64x2_S10000x2_1_0_0_1_n_n rfl rfl rfl rfl
      (fun j q => by unfold DotDims.lhsIdx; rw [dif_neg (by decide), dif_pos (by decide)]; rfl)
      (fun j q => by unfold DotDims.rhsIdx; rw [dif_neg (by decide), dif_pos (by decide)]; rfl) _ _ j).trans ?_
    refine Finset.sum_congr rfl fun k _ => ?_
    show max (shapeCast S10000x64 a shapeCasts_S10000x64_S10000x64 (at2 (j 0).val (ValueIdx.idx2_lt0 j) k.val k.isLt)
          + broadcastTo S10000x64 (shapeCast S1x64 b shapeCasts_S1x64_S1x64) broadcasts_S1x64_S10000x64 (at2 (j 0).val (ValueIdx.idx2_lt0 j) k.val k.isLt))
        (Ideal.ofBits .f32 0x00000000#32) * w (at2 k.val k.isLt (j 1).val (ValueIdx.idx2_lt1 j)) = _
    rw [shapeCast_self, shapeCast_self, row_spread_at b broadcasts_S1x64_S10000x64 _ _ _ _ (by decide)]
  · rw [shapeCast_self]
    conv_lhs => rw [Cert.ProductAt.eq_at2 j]
    exact row_spread_at c broadcasts_S1x2_S10000x2 _ _ _ _ (by decide)

/-- The item side's output-head body is the same function. -/
theorem head_item : @k5_pay1 Ideal _ = @k4_pay1 Ideal _ := rfl

end Cert.KernelIdeal.BlockValue

end
-- ==== Proof.Layers.lean ====
/-
  The three dense layers as whole-array functions, in the host program's own operations, and each read at an index.

    * firstLayer x w        = x · w                                          ([100000,128] · [128,64])
    * hiddenLayer a b w     = max(a + rows(b), 0) · w                        ([100000,64] · [64,64])
    * head a b w c          = max(a + rows(b), 0) · w + rows(c)              ([100000,64] · [64,2])
  where rows(b) repeats the vector b on every row. Read at (r, q) each is a finite sum over the contraction index of
  extended reals; no entry depends on any row other than r of the left factor.
-/
import proofs.«149183_j34282428956831_1_alg».proof.ReferenceIdeal
import proofs.«149183_j34282428956831_1_alg».proof.Proof.Gen.ReferenceIdeal
import proofs.«149183_j34282428956831_1_alg».proof.Proof.LibProductAt
import Idealize.ShloMosaic.Lib.ValueIdx
import Idealize.ShloMosaic.Lib.Pipeline.Value
import Idealize.ShloMosaic.PureOps.Ideal.Laws

noncomputable section

namespace Cert.ReferenceIdeal.Layers

open Idealize.ShloMosaic Cert.ReferenceIdeal Cert.ReferenceIdeal.Gen Cert.ProductAt

/-- The vector b repeated on each of the 100000 rows. -/
def rows64 (b : FVec Ideal S64 .f32) : FVec Ideal S100000x64 .f32 :=
  broadcastInDim S100000x64 ![0, 1] bcast_S1x64_S100000x64_0_1 (broadcastInDim S1x64 ![1] bcast_S64_S1x64_1 b)

/-- The vector c repeated on each of the 100000 rows (the head's two columns). -/
def rows2 (c : FVec Ideal S2 .f32) : FVec Ideal S100000x2 .f32 :=
  broadcastInDim S100000x2 ![0, 1] bcast_S1x2_S100000x2_0_1 (broadcastInDim S1x2 ![1] bcast_S2_S1x2_1 c)

/-- The zero array the clamp compares with. -/
def zeros64 : FVec Ideal S100000x64 .f32 :=
  broadcastInDim S100000x64 ![] bcast_S_S100000x64 (constant (F := Ideal) S_ .f32 0x00000000#32)

def firstLayer (x : FVec Ideal S100000x128 .f32) (w : FVec Ideal S128x64 .f32) : FVec Ideal S100000x64 .f32 :=
  Host.dotGeneral dot_S100000x128_S128x64_S100000x64_1_0_0_1_n_n none x w

def hiddenLayer (a : FVec Ideal S100000x64 .f32) (b : FVec Ideal S64 .f32) (w : FVec Ideal S64x64 .f32) : FVec Ideal S100000x64 .f32 :=
  Host.dotGeneral dot_S100000x64_S64x64_S100000x64_1_0_0_1_n_n none (maximumf (addf a (rows64 b)) zeros64) w

def head (a : FVec Ideal S100000x64 .f32) (b : FVec Ideal S64 .f32) (w : FVec Ideal S64x2 .f32) (c : FVec Ideal S2 .f32) : FVec Ideal S100000x2 .f32 :=
  addf (Host.dotGeneral dot_S100000x64_S64x2_S100000x2_1_0_0_1_n_n none (maximumf (addf a (rows64 b)) zeros64) w) (rows2 c)

/-- The index of a one-axis shape at k. -/
abbrev at1 {n : Nat} (k : Nat) (hk : k < n) : (⟨1, ![n]⟩ : Shape).Idx := fun a => match a with
  | ⟨0, _⟩ => ⟨k, hk⟩

theorem rows64_at (b : FVec Ideal S64 .f32) (r : Nat) (hr : r < 100000) (k : Nat) (hk : k < 64) :
    rows64 b (at2 r hr k hk) = b (at1 k hk) := by
  unfold rows64
  rw [broadcastInDim_apply _ bcast_S1x64_S100000x64_0_1 _ (at2 r hr k hk) (at2 0 (by decide) k hk)
    (fun a => by match a with | ⟨0, _⟩ => rfl | ⟨1, _⟩ => rfl)]
  exact broadcastInDim_apply _ bcast_S64_S1x64_1 b _ (at1 k hk) (fun a => by match a with | ⟨0, _⟩ => rfl)

theorem rows2_at (c : FVec Ideal S2 .f32) (r : Nat) (hr : r < 100000) (q : Nat) (hq : q < 2) :
    rows2 c (at2 r hr q hq) = c (at1 q hq) := by
  unfold rows2
  rw [broadcastInDim_apply _ bcast_S1x2_S100000x2_0_1 _ (at2 r hr q hq) (at2 0 (by decide) q hq)
    (fun a => by match a with | ⟨0, _⟩ => rfl | ⟨1, _⟩ => rfl)]
  exact broadcastInDim_apply _ bcast_S2_S1x2_1 c _ (at1 q hq) (fun a => by match a with | ⟨0, _⟩ => rfl)

theorem zeros64_at (i : S100000x64.Idx) : zeros64 i = Ideal.ofBits .f32 0x00000000#32 := by
  unfold zeros64
  exact broadcastInDim_apply _ bcast_S_S100000x64 _ i (fun a => a.elim0) (fun a => a.elim0)

theorem firstLayer_at (x : FVec Ideal S100000x128 .f32) (w : FVec Ideal S128x64 .f32) (i : S100000x64.Idx) :
    firstLayer x w i
      = ∑ k : Fin 128, x (at2 (i 0).val (ValueIdx.idx2_lt0 i) k.val k.isLt) * w (at2 k.val k.isLt (i 1).val (ValueIdx.idx2_lt1 i)) := by
  unfold firstLayer
  simp only [Host.dotGeneral]
  rw [Ideal.dotGeneral_apply]
  exact product_sum_eq dot_S100000x128_S128x64_S100000x64_1_0_0_1_n_n rfl rfl rfl rfl
    (fun j q => by unfold DotDims.lhsIdx; rw [dif_neg (by decide), dif_pos (by decide)]; rfl)
    (fun j q => by unfold DotDims.rhsIdx; rw [dif_neg (by decide), dif_pos (by decide)]; rfl) x w i

theorem hiddenLayer_at (a : FVec Ideal S100000x64 .f32) (b : FVec Ideal S64 .f32) (w : FVec Ideal S64x64 .f32) (i : S100000x64.Idx) :
    hiddenLayer a b w i
      = ∑ k : Fin 64, max (a (at2 (i 0).val (ValueIdx.idx2_lt0 i) k.val k.isLt) + b (at1 k.val k.isLt)) (Ideal.ofBits .f32 0x00000000#32)
          * w (at2 k.val k.isLt (i 1).val (ValueIdx.idx2_lt1 i)) := by
  unfold hiddenLayer
  simp only [Host.dotGeneral]
  rw [Ideal.dotGeneral_apply]
  refine (product_sum_eq dot_S100000x64_S64x64_S100000x64_1_0_0_1_n_n rfl rfl rfl rfl
    (fun j q => by unfold DotDims.lhsIdx; rw [dif_neg (by decide), dif_pos (by decide)]; rfl)
    (fun j q => by unfold DotDims.rhsIdx; rw [dif_neg (by decide), dif_pos (by decide)]; rfl) _ w i).trans ?_
  refine Finset.sum_congr rfl fun k _ => ?_
  show max (a _ + rows64 b (at2 (i 0).val (ValueIdx.idx2_lt0 i) k.val k.isLt)) (zeros64 _) * _ = _
  rw [rows64_at, zeros64_at]

theorem head_at (a : FVec Ideal S100000x64 .f32) (b : FVec Ideal S64 .f32) (w : FVec Ideal S64x2 .f32) (c : FVec Ideal S2 .f32) (i : S100000x2.Idx) :
    head a b w c i
      = (∑ k : Fin 64, max (a (at2 (i 0).val (ValueIdx.idx2_lt0 i) k.val k.isLt) + b (at1 k.val k.isLt)) (Ideal.ofBits .f32 0x00000000#32)
          * w (at2 k.val k.isLt (i 1).val (ValueIdx.idx2_lt1 i)))
        + c (at1 (i 1).val (ValueIdx.idx2_lt1 i)) := by
  unfold head
  show FloatOps.dotGeneral dot_S100000x64_S64x2_S100000x2_1_0_0_1_n_n none _ _ w i + rows2 c i = _
  rw [Ideal.dotGeneral_apply]
  refine congrArg₂ (· + ·) ?_ ?_
  · refine (product_sum_eq dot_S100000x64_S64x2_S100000x2_1_0_0_1_n_n rfl rfl rfl rfl
      (fun j q => by unfold DotDims.lhsIdx; rw [dif_neg (by decide), dif_pos (by decide)]; rfl)
      (fun j q => by unfold DotDims.rhsIdx; rw [dif_neg (by decide), dif_pos (by decide)]; rfl) _ w i).trans ?_
    refine Finset.sum_congr rfl fun k _ => ?_
    show max (a _ + rows64 b (at2 (i 0).val (ValueIdx.idx2_lt0 i) k.val k.isLt)) (zeros64 _) * _ = _
    rw [rows64_at, zeros64_at]
  · conv_lhs => rw [eq_at2 i]
    exact rows2_at c _ _ _ _

end Cert.ReferenceIdeal.Layers

end
-- ==== Proof.Launch0.lean ====
/-
  Launch 0: what its output array holds when the launch ends.

  The grid has ten points; point t loads rows 10000·t … 10000·t + 9999 of its left operand and the whole of the small
  operands, and writes back rows 10000·t … 10000·t + 9999 of the output: the rows of the features against the weights.
  An entry of a product depends on one row of the left factor only, so the block a point writes is the restriction to its
  rows of ONE whole-array function of the launch's input arrays; the ten blocks tile the output, hence the output array
  ends as that function.
-/
import proofs.«149183_j34282428956831_1_alg».proof.Proof.Gen.KernelIdeal.Frame
import proofs.«149183_j34282428956831_1_alg».proof.Proof.Blocks
import proofs.«149183_j34282428956831_1_alg».proof.Proof.Layers

set_option maxRecDepth 16384

noncomputable section

namespace Cert.KernelIdeal.Launch0

open Idealize.ShloMosaic Idealize.ShloMosaic.TcCoe
open Idealize.SL.Sem
open Idealize.ShloMosaic.Pipeline (Dat Cfg Window)
open Cert.KernelIdeal Cert.KernelIdeal.Gen Cert.KernelIdeal.BlockValue Cert.ProductAt Cert.ReferenceIdeal.Layers

variable (V : (c : Dev nD) → (b : Ref sig .tc) → Buf (Elt Ideal) ((c : Thread nD τ).loc b))

theorem hz : (![0, 0] : Fin 2 → Nat) = fun _ => 0 := funext fun a => by fin_cases a <;> rfl

/-- The block index maps over the ten grid points: the left operand's and the output's row blocks move together, every
    other block index is zero. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every row block of the output is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- What point t writes back is its rows of the whole-array function. -/
theorem written_block (c : Dev nD) (t : Fin cfg0.N) :
    (dat0 V c).flushed 2 t = ((cfg0.win 2).blk t).view.read (Elt Ideal) (firstLayer (V c main_arg0) (V c main_arg4)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4⟩ := index_facts t
  funext j
  show k0_pay1 (iblk0 V c 0 t) (iblk0 V c 1 t) j = (firstLayer (V c main_arg0) (V c main_arg4)) (((cfg0.win 2).blk t).view.emb j)
  rw [first_layer_at, firstLayer_at]
  refine Finset.sum_congr rfl fun k _ => ?_
  refine congrArg₂ (· * ·) ?_ ?_
  · show V c main_arg0 (((cfg0.win 0).blk t).view.emb (at2 (j 0).val (ValueIdx.idx2_lt0 j) k.val k.isLt)) = V c main_arg0 (at2 _ _ k.val k.isLt)
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg4 (((cfg0.win 1).blk t).view.emb (at2 k.val k.isLt (j 1).val (ValueIdx.idx2_lt1 j))) = V c main_arg4 (at2 k.val k.isLt _ _)
    refine congrArg (V c main_arg4) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An index is in point t's block when its row lies in the point's ten thousand rows. -/
theorem in_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Row r is written by point r / 10000. -/
theorem every_row_written (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [in_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array when the launch ends. -/
theorem output_array (c : Dev nD) :
    (dat0 V c).arrAt 2 cfg0.N = firstLayer (V c main_arg0) (V c main_arg4) :=
  (dat0 V c).arrAt_eq_of_cover 2 _ (fun t _ => written_block V c t) every_row_written

end Cert.KernelIdeal.Launch0

end
-- ==== Proof.Launch1.lean ====
/-
  Launch 1: what its output array holds when the launch ends.

  The grid has ten points; point t loads rows 10000·t … 10000·t + 9999 of its left operand and the whole of the small
  operands, and writes back rows 10000·t … 10000·t + 9999 of the output: the rows of the features against the weights.
  An entry of a product depends on one row of the left factor only, so the block a point writes is the restriction to its
  rows of ONE whole-array function of the launch's input arrays; the ten blocks tile the output, hence the output array
  ends as that function.
-/
import proofs.«149183_j34282428956831_1_alg».proof.Proof.Gen.KernelIdeal.Frame
import proofs.«149183_j34282428956831_1_alg».proof.Proof.Blocks
import proofs.«149183_j34282428956831_1_alg».proof.Proof.Layers

set_option maxRecDepth 16384

noncomputable section

namespace Cert.KernelIdeal.Launch1

open Idealize.ShloMosaic Idealize.ShloMosaic.TcCoe
open Idealize.SL.Sem
open Idealize.ShloMosaic.Pipeline (Dat Cfg Window)
open Cert.KernelIdeal Cert.KernelIdeal.Gen Cert.KernelIdeal.BlockValue Cert.ProductAt Cert.ReferenceIdeal.Layers

variable (V : (c : Dev nD) → (b : Ref sig .tc) → Buf (Elt Ideal) ((c : Thread nD τ).loc b))

theorem hz : (![0, 0] : Fin 2 → Nat) = fun _ => 0 := funext fun a => by fin_cases a <;> rfl

/-- The block index maps over the ten grid points: the left operand's and the output's row blocks move together, every
    other block index is zero. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every row block of the output is some point's. -/
theorem index_onto : ∀ q0 : Fin 10, ∃ t : Fin cfg1.N, win1_2.index t = ![q0.val, 0] :=
  (by decide +kernel : ∀ q0 : Fin 10, ∃ t : Fin grid1.N, win1_2.index t = ![q0.val, 0])

/-- What point t writes back is its rows of the whole-array function. -/
theorem written_block (c : Dev nD) (t : Fin cfg1.N) :
    (dat1 V c).flushed 2 t = ((cfg1.win 2).blk t).view.read (Elt Ideal) (firstLayer (V c main_arg1) (V c main_arg6)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x64) hz]
  obtain ⟨e0, e1, e2, e3, e4⟩ := index_facts t
  funext j
  show k1_pay1 (iblk1 V c 0 t) (iblk1 V c 1 t) j = (firstLayer (V c main_arg1) (V c main_arg6)) (((cfg1.win 2).blk t).view.emb j)
  rw [first_layer_item, first_layer_at, firstLayer_at]
  refine Finset.sum_congr rfl fun k _ => ?_
  refine congrArg₂ (· * ·) ?_ ?_
  · show V c main_arg1 (((cfg1.win 0).blk t).view.emb (at2 (j 0).val (ValueIdx.idx2_lt0 j) k.val k.isLt)) = V c main_arg1 (at2 _ _ k.val k.isLt)
    refine congrArg (V c main_arg1) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  · show V c main_arg6 (((cfg1.win 1).blk t).view.emb (at2 k.val k.isLt (j 1).val (ValueIdx.idx2_lt1 j))) = V c main_arg6 (at2 k.val k.isLt _ _)
    refine congrArg (V c main_arg6) (funext fun a => Fin.ext ?_)
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega

/-- An index is in point t's block when its row lies in the point's ten thousand rows. -/
theorem in_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v1).slice (win1_2.rect t)).set ↔ _
  rw [View.set_slice_whole, Rect.mem_set_unit]
  exact Iff.rfl

/-- Row r is written by point r / 10000. -/
theorem every_row_written (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [in_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array when the launch ends. -/
theorem output_array (c : Dev nD) :
    (dat1 V c).arrAt 2 cfg1.N = firstLayer (V c main_arg1) (V c main_arg6) :=
  (dat1 V c).arrAt_eq_of_cover 2 _ (fun t _ => written_block V c t) every_row_written

end Cert.KernelIdeal.Launch1

end
-- ==== Proof.Launch2.lean ====
/-
  Launch 2: what its output array holds when the launch ends.

  The grid has ten points; point t loads rows 10000·t … 10000·t + 9999 of its left operand and the whole of the small
  operands, and writes back rows 10000·t … 10000·t + 9999 of the output: the clamped, biased rows of the aggregate against the weights.
  An entry of a product depends on one row of the left factor only, so the block a point writes is the restriction to its
  rows of ONE whole-array function of the launch's input arrays; the ten blocks tile the output, hence the output array
  ends as that function.
-/
import proofs.«149183_j34282428956831_1_alg».proof.Proof.Gen.KernelIdeal.Frame
import proofs.«149183_j34282428956831_1_alg».proof.Proof.Blocks
import proofs.«149183_j34282428956831_1_alg».proof.Proof.Layers

set_option maxRecDepth 16384

noncomputable section

namespace Cert.KernelIdeal.Launch2

open Idealize.ShloMosaic Idealize.ShloMosaic.TcCoe
open Idealize.SL.Sem
open Idealize.ShloMosaic.Pipeline (Dat Cfg Window)
open Cert.KernelIdeal Cert.KernelIdeal.Gen Cert.KernelIdeal.BlockValue Cert.ProductAt Cert.ReferenceIdeal.Layers

variable (V : (c : Dev nD) → (b : Ref sig .tc) → Buf (Elt Ideal) ((c : Thread nD τ).loc b))

theorem hz : (![0, 0] : Fin 2 → Nat) = fun _ => 0 := funext fun a => by fin_cases a <;> rfl

/-- The block index maps over the ten grid points: the left operand's and the output's row blocks move together, every
    other block index is zero. -/
theorem index_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (1 : Fin 2) = 0 :=
  (by decide +kernel : ∀ t : Fin grid2.N, _)

/-- Every row block of the output is some point's. -/
theorem index_onto : ∀ q0 : Fin 10, ∃ t : Fin cfg2.N, win2_3.index t = ![q0.val, 0] :=
  (by decide +kernel : ∀ q0 : Fin 10, ∃ t : Fin grid2.N, win2_3.index t = ![q0.val, 0])

/-- What point t writes back is its rows of the whole-array function. -/
theorem written_block (c : Dev nD) (b : FVec Ideal Cert.ReferenceIdeal.S64 .f32) (hb : V c main_v88 = shapeCast S1x64 b shapeCasts_S64_S1x64) (t : Fin cfg2.N) :
    (dat2 V c).flushed 3 t = ((cfg2.win 3).blk t).view.read (Elt Ideal) (hiddenLayer (V c main_v44) b (V c main_arg8)) := by
  show (cfg2.win 3).cut (grid2.coords t) ((dat2 V c).after 3 t) = _
  rw [after2_3]
  unfold out2_3
  rw [View.canon_unit_zero hz]
  simp only [View.ld_unit_zero (S := S10000x64) hz, View.ld_unit_zero (S := S1x64) hz, View.ld_unit_zero (S := S64x64) hz]
  obtain ⟨e0, e1, e2, e3, e4, e5, e6⟩ := index_facts t
  funext j
  show k2_pay1 (iblk2 V c 0 t) (iblk2 V c 1 t) (iblk2 V c 2 t) j = (hiddenLayer (V c main_v44) b (V c main_arg8)) (((cfg2.win 3).blk t).view.emb j)
  rw [hidden_layer_at, hiddenLayer_at]
  refine Finset.sum_congr rfl fun k _ => ?_
  have eb : iblk2 V c 1 t (at2 0 (by decide) k.val k.isLt) = b (at1 k.val k.isLt) := by
    show V c main_v88 (((cfg2.win 1).blk t).view.emb (at2 0 (by decide) k.val k.isLt)) = _
    rw [hb]
    refine (shapeCast_addUnit_apply ![64] b shapeCasts_S64_S1x64 _).trans (congrArg b (funext fun a => Fin.ext ?_))
    match a with
    | ⟨0, _⟩ => show win2_1.index t (1 : Fin 2) * 64 + 1 * k.val = k.val; omega
  rw [eb]
  refine congrArg₂ (· * ·) (congrArg (max · _) (congrArg (· + _) ?_)) ?_
  · show V c main_v44 (((cfg2.win 0).blk t).view.emb (at2 (j 0).val (ValueIdx.idx2_lt0 j) k.val k.isLt)) = V c main_v44 (at2 _ _ k.val k.isLt)
    refine congrArg (V c main_v44) (funext fun a => Fin.ext ?_)
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 64 + 1 * k.val = k.val; omega
  · show V c main_arg8 (((cfg2.win 2).blk t).view.emb (at2 k.val k.isLt (j 1).val (ValueIdx.idx2_lt1 j))) = V c main_arg8 (at2 k.val k.isLt _ _)
    refine congrArg (V c main_arg8) (funext fun a => Fin.ext ?_)
    match a with
    | ⟨0, _⟩ => show win2_2.index t (0 : Fin 2) * 64 + 1 * k.val = k.val; omega
    | ⟨1, _⟩ => show win2_2.index t (1 : Fin 2) * 64 + 1 * (j 1).val = win2_3.index t (1 : Fin 2) * 64 + 1 * (j 1).val; omega

/-- An index is in point t's block when its row lies in the point's ten thousand rows. -/
theorem in_block (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v89).slice (win2_3.rect t)).set ↔ _
  rw [View.set_slice_whole, Rect.mem_set_unit]
  exact Iff.rfl

/-- Row r is written by point r / 10000. -/
theorem every_row_written (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := index_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [in_block]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- The output array when the launch ends. -/
theorem output_array (c : Dev nD) (b : FVec Ideal Cert.ReferenceIdeal.S64 .f32) (hb : V c main_v88 = shapeCast S1x64 b shapeCasts_S64_S1x64) :
    (dat2 V c).arrAt 3 cfg2.N = hiddenLayer (V c main_v44) b (V c main_arg8) :=
  (dat2 V c).arrAt_eq_of_cover 3 _ (fun t _ => written_block V c b hb t) every_row_written

end Cert.KernelIdeal.Launch2

end
-- ==== Proof.Launch3.lean ====
/-
  Launch 3: what its output array holds when the launch ends.

  The grid has ten points; point t loads rows 10000·t … 10000·t + 9999 of its left operand and the whole of the small
  operands, and writes back rows 10000·t … 10000·t + 9999 of the output: the clamped, biased rows of the aggregate against the weights.
  An entry of a product depends on one row of the left factor only, so the block a point writes is the restriction to its
  rows of ONE whole-array function of the launch's input arrays; the ten blocks tile the output, hence the output array
  ends as that function.
-/
import proofs.«149183_j34282428956831_1_alg».proof.Proof.Gen.KernelIdeal.Frame
import proofs.«149183_j34282428956831_1_alg».proof.Proof.Blocks
import proofs.«149183_j34282428956831_1_alg».proof.Proof.Layers

set_option maxRecDepth 16384

noncomputable section

namespace Cert.KernelIdeal.Launch3

open Idealize.ShloMosaic Idealize.ShloMosaic.TcCoe
open Idealize.SL.Sem
open Idealize.ShloMosaic.Pipeline (Dat Cfg Window)
open Cert.KernelIdeal Cert.KernelIdeal.Gen Cert.KernelIdeal.BlockValue Cert.ProductAt Cert.ReferenceIdeal.Layers

variable (V : (c : Dev nD) → (b : Ref sig .tc) → Buf (Elt Ideal) ((c : Thread nD τ).loc b))

theorem hz : (![0, 0] : Fin 2 → Nat) = fun _ => 0 := funext fun a => by fin_cases a <;> rfl

/-- The block index maps over the ten grid points: the left operand's and the output's row blocks move together, every
    other block index is zero. -/
theorem index_facts : ∀ t : Fin cfg3.N, win3_0.index t (0 : Fin 2) = win3_3.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (1 : Fin 2) = 0 :=
  (by decide +kernel : ∀ t : Fin grid3.N, _)

/-- Every row block of the output is some point's. -/
theorem index_onto : ∀ q0 : Fin 10, ∃ t : Fin cfg3.N, win3_3.index t = ![q0.val, 0] :=
  (by decide +kernel : ∀ q0 : Fin 10, ∃ t : Fin grid3.N, win3_3.index t = ![q0.val, 0])

/-- What point t writes back is its rows of the whole-array function. -/
theorem written_block (c : Dev nD) (b : FVec Ideal Cert.ReferenceIdeal.S64 .f32) (hb : V c main_v90 = shapeCast S1x64 b shapeCasts_S64_S1x64) (t : Fin cfg3.N) :
    (dat3 V c).flushed 3 t = ((cfg3.win 3).blk t).view.read (Elt Ideal) (hiddenLayer (V c main_v87) b (V c main_arg10)) := by
  show (cfg3.win 3).cut (grid3.coords t) ((dat3 V c).after 3 t) = _
  rw [after3_3]
  unfold out3_3
  rw [View.canon_unit_zero hz]
  simp only [View.ld_unit_zero (S := S10000x64) hz, View.ld_unit_zero (S := S1x64) hz, View.ld_unit_zero (S := S64x64) hz]
  obtain ⟨e0, e1, e2, e3, e4, e5, e6⟩ := index_facts t
  funext j
  show k3_pay1 (iblk3 V c 0 t) (iblk3 V c 1 t) (iblk3 V c 2 t) j = (hiddenLayer (V c main_v87) b (V c main_arg10)) (((cfg3.win 3).blk t).view.emb j)
  rw [hidden_layer_item, hidden_layer_at, hiddenLayer_at]
  refine Finset.sum_congr rfl fun k _ => ?_
  have eb : iblk3 V c 1 t (at2 0 (by decide) k.val k.isLt) = b (at1 k.val k.isLt) := by
    show V c main_v90 (((cfg3.win 1).blk t).view.emb (at2 0 (by decide) k.val k.isLt)) = _
    rw [hb]
    refine (shapeCast_addUnit_apply ![64] b shapeCasts_S64_S1x64 _).trans (congrArg b (funext fun a => Fin.ext ?_))
    match a with
    | ⟨0, _⟩ => show win3_1.index t (1 : Fin 2) * 64 + 1 * k.val = k.val; omega
  rw [eb]
  refine congrArg₂ (· * ·) (congrArg (max · _) (congrArg (· + _) ?_)) ?_
  · show V c main_v87 (((cfg3.win 0).blk t).view.emb (at2 (j 0).val (ValueIdx.idx2_lt0 j) k.val k.isLt)) = V c main_v87 (at2 _ _ k.val k.isLt)
    refine congrArg (V c main_v87) (funext fun a => Fin.ext ?_)
    match a with
    | ⟨0, _⟩ => show win3_0.index t (0 : Fin 2) * 10000 + 1 * (j 0).val = win3_3.index t (0 : Fin 2) * 10000 + 1 * (j 0).val; omega
    | ⟨1, _⟩ => show win3_0.index t (1 : Fin 2) * 64 + 1 * k.val = k.val; omega
  · show V c main_arg10 (((cfg3.win 2).blk t).view.emb (at2 k.val k.isLt (j 1).val (ValueIdx.idx2_lt1 j))) = V c main_arg10 (at2 k.val k.isLt _ _)
    refine congrArg (V c main_arg10) (funext fun a => Fin.ext ?_)
    match a with
    | ⟨0, _⟩ => show win3_2.index t (0 : Fin 2) * 64 + 1 * k.val = k.val; omega
    | ⟨1, _⟩ => show win3_2.index t (1 : Fin 2) * 64 + 1 * (j 1).val = win3_3.index t (1 : Fin 2) * 64 + 1 * (j 1).val; omega

/-- An index is in point t's block when its row lies in the point's ten thousand rows. -/
theorem in_block (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v91).slice (win3_3.rect t)).set ↔ _
  rw [View.set_slice_whole, Rect.mem_set_unit]
  exact Iff.rfl

/-- Row r is written by point r / 10000. -/
theorem every_row_written (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ := index_onto ⟨(i 0).val / 10000, by omega⟩
  have q0 : win3_3.index t (0 : Fin 2) = (i 0).val / 10000 := congrFun ht 0
  have q1 : win3_3.index t (1 : Fin 2) = 0 := congrFun ht 1
  refine ⟨t, flush3_3 t, ?_⟩
  rw [in_block]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

/-- The output array when the launch ends. -/
theorem output_array (c : Dev nD) (b : FVec Ideal Cert.ReferenceIdeal.S64 .f32) (hb : V c main_v90 = shapeCast S1x64 b shapeCasts_S64_S1x64) :
    (dat3 V c).arrAt 3 cfg3.N = hiddenLayer (V c main_v87) b (V c main_arg10) :=
  (dat3 V c).arrAt_eq_of_cover 3 _ (fun t _ => written_block V c b hb t) every_row_written

end Cert.KernelIdeal.Launch3

end
-- ==== Proof.Launch4.lean ====
/-
  Launch 4: what its output array holds when the launch ends.

  The grid has ten points; point t loads rows 10000·t … 10000·t + 9999 of its left operand and the whole of the small
  operands, and writes back rows 10000·t … 10000·t + 9999 of the output: the clamped, biased rows of the aggregate against the head's weights, plus the head's bias.
  An entry of a product depends on one row of the left factor only, so the block a point writes is the restriction to its
  rows of ONE whole-array function of the launch's input arrays; the ten blocks tile the output, hence the output array
  ends as that function.
-/
import proofs.«149183_j34282428956831_1_alg».proof.Proof.Gen.KernelIdeal.Frame
import proofs.«149183_j34282428956831_1_alg».proof.Proof.Blocks
import proofs.«149183_j34282428956831_1_alg».proof.Proof.Layers

set_option maxRecDepth 16384

noncomputable section

namespace Cert.KernelIdeal.Launch4

open Idealize.ShloMosaic Idealize.ShloMosaic.TcCoe
open Idealize.SL.Sem
open Idealize.ShloMosaic.Pipeline (Dat Cfg Window)
open Cert.KernelIdeal Cert.KernelIdeal.Gen Cert.KernelIdeal.BlockValue Cert.ProductAt Cert.ReferenceIdeal.Layers

variable (V : (c : Dev nD) → (b : Ref sig .tc) → Buf (Elt Ideal) ((c : Thread nD τ).loc b))

theorem hz : (![0, 0] : Fin 2 → Nat) = fun _ => 0 := funext fun a => by fin_cases a <;> rfl

/-- The block index maps over the ten grid points: the left operand's and the output's row blocks move together, every
    other block index is zero. -/
theorem index_facts : ∀ t : Fin cfg4.N, win4_0.index t (0 : Fin 2) = win4_4.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (1 : Fin 2) = 0 :=
  (by decide +kernel : ∀ t : Fin grid4.N, _)

/-- Every row block of the output is some point's. -/
theorem index_onto : ∀ q0 : Fin 10, ∃ t : Fin cfg4.N, win4_4.index t = ![q0.val, 0] :=
  (by decide +kernel : ∀ q0 : Fin 10, ∃ t : Fin grid4.N, win4_4.index t = ![q0.val, 0])

/-- What point t writes back is its rows of the whole-array function. -/
theorem written_block (c : Dev nD) (b : FVec Ideal Cert.ReferenceIdeal.S64 .f32) (hb : V c main_v178 = shapeCast S1x64 b shapeCasts_S64_S1x64) (d : FVec Ideal Cert.ReferenceIdeal.S2 .f32) (hd : V c main_v179 = shapeCast S1x2 d shapeCasts_S2_S1x2) (t : Fin cfg4.N) :
    (dat4 V c).flushed 4 t = ((cfg4.win 4).blk t).view.read (Elt Ideal) (head (V c main_v134) b (V c main_arg12) d) := by
  show (cfg4.win 4).cut (grid4.coords t) ((dat4 V c).after 4 t) = _
  rw [after4_4]
  unfold out4_4
  rw [View.canon_unit_zero hz]
  simp only [View.ld_unit_zero (S := S10000x64) hz, View.ld_unit_zero (S := S1x64) hz, View.ld_unit_zero (S := S64x2) hz, View.ld_unit_zero (S := S1x2) hz]
  obtain ⟨e0, e1, e2, e3, e4, e5, e6, e7, e8⟩ := index_facts t
  funext j
  show k4_pay1 (iblk4 V c 0 t) (iblk4 V c 1 t) (iblk4 V c 2 t) (iblk4 V c 3 t) j = (head (V c main_v134) b (V c main_arg12) d) (((cfg4.win 4).blk t).view.emb j)
  rw [Cert.KernelIdeal.BlockValue.head_at, Cert.ReferenceIdeal.Layers.head_at]
  refine congrArg₂ (· + ·) (Finset.sum_congr rfl fun k _ => ?_) ?_
  · have eb : iblk4 V c 1 t (at2 0 (by decide) k.val k.isLt) = b (at1 k.val k.isLt) := by
      show V c main_v178 (((cfg4.win 1).blk t).view.emb (at2 0 (by decide) k.val k.isLt)) = _
      rw [hb]
      refine (shapeCast_addUnit_apply ![64] b shapeCasts_S64_S1x64 _).trans (congrArg b (funext fun a => Fin.ext ?_))
      match a with
      | ⟨0, _⟩ => show win4_1.index t (1 : Fin 2) * 64 + 1 * k.val = k.val; omega
    rw [eb]
    refine congrArg₂ (· * ·) (congrArg (max · _) (congrArg (· + _) ?_)) ?_
    · show V c main_v134 (((cfg4.win 0).blk t).view.emb (at2 (j 0).val (ValueIdx.idx2_lt0 j) k.val k.isLt)) = V c main_v134 (at2 _ _ k.val k.isLt)
      refine congrArg (V c main_v134) (funext fun a => Fin.ext ?_)
      match a with
      | ⟨0, _⟩ => show win4_0.index t (0 : Fin 2) * 10000 + 1 * (j 0).val = win4_4.index t (0 : Fin 2) * 10000 + 1 * (j 0).val; omega
      | ⟨1, _⟩ => show win4_0.index t (1 : Fin 2) * 64 + 1 * k.val = k.val; omega
    · show V c main_arg12 (((cfg4.win 2).blk t).view.emb (at2 k.val k.isLt (j 1).val (ValueIdx.idx2_lt1 j))) = V c main_arg12 (at2 k.val k.isLt _ _)
      refine congrArg (V c main_arg12) (funext fun a => Fin.ext ?_)
      match a with
      | ⟨0, _⟩ => show win4_2.index t (0 : Fin 2) * 64 + 1 * k.val = k.val; omega
      | ⟨1, _⟩ => show win4_2.index t (1 : Fin 2) * 2 + 1 * (j 1).val = win4_4.index t (1 : Fin 2) * 2 + 1 * (j 1).val; omega
  · show V c main_v179 (((cfg4.win 3).blk t).view.emb (at2 0 (by decide) (j 1).val (ValueIdx.idx2_lt1 j))) = _
    rw [hd]
    refine (shapeCast_addUnit_apply ![2] d shapeCasts_S2_S1x2 _).trans (congrArg d (funext fun a => Fin.ext ?_))
    match a with
    | ⟨0, _⟩ => show win4_3.index t (1 : Fin 2) * 2 + 1 * (j 1).val = win4_4.index t (1 : Fin 2) * 2 + 1 * (j 1).val; omega

/-- An index is in point t's block when its row lies in the point's ten thousand rows. -/
theorem in_block (t : Fin cfg4.N) (i : S100000x2.Idx) :
    i ∈ ((cfg4.win 4).blk t).view.set ↔ ∀ a : Fin 2, win4_4.index t a * S10000x2.size a ≤ (i a).val ∧ (i a).val < win4_4.index t a * S10000x2.size a + S10000x2.size a := by
  show i ∈ ((View.whole main_v180).slice (win4_4.rect t)).set ↔ _
  rw [View.set_slice_whole, Rect.mem_set_unit]
  exact Iff.rfl

/-- Row r is written by point r / 10000. -/
theorem every_row_written (i : S100000x2.Idx) :
    ∃ t : Fin cfg4.N, (cfg4.win 4).flush t = true ∧ i ∈ ((cfg4.win 4).blk t).view.set := by
  have hi0 : (i 0).val < 100000 := (i 0).isLt
  have hi1 : (i 1).val < 2 := (i 1).isLt
  obtain ⟨t, ht⟩ := index_onto ⟨(i 0).val / 10000, by omega⟩
  have q0 : win4_4.index t (0 : Fin 2) = (i 0).val / 10000 := congrFun ht 0
  have q1 : win4_4.index t (1 : Fin 2) = 0 := congrFun ht 1
  refine ⟨t, flush4_4 t, ?_⟩
  rw [in_block]
  intro a
  match a with
  | ⟨0, _⟩ => show win4_4.index t (0 : Fin 2) * 10000 ≤ (i 0).val ∧ (i 0).val < win4_4.index t (0 : Fin 2) * 10000 + 10000; omega
  | ⟨1, _⟩ => show win4_4.index t (1 : Fin 2) * 2 ≤ (i 1).val ∧ (i 1).val < win4_4.index t (1 : Fin 2) * 2 + 2; omega

/-- The output array when the launch ends. -/
theorem output_array (c : Dev nD) (b : FVec Ideal Cert.ReferenceIdeal.S64 .f32) (hb : V c main_v178 = shapeCast S1x64 b shapeCasts_S64_S1x64) (d : FVec Ideal Cert.ReferenceIdeal.S2 .f32) (hd : V c main_v179 = shapeCast S1x2 d shapeCasts_S2_S1x2) :
    (dat4 V c).arrAt 4 cfg4.N = head (V c main_v134) b (V c main_arg12) d :=
  (dat4 V c).arrAt_eq_of_cover 4 _ (fun t _ => written_block V c b hb d hd t) every_row_written

end Cert.KernelIdeal.Launch4

end
-- ==== Proof.Launch5.lean ====
/-
  Launch 5: what its output array holds when the launch ends.

  The grid has ten points; point t loads rows 10000·t … 10000·t + 9999 of its left operand and the whole of the small
  operands, and writes back rows 10000·t … 10000·t + 9999 of the output: the clamped, biased rows of the aggregate against the head's weights, plus the head's bias.
  An entry of a product depends on one row of the left factor only, so the block a point writes is the restriction to its
  rows of ONE whole-array function of the launch's input arrays; the ten blocks tile the output, hence the output array
  ends as that function.
-/
import proofs.«149183_j34282428956831_1_alg».proof.Proof.Gen.KernelIdeal.Frame
import proofs.«149183_j34282428956831_1_alg».proof.Proof.Blocks
import proofs.«149183_j34282428956831_1_alg».proof.Proof.Layers

set_option maxRecDepth 16384

noncomputable section

namespace Cert.KernelIdeal.Launch5

open Idealize.ShloMosaic Idealize.ShloMosaic.TcCoe
open Idealize.SL.Sem
open Idealize.ShloMosaic.Pipeline (Dat Cfg Window)
open Cert.KernelIdeal Cert.KernelIdeal.Gen Cert.KernelIdeal.BlockValue Cert.ProductAt Cert.ReferenceIdeal.Layers

variable (V : (c : Dev nD) → (b : Ref sig .tc) → Buf (Elt Ideal) ((c : Thread nD τ).loc b))

theorem hz : (![0, 0] : Fin 2 → Nat) = fun _ => 0 := funext fun a => by fin_cases a <;> rfl

/-- The block index maps over the ten grid points: the left operand's and the output's row blocks move together, every
    other block index is zero. -/
theorem index_facts : ∀ t : Fin cfg5.N, win5_0.index t (0 : Fin 2) = win5_4.index t (0 : Fin 2)
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (1 : Fin 2) = 0 :=
  (by decide +kernel : ∀ t : Fin grid5.N, _)

/-- Every row block of the output is some point's. -/
theorem index_onto : ∀ q0 : Fin 10, ∃ t : Fin cfg5.N, win5_4.index t = ![q0.val, 0] :=
  (by decide +kernel : ∀ q0 : Fin 10, ∃ t : Fin grid5.N, win5_4.index t = ![q0.val, 0])

/-- What point t writes back is its rows of the whole-array function. -/
theorem written_block (c : Dev nD) (b : FVec Ideal Cert.ReferenceIdeal.S64 .f32) (hb : V c main_v181 = shapeCast S1x64 b shapeCasts_S64_S1x64) (d : FVec Ideal Cert.ReferenceIdeal.S2 .f32) (hd : V c main_v182 = shapeCast S1x2 d shapeCasts_S2_S1x2) (t : Fin cfg5.N) :
    (dat5 V c).flushed 4 t = ((cfg5.win 4).blk t).view.read (Elt Ideal) (head (V c main_v177) b (V c main_arg14) d) := by
  show (cfg5.win 4).cut (grid5.coords t) ((dat5 V c).after 4 t) = _
  rw [after5_4]
  unfold out5_4
  rw [View.canon_unit_zero hz]
  simp only [View.ld_unit_zero (S := S10000x64) hz, View.ld_unit_zero (S := S1x64) hz, View.ld_unit_zero (S := S64x2) hz, View.ld_unit_zero (S := S1x2) hz]
  obtain ⟨e0, e1, e2, e3, e4, e5, e6, e7, e8⟩ := index_facts t
  funext j
  show k5_pay1 (iblk5 V c 0 t) (iblk5 V c 1 t) (iblk5 V c 2 t) (iblk5 V c 3 t) j = (head (V c main_v177) b (V c main_arg14) d) (((cfg5.win 4).blk t).view.emb j)
  rw [head_item, Cert.KernelIdeal.BlockValue.head_at, Cert.ReferenceIdeal.Layers.head_at]
  refine congrArg₂ (· + ·) (Finset.sum_congr rfl fun k _ => ?_) ?_
  · have eb : iblk5 V c 1 t (at2 0 (by decide) k.val k.isLt) = b (at1 k.val k.isLt) := by
      show V c main_v181 (((cfg5.win 1).blk t).view.emb (at2 0 (by decide) k.val k.isLt)) = _
      rw [hb]
      refine (shapeCast_addUnit_apply ![64] b shapeCasts_S64_S1x64 _).trans (congrArg b (funext fun a => Fin.ext ?_))
      match a with
      | ⟨0, _⟩ => show win5_1.index t (1 : Fin 2) * 64 + 1 * k.val = k.val; omega
    rw [eb]
    refine congrArg₂ (· * ·) (congrArg (max · _) (congrArg (· + _) ?_)) ?_
    · show V c main_v177 (((cfg5.win 0).blk t).view.emb (at2 (j 0).val (ValueIdx.idx2_lt0 j) k.val k.isLt)) = V c main_v177 (at2 _ _ k.val k.isLt)
      refine congrArg (V c main_v177) (funext fun a => Fin.ext ?_)
      match a with
      | ⟨0, _⟩ => show win5_0.index t (0 : Fin 2) * 10000 + 1 * (j 0).val = win5_4.index t (0 : Fin 2) * 10000 + 1 * (j 0).val; omega
      | ⟨1, _⟩ => show win5_0.index t (1 : Fin 2) * 64 + 1 * k.val = k.val; omega
    · show V c main_arg14 (((cfg5.win 2).blk t).view.emb (at2 k.val k.isLt (j 1).val (ValueIdx.idx2_lt1 j))) = V c main_arg14 (at2 k.val k.isLt _ _)
      refine congrArg (V c main_arg14) (funext fun a => Fin.ext ?_)
      match a with
      | ⟨0, _⟩ => show win5_2.index t (0 : Fin 2) * 64 + 1 * k.val = k.val; omega
      | ⟨1, _⟩ => show win5_2.index t (1 : Fin 2) * 2 + 1 * (j 1).val = win5_4.index t (1 : Fin 2) * 2 + 1 * (j 1).val; omega
  · show V c main_v182 (((cfg5.win 3).blk t).view.emb (at2 0 (by decide) (j 1).val (ValueIdx.idx2_lt1 j))) = _
    rw [hd]
    refine (shapeCast_addUnit_apply ![2] d shapeCasts_S2_S1x2 _).trans (congrArg d (funext fun a => Fin.ext ?_))
    match a with
    | ⟨0, _⟩ => show win5_3.index t (1 : Fin 2) * 2 + 1 * (j 1).val = win5_4.index t (1 : Fin 2) * 2 + 1 * (j 1).val; omega

/-- An index is in point t's block when its row lies in the point's ten thousand rows. -/
theorem in_block (t : Fin cfg5.N) (i : S100000x2.Idx) :
    i ∈ ((cfg5.win 4).blk t).view.set ↔ ∀ a : Fin 2, win5_4.index t a * S10000x2.size a ≤ (i a).val ∧ (i a).val < win5_4.index t a * S10000x2.size a + S10000x2.size a := by
  show i ∈ ((View.whole main_v183).slice (win5_4.rect t)).set ↔ _
  rw [View.set_slice_whole, Rect.mem_set_unit]
  exact Iff.rfl

/-- Row r is written by point r / 10000. -/
theorem every_row_written (i : S100000x2.Idx) :
    ∃ t : Fin cfg5.N, (cfg5.win 4).flush t = true ∧ i ∈ ((cfg5.win 4).blk t).view.set := by
  have hi0 : (i 0).val < 100000 := (i 0).isLt
  have hi1 : (i 1).val < 2 := (i 1).isLt
  obtain ⟨t, ht⟩ := index_onto ⟨(i 0).val / 10000, by omega⟩
  have q0 : win5_4.index t (0 : Fin 2) = (i 0).val / 10000 := congrFun ht 0
  have q1 : win5_4.index t (1 : Fin 2) = 0 := congrFun ht 1
  refine ⟨t, flush5_4 t, ?_⟩
  rw [in_block]
  intro a
  match a with
  | ⟨0, _⟩ => show win5_4.index t (0 : Fin 2) * 10000 ≤ (i 0).val ∧ (i 0).val < win5_4.index t (0 : Fin 2) * 10000 + 10000; omega
  | ⟨1, _⟩ => show win5_4.index t (1 : Fin 2) * 2 ≤ (i 1).val ∧ (i 1).val < win5_4.index t (1 : Fin 2) * 2 + 2; omega

/-- The output array when the launch ends. -/
theorem output_array (c : Dev nD) (b : FVec Ideal Cert.ReferenceIdeal.S64 .f32) (hb : V c main_v181 = shapeCast S1x64 b shapeCasts_S64_S1x64) (d : FVec Ideal Cert.ReferenceIdeal.S2 .f32) (hd : V c main_v182 = shapeCast S1x2 d shapeCasts_S2_S1x2) :
    (dat5 V c).arrAt 4 cfg5.N = head (V c main_v177) b (V c main_arg14) d :=
  (dat5 V c).arrAt_eq_of_cover 4 _ (fun t _ => written_block V c b hb d hd t) every_row_written

end Cert.KernelIdeal.Launch5

end
-- ==== Proof.Aggregate.lean ====
/-
  The normalised neighbourhood sum, as the host program spells it.

  For an edge list e : int[2, 1600000] (row 0 the sources, row 1 the destinations) and 100000 nodes, a self-loop is
  appended for every node: sources e and targets e are the two rows followed by 0, 1, …, 99999. Then
     degree e [d]      = Σ over the 1700000 edges with target d of 1
     invSqrtDeg e [n]  = degree^(-1/2) where the degree is positive, 0 elsewhere
     edgeNorm e [j]    = invSqrtDeg[source j] · invSqrtDeg[target j]
     neighbourSum h e [d, :] = Σ over the edges j with target d of h[source j, :] · edgeNorm e [j]
  (a negative index is first shifted by the node count, as array indexing does; a gather clamps and a scatter-add drops
  what is out of range — both programs use the same two operations, so none of that is ever opened here).
  Everything except the gather of h depends on e alone.
-/
import proofs.«149183_j34282428956831_1_alg».proof.ReferenceIdeal
import proofs.«149183_j34282428956831_1_alg».proof.Proof.Gen.ReferenceIdeal
import Idealize.ShloMosaic.PureOps.Ideal

noncomputable section

namespace Cert.ReferenceIdeal.Aggregate

open Idealize.ShloMosaic Cert.ReferenceIdeal Cert.ReferenceIdeal.Gen

abbrev Edges := (⟨S2x1600000, .i32⟩ : BufTy).Contents (Elt Ideal)
abbrev EdgeIdx := (⟨S1700000, .i32⟩ : BufTy).Contents (Elt Ideal)

/-- Row r of the edge list followed by the self-loops 0, …, 99999. -/
def endpoints (r : Fin 2 → Nat) (hs : S2x1600000.Slices r S1x1600000) (e : Edges) : EdgeIdx :=
  concatenate S1700000 0 [⟨S1600000, shapeCast S1600000 (extractStridedSlice S1x1600000 r e hs) shapeCasts_S1x1600000_S1600000⟩,
    ⟨S100000, iotaInDim S100000 32 0⟩] concatenates_S1600000_S100000_S1700000_d0

def sources (e : Edges) : EdgeIdx := endpoints ![0, 0] slices_S2x1600000_S1x1600000_0_0 e
def targets (e : Edges) : EdgeIdx := endpoints ![1, 0] slices_S2x1600000_S1x1600000_1_0 e

/-- A negative index counted from the end: shifted by the node count. -/
def wrapped (v : EdgeIdx) : EdgeIdx :=
  select (cmpi .slt v (broadcastInDim S1700000 ![] bcast_S_S1700000 (constantI S_ 32 0#32)))
    (addi v (broadcastInDim S1700000 ![] bcast_S_S1700000 (constantI S_ 32 100000#32))) v

/-- An index vector as a column of one-entry index tuples. -/
def asColumn (v : EdgeIdx) : (⟨S1700000x1, .i32⟩ : BufTy).Contents (Elt Ideal) := broadcastInDim S1700000x1 ![0] bcast_S1700000_S1700000x1_0 v

def degree (e : Edges) : FVec Ideal S100000 .f32 :=
  Host.scatterAdd (F := Ideal) scatter_S100000_S1700000x1_S1700000_n_0_0_1
    (broadcastInDim S100000 ![] bcast_S_S100000 (constant (F := Ideal) S_ .f32 0x00000000#32))
    (asColumn (targets e))
    (broadcastInDim S1700000 ![] bcast_S_S1700000 (constant (F := Ideal) S_ .f32 0x3F800000#32))

def invSqrtDeg (e : Edges) : FVec Ideal S100000 .f32 :=
  select (cmpf (F := Ideal) .ogt (degree e) (broadcastInDim S100000 ![] bcast_S_S100000 (constant (F := Ideal) S_ .f32 0x00000000#32)))
    (Host.rsqrt (F := Ideal) (degree e))
    (broadcastInDim S100000 ![] bcast_S_S100000 (id (constant (F := Ideal) S_ .f32 0x00000000#32)))

def edgeNorm (e : Edges) : FVec Ideal S1700000 .f32 :=
  mulf (F := Ideal) (Host.gather gather_S100000_S1700000x1_S1700000_n_0_n_n_0_1_1 (invSqrtDeg e) (asColumn (wrapped (sources e))))
    (Host.gather gather_S100000_S1700000x1_S1700000_n_0_n_n_0_1_1 (invSqrtDeg e) (asColumn (wrapped (targets e))))

def neighbourSum (h : FVec Ideal S100000x64 .f32) (e : Edges) : FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (asColumn (targets e))
    (mulf (F := Ideal) (Host.gather gather_S100000x64_S1700000x1_S1700000x64_1_0_n_n_0_1_164 h (asColumn (wrapped (sources e))))
      (broadcastInDim S1700000x64 ![0, 1] bcast_S1700000x1_S1700000x64_0_1
        (broadcastInDim S1700000x1 ![0] bcast_S1700000_S1700000x1_0 (edgeNorm e))))

end Cert.ReferenceIdeal.Aggregate

end
-- ==== Proof.Chain.lean ====
/-
  The kernel program's boundary contents, read back to the arguments.

  Walking the chain of boundary contents backwards: a buffer that a stretch of host operations does not write is
  unchanged across it; one it writes holds the operation's value of its operands' contents; a launch's output array
  holds the layer function of the launch's input arrays, and every other buffer is unchanged across a launch. So the
  first launch leaves x·W1; the host stretch that follows turns it into the neighbourhood sum; the next launch into the
  hidden layer of that sum; and so on to the two results, each
     head (neighbourSum (hiddenLayer (neighbourSum (firstLayer x W1) e) b1 W2) e) b2 Wl bl.
-/
import proofs.«149183_j34282428956831_1_alg».proof.Proof.Launch0
import proofs.«149183_j34282428956831_1_alg».proof.Proof.Launch1
import proofs.«149183_j34282428956831_1_alg».proof.Proof.Launch2
import proofs.«149183_j34282428956831_1_alg».proof.Proof.Launch3
import proofs.«149183_j34282428956831_1_alg».proof.Proof.Launch4
import proofs.«149183_j34282428956831_1_alg».proof.Proof.Launch5
import proofs.«149183_j34282428956831_1_alg».proof.Proof.Aggregate
import Idealize.ShloMosaic.Lib.StableHlo.Run

set_option maxRecDepth 16384
set_option maxHeartbeats 4000000

noncomputable section

namespace Cert.KernelIdeal.Chain

open Idealize.ShloMosaic Idealize.ShloMosaic.TcCoe Idealize.SL.Sem Idealize.ShloMosaic.StableHlo
open Cert.KernelIdeal Cert.KernelIdeal.Gen Cert.ReferenceIdeal.Layers Cert.ReferenceIdeal.Aggregate

variable (m : (ℓ : Loc nD τ sig) → Buf (Elt Ideal) ℓ) (ρ : Dev nD → PrngReg) (c : Dev nD)

/-- Each operation's value at its own result buffer, and the earlier contents at any other buffer, by rewriting. -/
macro "results_rw" : tactic =>
  `(tactic| repeat (first
     | rw [nullary_result] | rw [unary_result] | rw [binary_result] | rw [ternary_result] | rw [quaternary_result]
     | rw [reshape_result]
     | (rw [nullary_result_ne]; rotate_left; decide)
     | (rw [unary_result_ne]; rotate_left; decide)
     | (rw [binary_result_ne]; rotate_left; decide)
     | (rw [ternary_result_ne]; rotate_left; decide)
     | (rw [quaternary_result_ne]; rotate_left; decide)
     | (rw [reshape_result_ne]; rotate_left; decide)))

/-- Across the host stretches between two launches: unfold the stretches and evaluate each operation at the buffer read. -/
macro "through_host" : tactic => `(tactic| (
  dsimp only [W3, W4, W5, W6, W7, W9, W11, W12, W13, W14, W15, W17, hostOps2, hostOps2_1, hostOps2_2, hostOps2_3,
    hostOps2_4, hostOps3, hostOps4, hostOps4_1, hostOps4_2, hostOps4_3, hostOps4_4, hostOps5]
  after_results_simp
  try results_rw))

/-! ## The arguments at the launches' exits -/

theorem W1_arg1 : W1 m ρ c (Proc.devRef .tc main_arg1) = (m ((c : Thread nD τ).loc main_arg1)) := by
  rw [W1_of_ne m ρ c main_arg1 (by decide)]

theorem W1_arg6 : W1 m ρ c (Proc.devRef .tc main_arg6) = (m ((c : Thread nD τ).loc main_arg6)) := by
  rw [W1_of_ne m ρ c main_arg6 (by decide)]

theorem W2_arg2 : W2 m ρ c (Proc.devRef .tc main_arg2) = (m ((c : Thread nD τ).loc main_arg2)) := by
  rw [W2_of_ne m ρ c main_arg2 (by decide), W1_of_ne m ρ c main_arg2 (by decide)]

theorem W2_arg3 : W2 m ρ c (Proc.devRef .tc main_arg3) = (m ((c : Thread nD τ).loc main_arg3)) := by
  rw [W2_of_ne m ρ c main_arg3 (by decide), W1_of_ne m ρ c main_arg3 (by decide)]

theorem W2_arg5 : W2 m ρ c (Proc.devRef .tc main_arg5) = (m ((c : Thread nD τ).loc main_arg5)) := by
  rw [W2_of_ne m ρ c main_arg5 (by decide), W1_of_ne m ρ c main_arg5 (by decide)]

theorem W2_arg7 : W2 m ρ c (Proc.devRef .tc main_arg7) = (m ((c : Thread nD τ).loc main_arg7)) := by
  rw [W2_of_ne m ρ c main_arg7 (by decide), W1_of_ne m ρ c main_arg7 (by decide)]

theorem W2_arg8 : W2 m ρ c (Proc.devRef .tc main_arg8) = (m ((c : Thread nD τ).loc main_arg8)) := by
  rw [W2_of_ne m ρ c main_arg8 (by decide), W1_of_ne m ρ c main_arg8 (by decide)]

theorem W2_arg9 : W2 m ρ c (Proc.devRef .tc main_arg9) = (m ((c : Thread nD τ).loc main_arg9)) := by
  rw [W2_of_ne m ρ c main_arg9 (by decide), W1_of_ne m ρ c main_arg9 (by decide)]

theorem W2_arg10 : W2 m ρ c (Proc.devRef .tc main_arg10) = (m ((c : Thread nD τ).loc main_arg10)) := by
  rw [W2_of_ne m ρ c main_arg10 (by decide), W1_of_ne m ρ c main_arg10 (by decide)]

theorem W2_arg11 : W2 m ρ c (Proc.devRef .tc main_arg11) = (m ((c : Thread nD τ).loc main_arg11)) := by
  rw [W2_of_ne m ρ c main_arg11 (by decide), W1_of_ne m ρ c main_arg11 (by decide)]

theorem W2_arg12 : W2 m ρ c (Proc.devRef .tc main_arg12) = (m ((c : Thread nD τ).loc main_arg12)) := by
  rw [W2_of_ne m ρ c main_arg12 (by decide), W1_of_ne m ρ c main_arg12 (by decide)]

theorem W2_arg13 : W2 m ρ c (Proc.devRef .tc main_arg13) = (m ((c : Thread nD τ).loc main_arg13)) := by
  rw [W2_of_ne m ρ c main_arg13 (by decide), W1_of_ne m ρ c main_arg13 (by decide)]

theorem W2_arg14 : W2 m ρ c (Proc.devRef .tc main_arg14) = (m ((c : Thread nD τ).loc main_arg14)) := by
  rw [W2_of_ne m ρ c main_arg14 (by decide), W1_of_ne m ρ c main_arg14 (by decide)]

theorem W2_arg15 : W2 m ρ c (Proc.devRef .tc main_arg15) = (m ((c : Thread nD τ).loc main_arg15)) := by
  rw [W2_of_ne m ρ c main_arg15 (by decide), W1_of_ne m ρ c main_arg15 (by decide)]

theorem W8_arg2 : W8 m ρ c (Proc.devRef .tc main_arg2) = (m ((c : Thread nD τ).loc main_arg2)) := by
  rw [W8_of_ne m ρ c main_arg2 (by decide)]
  through_host
  exact W2_arg2 m ρ c

theorem W8_arg3 : W8 m ρ c (Proc.devRef .tc main_arg3) = (m ((c : Thread nD τ).loc main_arg3)) := by
  rw [W8_of_ne m ρ c main_arg3 (by decide)]
  through_host
  exact W2_arg3 m ρ c

theorem W8_arg7 : W8 m ρ c (Proc.devRef .tc main_arg7) = (m ((c : Thread nD τ).loc main_arg7)) := by
  rw [W8_of_ne m ρ c main_arg7 (by decide)]
  through_host
  exact W2_arg7 m ρ c

theorem W8_arg9 : W8 m ρ c (Proc.devRef .tc main_arg9) = (m ((c : Thread nD τ).loc main_arg9)) := by
  rw [W8_of_ne m ρ c main_arg9 (by decide)]
  through_host
  exact W2_arg9 m ρ c

theorem W8_arg10 : W8 m ρ c (Proc.devRef .tc main_arg10) = (m ((c : Thread nD τ).loc main_arg10)) := by
  rw [W8_of_ne m ρ c main_arg10 (by decide)]
  through_host
  exact W2_arg10 m ρ c

theorem W8_arg11 : W8 m ρ c (Proc.devRef .tc main_arg11) = (m ((c : Thread nD τ).loc main_arg11)) := by
  rw [W8_of_ne m ρ c main_arg11 (by decide)]
  through_host
  exact W2_arg11 m ρ c

theorem W8_arg12 : W8 m ρ c (Proc.devRef .tc main_arg12) = (m ((c : Thread nD τ).loc main_arg12)) := by
  rw [W8_of_ne m ρ c main_arg12 (by decide)]
  through_host
  exact W2_arg12 m ρ c

theorem W8_arg13 : W8 m ρ c (Proc.devRef .tc main_arg13) = (m ((c : Thread nD τ).loc main_arg13)) := by
  rw [W8_of_ne m ρ c main_arg13 (by decide)]
  through_host
  exact W2_arg13 m ρ c

theorem W8_arg14 : W8 m ρ c (Proc.devRef .tc main_arg14) = (m ((c : Thread nD τ).loc main_arg14)) := by
  rw [W8_of_ne m ρ c main_arg14 (by decide)]
  through_host
  exact W2_arg14 m ρ c

theorem W8_arg15 : W8 m ρ c (Proc.devRef .tc main_arg15) = (m ((c : Thread nD τ).loc main_arg15)) := by
  rw [W8_of_ne m ρ c main_arg15 (by decide)]
  through_host
  exact W2_arg15 m ρ c

theorem W10_arg2 : W10 m ρ c (Proc.devRef .tc main_arg2) = (m ((c : Thread nD τ).loc main_arg2)) := by
  rw [W10_of_ne m ρ c main_arg2 (by decide)]
  through_host
  exact W8_arg2 m ρ c

theorem W10_arg3 : W10 m ρ c (Proc.devRef .tc main_arg3) = (m ((c : Thread nD τ).loc main_arg3)) := by
  rw [W10_of_ne m ρ c main_arg3 (by decide)]
  through_host
  exact W8_arg3 m ρ c

theorem W10_arg9 : W10 m ρ c (Proc.devRef .tc main_arg9) = (m ((c : Thread nD τ).loc main_arg9)) := by
  rw [W10_of_ne m ρ c main_arg9 (by decide)]
  through_host
  exact W8_arg9 m ρ c

theorem W10_arg11 : W10 m ρ c (Proc.devRef .tc main_arg11) = (m ((c : Thread nD τ).loc main_arg11)) := by
  rw [W10_of_ne m ρ c main_arg11 (by decide)]
  through_host
  exact W8_arg11 m ρ c

theorem W10_arg12 : W10 m ρ c (Proc.devRef .tc main_arg12) = (m ((c : Thread nD τ).loc main_arg12)) := by
  rw [W10_of_ne m ρ c main_arg12 (by decide)]
  through_host
  exact W8_arg12 m ρ c

theorem W10_arg13 : W10 m ρ c (Proc.devRef .tc main_arg13) = (m ((c : Thread nD τ).loc main_arg13)) := by
  rw [W10_of_ne m ρ c main_arg13 (by decide)]
  through_host
  exact W8_arg13 m ρ c

theorem W10_arg14 : W10 m ρ c (Proc.devRef .tc main_arg14) = (m ((c : Thread nD τ).loc main_arg14)) := by
  rw [W10_of_ne m ρ c main_arg14 (by decide)]
  through_host
  exact W8_arg14 m ρ c

theorem W10_arg15 : W10 m ρ c (Proc.devRef .tc main_arg15) = (m ((c : Thread nD τ).loc main_arg15)) := by
  rw [W10_of_ne m ρ c main_arg15 (by decide)]
  through_host
  exact W8_arg15 m ρ c

theorem W16_arg11 : W16 m ρ c (Proc.devRef .tc main_arg11) = (m ((c : Thread nD τ).loc main_arg11)) := by
  rw [W16_of_ne m ρ c main_arg11 (by decide)]
  through_host
  exact W10_arg11 m ρ c

theorem W16_arg14 : W16 m ρ c (Proc.devRef .tc main_arg14) = (m ((c : Thread nD τ).loc main_arg14)) := by
  rw [W16_of_ne m ρ c main_arg14 (by decide)]
  through_host
  exact W10_arg14 m ρ c

theorem W16_arg15 : W16 m ρ c (Proc.devRef .tc main_arg15) = (m ((c : Thread nD τ).loc main_arg15)) := by
  rw [W16_of_ne m ρ c main_arg15 (by decide)]
  through_host
  exact W10_arg15 m ρ c

/-! ## The user side -/

theorem first_user : W2 m ρ c (Proc.devRef .tc main_v0) = firstLayer (m ((c : Thread nD τ).loc main_arg0)) (m ((c : Thread nD τ).loc main_arg4)) :=
  (W2_of_ne m ρ c main_v0 (by decide)).trans ((W1_arr m ρ c 2).trans (Launch0.output_array (V0 m ρ) c))

/-- The function a `where` call computes, over any contents: the selected entries, the call's scalar spread over the rest. -/
theorem agg1_user_call (W : Valuation τ sig (Elt Ideal)) :
    StableHlo.after hostOps2_1 W (Proc.devRef .tc main_v16)
      = select (W (Proc.devRef .tc main_v14)) (W (Proc.devRef .tc main_v15)) (broadcastInDim S100000 ![] bcast_S_S100000 (id (W (Proc.devRef .tc main_cst_2)))) := by
  dsimp only [hostOps2_1]
  after_results_simp
  try results_rw
  rfl

theorem agg1_user_dinv : W4 m ρ c (Proc.devRef .tc main_v16) = invSqrtDeg (m ((c : Thread nD τ).loc main_arg2)) := by
  refine (agg1_user_call (W3 m ρ c)).trans ?_
  through_host
  rw [W2_arg2 m ρ c]
  rfl

theorem agg1_user_sources : W4 m ρ c (Proc.devRef .tc main_v7) = sources (m ((c : Thread nD τ).loc main_arg2)) := by
  through_host
  rw [W2_arg2 m ρ c]
  rfl

theorem agg1_user_targets : W4 m ρ c (Proc.devRef .tc main_v8) = targets (m ((c : Thread nD τ).loc main_arg2)) := by
  through_host
  rw [W2_arg2 m ρ c]
  rfl

theorem agg1_user_features : W4 m ρ c (Proc.devRef .tc main_v0) = firstLayer (m ((c : Thread nD τ).loc main_arg0)) (m ((c : Thread nD τ).loc main_arg4)) := by
  through_host
  exact first_user m ρ c

theorem agg1_user : W7 m ρ c (Proc.devRef .tc main_v44) = neighbourSum (firstLayer (m ((c : Thread nD τ).loc main_arg0)) (m ((c : Thread nD τ).loc main_arg4))) (m ((c : Thread nD τ).loc main_arg2)) := by
  have h1 := agg1_user_dinv m ρ c
  have h2 := agg1_user_sources m ρ c
  have h3 := agg1_user_targets m ρ c
  have h4 := agg1_user_features m ρ c
  show (StableHlo.after hostOps2_4 (StableHlo.after hostOps2_3 (StableHlo.after hostOps2_2 (W4 m ρ c)))) (Proc.devRef .tc main_v44) = _
  generalize W4 m ρ c = W at h1 h2 h3 h4 ⊢
  dsimp only [hostOps2_4, hostOps2_3, hostOps2_2]
  after_results_simp
  try results_rw
  simp only [h1, h2, h3, h4]
  rfl

theorem bias1_user : W7 m ρ c (Proc.devRef .tc main_v88) = shapeCast S1x64 (m ((c : Thread nD τ).loc main_arg5)) shapeCasts_S64_S1x64 := by
  through_host
  rw [W2_arg5 m ρ c]
  rfl

theorem W7_arg8 : W7 m ρ c (Proc.devRef .tc main_arg8) = (m ((c : Thread nD τ).loc main_arg8)) := by
  through_host
  exact W2_arg8 m ρ c

theorem hidden_user : W8 m ρ c (Proc.devRef .tc main_v89) = hiddenLayer (neighbourSum (firstLayer (m ((c : Thread nD τ).loc main_arg0)) (m ((c : Thread nD τ).loc main_arg4))) (m ((c : Thread nD τ).loc main_arg2))) (m ((c : Thread nD τ).loc main_arg5)) (m ((c : Thread nD τ).loc main_arg8)) :=
  (W8_arr m ρ c 3).trans ((Launch2.output_array (V7 m ρ) c (m ((c : Thread nD τ).loc main_arg5)) (bias1_user m ρ c)).trans (by
    show hiddenLayer (W7 m ρ c (Proc.devRef .tc main_v44)) (m ((c : Thread nD τ).loc main_arg5)) (W7 m ρ c (Proc.devRef .tc main_arg8)) = _
    rw [agg1_user m ρ c, W7_arg8 m ρ c]))

theorem hidden_user_later : W10 m ρ c (Proc.devRef .tc main_v89) = hiddenLayer (neighbourSum (firstLayer (m ((c : Thread nD τ).loc main_arg0)) (m ((c : Thread nD τ).loc main_arg4))) (m ((c : Thread nD τ).loc main_arg2))) (m ((c : Thread nD τ).loc main_arg5)) (m ((c : Thread nD τ).loc main_arg8)) := by
  rw [W10_of_ne m ρ c main_v89 (by decide)]
  through_host
  exact hidden_user m ρ c

/-- The function a `where` call computes, over any contents: the selected entries, the call's scalar spread over the rest. -/
theorem agg2_user_call (W : Valuation τ sig (Elt Ideal)) :
    StableHlo.after hostOps4_1 W (Proc.devRef .tc main_v106)
      = select (W (Proc.devRef .tc main_v104)) (W (Proc.devRef .tc main_v105)) (broadcastInDim S100000 ![] bcast_S_S100000 (id (W (Proc.devRef .tc main_cst_23)))) := by
  dsimp only [hostOps4_1]
  after_results_simp
  try results_rw
  rfl

theorem agg2_user_dinv : W12 m ρ c (Proc.devRef .tc main_v106) = invSqrtDeg (m ((c : Thread nD τ).loc main_arg2)) := by
  refine (agg2_user_call (W11 m ρ c)).trans ?_
  through_host
  rw [W10_arg2 m ρ c]
  rfl

theorem agg2_user_sources : W12 m ρ c (Proc.devRef .tc main_v97) = sources (m ((c : Thread nD τ).loc main_arg2)) := by
  through_host
  rw [W10_arg2 m ρ c]
  rfl

theorem agg2_user_targets : W12 m ρ c (Proc.devRef .tc main_v98) = targets (m ((c : Thread nD τ).loc main_arg2)) := by
  through_host
  rw [W10_arg2 m ρ c]
  rfl

theorem agg2_user_features : W12 m ρ c (Proc.devRef .tc main_v89) = hiddenLayer (neighbourSum (firstLayer (m ((c : Thread nD τ).loc main_arg0)) (m ((c : Thread nD τ).loc main_arg4))) (m ((c : Thread nD τ).loc main_arg2))) (m ((c : Thread nD τ).loc main_arg5)) (m ((c : Thread nD τ).loc main_arg8)) := by
  through_host
  exact hidden_user_later m ρ c

theorem agg2_user : W15 m ρ c (Proc.devRef .tc main_v134) = neighbourSum (hiddenLayer (neighbourSum (firstLayer (m ((c : Thread nD τ).loc main_arg0)) (m ((c : Thread nD τ).loc main_arg4))) (m ((c : Thread nD τ).loc main_arg2))) (m ((c : Thread nD τ).loc main_arg5)) (m ((c : Thread nD τ).loc main_arg8))) (m ((c : Thread nD τ).loc main_arg2)) := by
  have h1 := agg2_user_dinv m ρ c
  have h2 := agg2_user_sources m ρ c
  have h3 := agg2_user_targets m ρ c
  have h4 := agg2_user_features m ρ c
  show (StableHlo.after hostOps4_4 (StableHlo.after hostOps4_3 (StableHlo.after hostOps4_2 (W12 m ρ c)))) (Proc.devRef .tc main_v134) = _
  generalize W12 m ρ c = W at h1 h2 h3 h4 ⊢
  dsimp only [hostOps4_4, hostOps4_3, hostOps4_2]
  after_results_simp
  try results_rw
  simp only [h1, h2, h3, h4]
  rfl

theorem bias2_user : W15 m ρ c (Proc.devRef .tc main_v178) = shapeCast S1x64 (m ((c : Thread nD τ).loc main_arg9)) shapeCasts_S64_S1x64 := by
  through_host
  rw [W10_arg9 m ρ c]
  rfl

theorem bias3_user : W15 m ρ c (Proc.devRef .tc main_v179) = shapeCast S1x2 (m ((c : Thread nD τ).loc main_arg13)) shapeCasts_S2_S1x2 := by
  through_host
  rw [W10_arg13 m ρ c]
  rfl

theorem W15_arg12 : W15 m ρ c (Proc.devRef .tc main_arg12) = (m ((c : Thread nD τ).loc main_arg12)) := by
  through_host
  exact W10_arg12 m ρ c

theorem out_user : W16 m ρ c (Proc.devRef .tc main_v180) = head (neighbourSum (hiddenLayer (neighbourSum (firstLayer (m ((c : Thread nD τ).loc main_arg0)) (m ((c : Thread nD τ).loc main_arg4))) (m ((c : Thread nD τ).loc main_arg2))) (m ((c : Thread nD τ).loc main_arg5)) (m ((c : Thread nD τ).loc main_arg8))) (m ((c : Thread nD τ).loc main_arg2))) (m ((c : Thread nD τ).loc main_arg9)) (m ((c : Thread nD τ).loc main_arg12)) (m ((c : Thread nD τ).loc main_arg13)) :=
  (W16_arr m ρ c 4).trans ((Launch4.output_array (V15 m ρ) c (m ((c : Thread nD τ).loc main_arg9)) (bias2_user m ρ c) (m ((c : Thread nD τ).loc main_arg13)) (bias3_user m ρ c)).trans (by
    show head (W15 m ρ c (Proc.devRef .tc main_v134)) (m ((c : Thread nD τ).loc main_arg9)) (W15 m ρ c (Proc.devRef .tc main_arg12)) (m ((c : Thread nD τ).loc main_arg13)) = _
    rw [agg2_user m ρ c, W15_arg12 m ρ c]))

/-- The user-side result buffer at the end of the chain. -/
theorem result_user : W18 m ρ c (Proc.devRef .tc main_v180) = head (neighbourSum (hiddenLayer (neighbourSum (firstLayer (m ((c : Thread nD τ).loc main_arg0)) (m ((c : Thread nD τ).loc main_arg4))) (m ((c : Thread nD τ).loc main_arg2))) (m ((c : Thread nD τ).loc main_arg5)) (m ((c : Thread nD τ).loc main_arg8))) (m ((c : Thread nD τ).loc main_arg2))) (m ((c : Thread nD τ).loc main_arg9)) (m ((c : Thread nD τ).loc main_arg12)) (m ((c : Thread nD τ).loc main_arg13)) := by
  rw [W18_of_ne m ρ c main_v180 (by decide)]
  through_host
  exact out_user m ρ c

/-! ## The item side -/

theorem first_item : W2 m ρ c (Proc.devRef .tc main_v1) = firstLayer (m ((c : Thread nD τ).loc main_arg1)) (m ((c : Thread nD τ).loc main_arg6)) :=
  (W2_arr m ρ c 2).trans ((Launch1.output_array (V1 m ρ) c).trans (by
    show firstLayer (W1 m ρ c (Proc.devRef .tc main_arg1)) (W1 m ρ c (Proc.devRef .tc main_arg6)) = _
    rw [W1_arg1 m ρ c, W1_arg6 m ρ c]))

/-- The function a `where` call computes, over any contents: the selected entries, the call's scalar spread over the rest. -/
theorem agg1_item_call (W : Valuation τ sig (Elt Ideal)) :
    StableHlo.after hostOps2_3 W (Proc.devRef .tc main_v59)
      = select (W (Proc.devRef .tc main_v57)) (W (Proc.devRef .tc main_v58)) (broadcastInDim S100000 ![] bcast_S_S100000 (id (W (Proc.devRef .tc main_cst_12)))) := by
  dsimp only [hostOps2_3]
  after_results_simp
  try results_rw
  rfl

theorem agg1_item_dinv : W6 m ρ c (Proc.devRef .tc main_v59) = invSqrtDeg (m ((c : Thread nD τ).loc main_arg3)) := by
  refine (agg1_item_call (W5 m ρ c)).trans ?_
  through_host
  rw [W2_arg3 m ρ c]
  rfl

theorem agg1_item_sources : W6 m ρ c (Proc.devRef .tc main_v50) = sources (m ((c : Thread nD τ).loc main_arg3)) := by
  through_host
  rw [W2_arg3 m ρ c]
  rfl

theorem agg1_item_targets : W6 m ρ c (Proc.devRef .tc main_v51) = targets (m ((c : Thread nD τ).loc main_arg3)) := by
  through_host
  rw [W2_arg3 m ρ c]
  rfl

theorem agg1_item_features : W6 m ρ c (Proc.devRef .tc main_v1) = firstLayer (m ((c : Thread nD τ).loc main_arg1)) (m ((c : Thread nD τ).loc main_arg6)) := by
  through_host
  exact first_item m ρ c

theorem agg1_item : W7 m ρ c (Proc.devRef .tc main_v87) = neighbourSum (firstLayer (m ((c : Thread nD τ).loc main_arg1)) (m ((c : Thread nD τ).loc main_arg6))) (m ((c : Thread nD τ).loc main_arg3)) := by
  have h1 := agg1_item_dinv m ρ c
  have h2 := agg1_item_sources m ρ c
  have h3 := agg1_item_targets m ρ c
  have h4 := agg1_item_features m ρ c
  show (StableHlo.after hostOps2_4 (W6 m ρ c)) (Proc.devRef .tc main_v87) = _
  generalize W6 m ρ c = W at h1 h2 h3 h4 ⊢
  dsimp only [hostOps2_4]
  after_results_simp
  try results_rw
  simp only [h1, h2, h3, h4]
  rfl

theorem bias1_item : W9 m ρ c (Proc.devRef .tc main_v90) = shapeCast S1x64 (m ((c : Thread nD τ).loc main_arg7)) shapeCasts_S64_S1x64 := by
  through_host
  rw [W8_arg7 m ρ c]
  rfl

theorem agg1_item_later : W9 m ρ c (Proc.devRef .tc main_v87) = neighbourSum (firstLayer (m ((c : Thread nD τ).loc main_arg1)) (m ((c : Thread nD τ).loc main_arg6))) (m ((c : Thread nD τ).loc main_arg3)) := by
  through_host
  rw [W8_of_ne m ρ c main_v87 (by decide)]
  exact agg1_item m ρ c

theorem W9_arg10 : W9 m ρ c (Proc.devRef .tc main_arg10) = (m ((c : Thread nD τ).loc main_arg10)) := by
  through_host
  exact W8_arg10 m ρ c

theorem hidden_item : W10 m ρ c (Proc.devRef .tc main_v91) = hiddenLayer (neighbourSum (firstLayer (m ((c : Thread nD τ).loc main_arg1)) (m ((c : Thread nD τ).loc main_arg6))) (m ((c : Thread nD τ).loc main_arg3))) (m ((c : Thread nD τ).loc main_arg7)) (m ((c : Thread nD τ).loc main_arg10)) :=
  (W10_arr m ρ c 3).trans ((Launch3.output_array (V9 m ρ) c (m ((c : Thread nD τ).loc main_arg7)) (bias1_item m ρ c)).trans (by
    show hiddenLayer (W9 m ρ c (Proc.devRef .tc main_v87)) (m ((c : Thread nD τ).loc main_arg7)) (W9 m ρ c (Proc.devRef .tc main_arg10)) = _
    rw [agg1_item_later m ρ c, W9_arg10 m ρ c]))

/-- The function a `where` call computes, over any contents: the selected entries, the call's scalar spread over the rest. -/
theorem agg2_item_call (W : Valuation τ sig (Elt Ideal)) :
    StableHlo.after hostOps4_3 W (Proc.devRef .tc main_v149)
      = select (W (Proc.devRef .tc main_v147)) (W (Proc.devRef .tc main_v148)) (broadcastInDim S100000 ![] bcast_S_S100000 (id (W (Proc.devRef .tc main_cst_34)))) := by
  dsimp only [hostOps4_3]
  after_results_simp
  try results_rw
  rfl

theorem agg2_item_dinv : W14 m ρ c (Proc.devRef .tc main_v149) = invSqrtDeg (m ((c : Thread nD τ).loc main_arg3)) := by
  refine (agg2_item_call (W13 m ρ c)).trans ?_
  through_host
  rw [W10_arg3 m ρ c]
  rfl

theorem agg2_item_sources : W14 m ρ c (Proc.devRef .tc main_v140) = sources (m ((c : Thread nD τ).loc main_arg3)) := by
  through_host
  rw [W10_arg3 m ρ c]
  rfl

theorem agg2_item_targets : W14 m ρ c (Proc.devRef .tc main_v141) = targets (m ((c : Thread nD τ).loc main_arg3)) := by
  through_host
  rw [W10_arg3 m ρ c]
  rfl

theorem agg2_item_features : W14 m ρ c (Proc.devRef .tc main_v91) = hiddenLayer (neighbourSum (firstLayer (m ((c : Thread nD τ).loc main_arg1)) (m ((c : Thread nD τ).loc main_arg6))) (m ((c : Thread nD τ).loc main_arg3))) (m ((c : Thread nD τ).loc main_arg7)) (m ((c : Thread nD τ).loc main_arg10)) := by
  through_host
  exact hidden_item m ρ c

theorem agg2_item : W15 m ρ c (Proc.devRef .tc main_v177) = neighbourSum (hiddenLayer (neighbourSum (firstLayer (m ((c : Thread nD τ).loc main_arg1)) (m ((c : Thread nD τ).loc main_arg6))) (m ((c : Thread nD τ).loc main_arg3))) (m ((c : Thread nD τ).loc main_arg7)) (m ((c : Thread nD τ).loc main_arg10))) (m ((c : Thread nD τ).loc main_arg3)) := by
  have h1 := agg2_item_dinv m ρ c
  have h2 := agg2_item_sources m ρ c
  have h3 := agg2_item_targets m ρ c
  have h4 := agg2_item_features m ρ c
  show (StableHlo.after hostOps4_4 (W14 m ρ c)) (Proc.devRef .tc main_v177) = _
  generalize W14 m ρ c = W at h1 h2 h3 h4 ⊢
  dsimp only [hostOps4_4]
  after_results_simp
  try results_rw
  simp only [h1, h2, h3, h4]
  rfl

theorem bias2_item : W17 m ρ c (Proc.devRef .tc main_v181) = shapeCast S1x64 (m ((c : Thread nD τ).loc main_arg11)) shapeCasts_S64_S1x64 := by
  through_host
  rw [W16_arg11 m ρ c]
  rfl

theorem bias3_item : W17 m ρ c (Proc.devRef .tc main_v182) = shapeCast S1x2 (m ((c : Thread nD τ).loc main_arg15)) shapeCasts_S2_S1x2 := by
  through_host
  rw [W16_arg15 m ρ c]
  rfl

theorem W17_arg14 : W17 m ρ c (Proc.devRef .tc main_arg14) = (m ((c : Thread nD τ).loc main_arg14)) := by
  through_host
  exact W16_arg14 m ρ c

theorem agg2_item_later : W17 m ρ c (Proc.devRef .tc main_v177) = neighbourSum (hiddenLayer (neighbourSum (firstLayer (m ((c : Thread nD τ).loc main_arg1)) (m ((c : Thread nD τ).loc main_arg6))) (m ((c : Thread nD τ).loc main_arg3))) (m ((c : Thread nD τ).loc main_arg7)) (m ((c : Thread nD τ).loc main_arg10))) (m ((c : Thread nD τ).loc main_arg3)) := by
  through_host
  rw [W16_of_ne m ρ c main_v177 (by decide)]
  exact agg2_item m ρ c

theorem out_item : W18 m ρ c (Proc.devRef .tc main_v183) = head (neighbourSum (hiddenLayer (neighbourSum (firstLayer (m ((c : Thread nD τ).loc main_arg1)) (m ((c : Thread nD τ).loc main_arg6))) (m ((c : Thread nD τ).loc main_arg3))) (m ((c : Thread nD τ).loc main_arg7)) (m ((c : Thread nD τ).loc main_arg10))) (m ((c : Thread nD τ).loc main_arg3))) (m ((c : Thread nD τ).loc main_arg11)) (m ((c : Thread nD τ).loc main_arg14)) (m ((c : Thread nD τ).loc main_arg15)) :=
  (W18_arr m ρ c 4).trans ((Launch5.output_array (V17 m ρ) c (m ((c : Thread nD τ).loc main_arg11)) (bias2_item m ρ c) (m ((c : Thread nD τ).loc main_arg15)) (bias3_item m ρ c)).trans (by
    show head (W17 m ρ c (Proc.devRef .tc main_v177)) (m ((c : Thread nD τ).loc main_arg11)) (W17 m ρ c (Proc.devRef .tc main_arg14)) (m ((c : Thread nD τ).loc main_arg15)) = _
    rw [agg2_item_later m ρ c, W17_arg14 m ρ c]))

/-- The item-side result buffer at the end of the chain. -/
theorem result_item : W18 m ρ c (Proc.devRef .tc main_v183) = head (neighbourSum (hiddenLayer (neighbourSum (firstLayer (m ((c : Thread nD τ).loc main_arg1)) (m ((c : Thread nD τ).loc main_arg6))) (m ((c : Thread nD τ).loc main_arg3))) (m ((c : Thread nD τ).loc main_arg7)) (m ((c : Thread nD τ).loc main_arg10))) (m ((c : Thread nD τ).loc main_arg3))) (m ((c : Thread nD τ).loc main_arg11)) (m ((c : Thread nD τ).loc main_arg14)) (m ((c : Thread nD τ).loc main_arg15)) := out_item m ρ c

end Cert.KernelIdeal.Chain

end
-- ==== Proof.RefRun.lean ====
/-
  The host program's run.

  The host program is a straight line of 260 operations (a called function's operations standing in its call's place), so
  every weakly fair execution terminates with each buffer at the fold of the operations' values over the launch contents.
  No operation writes an argument array, so the arguments end as launched. The line is cut at its eight calls (four
  `where`, four `relu`) into seventeen pieces; each call is evaluated once over arbitrary contents, and the pieces
  between are read with the contents after the call below them taken as given. Reading the two result buffers this way
  gives, for each node type,
     head (neighbourSum (hiddenLayer (neighbourSum (firstLayer x W1) e) b1 W2) e) b2 Wl bl
  of the argument arrays.
-/
import proofs.«149183_j34282428956831_1_alg».proof.Proof.Gen.ReferenceIdeal
import proofs.«149183_j34282428956831_1_alg».proof.Proof.Layers
import proofs.«149183_j34282428956831_1_alg».proof.Proof.Aggregate
import Idealize.ShloMosaic.Lib.StableHlo.Run

set_option maxRecDepth 16384
set_option maxHeartbeats 4000000

noncomputable section

namespace Cert.ReferenceIdeal.HostRun

open Cert.ReferenceIdeal Cert.ReferenceIdeal.Gen Idealize.ShloMosaic Idealize.ShloMosaic.TcCoe Idealize.SL.Sem Idealize.ShloMosaic.StableHlo
open Cert.ReferenceIdeal.Layers Cert.ReferenceIdeal.Aggregate

section Program

variable {F : FTy → Type} [FloatOps F]

/-- The program's operations, in order. -/
abbrev ops : List (HloOp τ sig (Elt F)) :=
  [ unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v5 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v5 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg4 main_v30 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v5 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v5 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v5 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf,
    unary main_arg3 main_v48 ((extractStridedSlice S1x1600000 ![0, 0] · slices_S2x1600000_S1x1600000_0_0) : (⟨S2x1600000, .i32⟩ : BufTy).Contents (Elt F) → (⟨S1x1600000, .i32⟩ : BufTy).Contents (Elt F)),
    reshape main_v48 main_v49 rfl shapeCasts_S1x1600000_S1600000,
    unary main_arg3 main_v50 ((extractStridedSlice S1x1600000 ![1, 0] · slices_S2x1600000_S1x1600000_1_0) : (⟨S2x1600000, .i32⟩ : BufTy).Contents (Elt F) → (⟨S1x1600000, .i32⟩ : BufTy).Contents (Elt F)),
    reshape main_v50 main_v51 rfl shapeCasts_S1x1600000_S1600000,
    nullary main_v52 (iotaInDim S100000 32 0),
    binary main_v49 main_v52 main_v53 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v51 main_v52 main_v54 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v55 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v56 (broadcastInDim S100000 ![] bcast_S_S100000 : (⟨S_, .f32⟩ : BufTy).Contents (Elt F) → (⟨S100000, .f32⟩ : BufTy).Contents (Elt F)),
    unary main_v54 main_v57 (broadcastInDim S1700000x1 ![0] bcast_S1700000_S1700000x1_0 : (⟨S1700000, .i32⟩ : BufTy).Contents (Elt F) → (⟨S1700000x1, .i32⟩ : BufTy).Contents (Elt F)),
    ternary main_v56 main_v57 main_v55 main_v58 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v59 (broadcastInDim S100000 ![] bcast_S_S100000 : (⟨S_, .f32⟩ : BufTy).Contents (Elt F) → (⟨S100000, .f32⟩ : BufTy).Contents (Elt F)),
    binary main_v58 main_v59 main_v60 (cmpf .ogt : (⟨S100000, .f32⟩ : BufTy).Contents (Elt F) → (⟨S100000, .f32⟩ : BufTy).Contents (Elt F) → (⟨S100000, .i1⟩ : BufTy).Contents (Elt F)),
    unary main_v58 main_v61 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v60) (TRef.of (T := ⟨S100000, .f32⟩) main_v61) (TRef.of (T := ⟨S100000, .f32⟩) main_call2_v1) (TRef.of (T := ⟨S100000, .f32⟩) main_v62) select,
    nullary main_c_13 (constantI S_ 32 0#32),
    unary main_c_13 main_v63 (broadcastInDim S1700000 ![] bcast_S_S1700000 : (⟨S_, .i32⟩ : BufTy).Contents (Elt F) → (⟨S1700000, .i32⟩ : BufTy).Contents (Elt F)),
    binary main_v53 main_v63 main_v64 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v65 (broadcastInDim S1700000 ![] bcast_S_S1700000 : (⟨S_, .i32⟩ : BufTy).Contents (Elt F) → (⟨S1700000, .i32⟩ : BufTy).Contents (Elt F)),
    binary main_v53 main_v65 main_v66 (addi : (⟨S1700000, .i32⟩ : BufTy).Contents (Elt F) → (⟨S1700000, .i32⟩ : BufTy).Contents (Elt F) → (⟨S1700000, .i32⟩ : BufTy).Contents (Elt F)),
    ternary main_v64 main_v66 main_v53 main_v67 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v67 main_v68 (broadcastInDim S1700000x1 ![0] bcast_S1700000_S1700000x1_0 : (⟨S1700000, .i32⟩ : BufTy).Contents (Elt F) → (⟨S1700000x1, .i32⟩ : BufTy).Contents (Elt F)),
    binary main_v62 main_v68 main_v69 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v70 (broadcastInDim S1700000 ![] bcast_S_S1700000 : (⟨S_, .i32⟩ : BufTy).Contents (Elt F) → (⟨S1700000, .i32⟩ : BufTy).Contents (Elt F)),
    binary main_v54 main_v70 main_v71 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v72 (broadcastInDim S1700000 ![] bcast_S_S1700000 : (⟨S_, .i32⟩ : BufTy).Contents (Elt F) → (⟨S1700000, .i32⟩ : BufTy).Contents (Elt F)),
    binary main_v54 main_v72 main_v73 (addi : (⟨S1700000, .i32⟩ : BufTy).Contents (Elt F) → (⟨S1700000, .i32⟩ : BufTy).Contents (Elt F) → (⟨S1700000, .i32⟩ : BufTy).Contents (Elt F)),
    ternary main_v71 main_v73 main_v54 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v74 main_v75 (broadcastInDim S1700000x1 ![0] bcast_S1700000_S1700000x1_0 : (⟨S1700000, .i32⟩ : BufTy).Contents (Elt F) → (⟨S1700000x1, .i32⟩ : BufTy).Contents (Elt F)),
    binary main_v62 main_v75 main_v76 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v69 main_v76 main_v77 (mulf : (⟨S1700000, .f32⟩ : BufTy).Contents (Elt F) → (⟨S1700000, .f32⟩ : BufTy).Contents (Elt F) → (⟨S1700000, .f32⟩ : BufTy).Contents (Elt F)),
    binary main_arg1 main_arg6 main_v78 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_17 (constantI S_ 32 0#32),
    unary main_c_17 main_v79 (broadcastInDim S1700000 ![] bcast_S_S1700000 : (⟨S_, .i32⟩ : BufTy).Contents (Elt F) → (⟨S1700000, .i32⟩ : BufTy).Contents (Elt F)),
    binary main_v53 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v81 (broadcastInDim S1700000 ![] bcast_S_S1700000 : (⟨S_, .i32⟩ : BufTy).Contents (Elt F) → (⟨S1700000, .i32⟩ : BufTy).Contents (Elt F)),
    binary main_v53 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v53 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v78 main_v84 main_v85 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v77 main_v86 (broadcastInDim S1700000x1 ![0] bcast_S1700000_S1700000x1_0 : (⟨S1700000, .f32⟩ : BufTy).Contents (Elt F) → (⟨S1700000x1, .f32⟩ : BufTy).Contents (Elt F)),
    unary main_v86 main_v87 (broadcastInDim S1700000x64 ![0, 1] bcast_S1700000x1_S1700000x64_0_1 : (⟨S1700000x1, .f32⟩ : BufTy).Contents (Elt F) → (⟨S1700000x64, .f32⟩ : BufTy).Contents (Elt F)),
    binary main_v85 main_v87 main_v88 (mulf : (⟨S1700000x64, .f32⟩ : BufTy).Contents (Elt F) → (⟨S1700000x64, .f32⟩ : BufTy).Contents (Elt F) → (⟨S1700000x64, .f32⟩ : BufTy).Contents (Elt F)),
    nullary main_cst_19 (constant S_ .f32 0x00000000#32),
    unary main_cst_19 main_v89 (broadcastInDim S100000x64 ![] bcast_S_S100000x64 : (⟨S_, .f32⟩ : BufTy).Contents (Elt F) → (⟨S100000x64, .f32⟩ : BufTy).Contents (Elt F)),
    unary main_v54 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v92 (broadcastInDim S1x64 ![1] bcast_S64_S1x64_1 : (⟨S64, .f32⟩ : BufTy).Contents (Elt F) → (⟨S1x64, .f32⟩ : BufTy).Contents (Elt F)),
    unary main_v92 main_v93 (broadcastInDim S100000x64 ![0, 1] bcast_S1x64_S100000x64_0_1 : (⟨S1x64, .f32⟩ : BufTy).Contents (Elt F) → (⟨S100000x64, .f32⟩ : BufTy).Contents (Elt F)),
    binary main_v91 main_v93 main_v94 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v94) (TRef.of (T := ⟨S100000x64, .f32⟩) main_call3_v0) (TRef.of (T := ⟨S100000x64, .f32⟩) main_v95) maximumf,
    unary main_arg2 main_v96 ((extractStridedSlice S1x1600000 ![0, 0] · slices_S2x1600000_S1x1600000_0_0) : (⟨S2x1600000, .i32⟩ : BufTy).Contents (Elt F) → (⟨S1x1600000, .i32⟩ : BufTy).Contents (Elt F)),
    reshape main_v96 main_v97 rfl shapeCasts_S1x1600000_S1600000,
    unary main_arg2 main_v98 ((extractStridedSlice S1x1600000 ![1, 0] · slices_S2x1600000_S1x1600000_1_0) : (⟨S2x1600000, .i32⟩ : BufTy).Contents (Elt F) → (⟨S1x1600000, .i32⟩ : BufTy).Contents (Elt F)),
    reshape main_v98 main_v99 rfl shapeCasts_S1x1600000_S1600000,
    nullary main_v100 (iotaInDim S100000 32 0),
    binary main_v97 main_v100 main_v101 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v99 main_v100 main_v102 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_20 (constant S_ .f32 0x3F800000#32),
    unary main_cst_20 main_v103 (broadcastInDim S1700000 ![] bcast_S_S1700000 : (⟨S_, .f32⟩ : BufTy).Contents (Elt F) → (⟨S1700000, .f32⟩ : BufTy).Contents (Elt F)),
    nullary main_cst_21 (constant S_ .f32 0x00000000#32),
    unary main_cst_21 main_v104 (broadcastInDim S100000 ![] bcast_S_S100000 : (⟨S_, .f32⟩ : BufTy).Contents (Elt F) → (⟨S100000, .f32⟩ : BufTy).Contents (Elt F)),
    unary main_v102 main_v105 (broadcastInDim S1700000x1 ![0] bcast_S1700000_S1700000x1_0 : (⟨S1700000, .i32⟩ : BufTy).Contents (Elt F) → (⟨S1700000x1, .i32⟩ : BufTy).Contents (Elt F)),
    ternary main_v104 main_v105 main_v103 main_v106 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_22 (constant S_ .f32 0x00000000#32),
    unary main_cst_22 main_v107 (broadcastInDim S100000 ![] bcast_S_S100000 : (⟨S_, .f32⟩ : BufTy).Contents (Elt F) → (⟨S100000, .f32⟩ : BufTy).Contents (Elt F)),
    binary main_v106 main_v107 main_v108 (cmpf .ogt : (⟨S100000, .f32⟩ : BufTy).Contents (Elt F) → (⟨S100000, .f32⟩ : BufTy).Contents (Elt F) → (⟨S100000, .i1⟩ : BufTy).Contents (Elt F)),
    unary main_v106 main_v109 (Host.rsqrt : (⟨S100000, .f32⟩ : BufTy).Contents (Elt F) → (⟨S100000, .f32⟩ : BufTy).Contents (Elt F)),
    nullary main_cst_23 (constant S_ .f32 0x00000000#32),
    TRef.unary (TRef.of (T := ⟨S_, .f32⟩) main_cst_23) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v108) (TRef.of (T := ⟨S100000, .f32⟩) main_v109) (TRef.of (T := ⟨S100000, .f32⟩) main_call4_v1) (TRef.of (T := ⟨S100000, .f32⟩) main_v110) select,
    nullary main_c_24 (constantI S_ 32 0#32),
    unary main_c_24 main_v111 (broadcastInDim S1700000 ![] bcast_S_S1700000 : (⟨S_, .i32⟩ : BufTy).Contents (Elt F) → (⟨S1700000, .i32⟩ : BufTy).Contents (Elt F)),
    binary main_v101 main_v111 main_v112 (cmpi .slt : (⟨S1700000, .i32⟩ : BufTy).Contents (Elt F) → (⟨S1700000, .i32⟩ : BufTy).Contents (Elt F) → (⟨S1700000, .i1⟩ : BufTy).Contents (Elt F)),
    nullary main_c_25 (constantI S_ 32 100000#32),
    unary main_c_25 main_v113 (broadcastInDim S1700000 ![] bcast_S_S1700000 : (⟨S_, .i32⟩ : BufTy).Contents (Elt F) → (⟨S1700000, .i32⟩ : BufTy).Contents (Elt F)),
    binary main_v101 main_v113 main_v114 (addi : (⟨S1700000, .i32⟩ : BufTy).Contents (Elt F) → (⟨S1700000, .i32⟩ : BufTy).Contents (Elt F) → (⟨S1700000, .i32⟩ : BufTy).Contents (Elt F)),
    ternary main_v112 main_v114 main_v101 main_v115 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v115 main_v116 (broadcastInDim S1700000x1 ![0] bcast_S1700000_S1700000x1_0 : (⟨S1700000, .i32⟩ : BufTy).Contents (Elt F) → (⟨S1700000x1, .i32⟩ : BufTy).Contents (Elt F)),
    binary main_v110 main_v116 main_v117 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_26 (constantI S_ 32 0#32),
    unary main_c_26 main_v118 (broadcastInDim S1700000 ![] bcast_S_S1700000 : (⟨S_, .i32⟩ : BufTy).Contents (Elt F) → (⟨S1700000, .i32⟩ : BufTy).Contents (Elt F)),
    binary main_v102 main_v118 main_v119 (cmpi .slt : (⟨S1700000, .i32⟩ : BufTy).Contents (Elt F) → (⟨S1700000, .i32⟩ : BufTy).Contents (Elt F) → (⟨S1700000, .i1⟩ : BufTy).Contents (Elt F)),
    nullary main_c_27 (constantI S_ 32 100000#32),
    unary main_c_27 main_v120 (broadcastInDim S1700000 ![] bcast_S_S1700000 : (⟨S_, .i32⟩ : BufTy).Contents (Elt F) → (⟨S1700000, .i32⟩ : BufTy).Contents (Elt F)),
    binary main_v102 main_v120 main_v121 (addi : (⟨S1700000, .i32⟩ : BufTy).Contents (Elt F) → (⟨S1700000, .i32⟩ : BufTy).Contents (Elt F) → (⟨S1700000, .i32⟩ : BufTy).Contents (Elt F)),
    ternary main_v119 main_v121 main_v102 main_v122 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v122 main_v123 (broadcastInDim S1700000x1 ![0] bcast_S1700000_S1700000x1_0 : (⟨S1700000, .i32⟩ : BufTy).Contents (Elt F) → (⟨S1700000x1, .i32⟩ : BufTy).Contents (Elt F)),
    binary main_v110 main_v123 main_v124 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v117 main_v124 main_v125 (mulf : (⟨S1700000, .f32⟩ : BufTy).Contents (Elt F) → (⟨S1700000, .f32⟩ : BufTy).Contents (Elt F) → (⟨S1700000, .f32⟩ : BufTy).Contents (Elt F)),
    binary main_v47 main_arg8 main_v126 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_28 (constantI S_ 32 0#32),
    unary main_c_28 main_v127 (broadcastInDim S1700000 ![] bcast_S_S1700000 : (⟨S_, .i32⟩ : BufTy).Contents (Elt F) → (⟨S1700000, .i32⟩ : BufTy).Contents (Elt F)),
    binary main_v101 main_v127 main_v128 (cmpi .slt : (⟨S1700000, .i32⟩ : BufTy).Contents (Elt F) → (⟨S1700000, .i32⟩ : BufTy).Contents (Elt F) → (⟨S1700000, .i1⟩ : BufTy).Contents (Elt F)),
    nullary main_c_29 (constantI S_ 32 100000#32),
    unary main_c_29 main_v129 (broadcastInDim S1700000 ![] bcast_S_S1700000 : (⟨S_, .i32⟩ : BufTy).Contents (Elt F) → (⟨S1700000, .i32⟩ : BufTy).Contents (Elt F)),
    binary main_v101 main_v129 main_v130 (addi : (⟨S1700000, .i32⟩ : BufTy).Contents (Elt F) → (⟨S1700000, .i32⟩ : BufTy).Contents (Elt F) → (⟨S1700000, .i32⟩ : BufTy).Contents (Elt F)),
    ternary main_v128 main_v130 main_v101 main_v131 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v131 main_v132 (broadcastInDim S1700000x1 ![0] bcast_S1700000_S1700000x1_0 : (⟨S1700000, .i32⟩ : BufTy).Contents (Elt F) → (⟨S1700000x1, .i32⟩ : BufTy).Contents (Elt F)),
    binary main_v126 main_v132 main_v133 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v125 main_v134 (broadcastInDim S1700000x1 ![0] bcast_S1700000_S1700000x1_0 : (⟨S1700000, .f32⟩ : BufTy).Contents (Elt F) → (⟨S1700000x1, .f32⟩ : BufTy).Contents (Elt F)),
    unary main_v134 main_v135 (broadcastInDim S1700000x64 ![0, 1] bcast_S1700000x1_S1700000x64_0_1 : (⟨S1700000x1, .f32⟩ : BufTy).Contents (Elt F) → (⟨S1700000x64, .f32⟩ : BufTy).Contents (Elt F)),
    binary main_v133 main_v135 main_v136 (mulf : (⟨S1700000x64, .f32⟩ : BufTy).Contents (Elt F) → (⟨S1700000x64, .f32⟩ : BufTy).Contents (Elt F) → (⟨S1700000x64, .f32⟩ : BufTy).Contents (Elt F)),
    nullary main_cst_30 (constant S_ .f32 0x00000000#32),
    unary main_cst_30 main_v137 (broadcastInDim S100000x64 ![] bcast_S_S100000x64 : (⟨S_, .f32⟩ : BufTy).Contents (Elt F) → (⟨S100000x64, .f32⟩ : BufTy).Contents (Elt F)),
    unary main_v102 main_v138 (broadcastInDim S1700000x1 ![0] bcast_S1700000_S1700000x1_0 : (⟨S1700000, .i32⟩ : BufTy).Contents (Elt F) → (⟨S1700000x1, .i32⟩ : BufTy).Contents (Elt F)),
    ternary main_v137 main_v138 main_v136 main_v139 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg9 main_v140 (broadcastInDim S1x64 ![1] bcast_S64_S1x64_1 : (⟨S64, .f32⟩ : BufTy).Contents (Elt F) → (⟨S1x64, .f32⟩ : BufTy).Contents (Elt F)),
    unary main_v140 main_v141 (broadcastInDim S100000x64 ![0, 1] bcast_S1x64_S100000x64_0_1 : (⟨S1x64, .f32⟩ : BufTy).Contents (Elt F) → (⟨S100000x64, .f32⟩ : BufTy).Contents (Elt F)),
    binary main_v139 main_v141 main_v142 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v142) (TRef.of (T := ⟨S100000x64, .f32⟩) main_call5_v0) (TRef.of (T := ⟨S100000x64, .f32⟩) main_v143) maximumf,
    unary main_arg3 main_v144 ((extractStridedSlice S1x1600000 ![0, 0] · slices_S2x1600000_S1x1600000_0_0) : (⟨S2x1600000, .i32⟩ : BufTy).Contents (Elt F) → (⟨S1x1600000, .i32⟩ : BufTy).Contents (Elt F)),
    reshape main_v144 main_v145 rfl shapeCasts_S1x1600000_S1600000,
    unary main_arg3 main_v146 ((extractStridedSlice S1x1600000 ![1, 0] · slices_S2x1600000_S1x1600000_1_0) : (⟨S2x1600000, .i32⟩ : BufTy).Contents (Elt F) → (⟨S1x1600000, .i32⟩ : BufTy).Contents (Elt F)),
    reshape main_v146 main_v147 rfl shapeCasts_S1x1600000_S1600000,
    nullary main_v148 (iotaInDim S100000 32 0),
    binary main_v145 main_v148 main_v149 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v147 main_v148 main_v150 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_31 (constant S_ .f32 0x3F800000#32),
    unary main_cst_31 main_v151 (broadcastInDim S1700000 ![] bcast_S_S1700000 : (⟨S_, .f32⟩ : BufTy).Contents (Elt F) → (⟨S1700000, .f32⟩ : BufTy).Contents (Elt F)),
    nullary main_cst_32 (constant S_ .f32 0x00000000#32),
    unary main_cst_32 main_v152 (broadcastInDim S100000 ![] bcast_S_S100000 : (⟨S_, .f32⟩ : BufTy).Contents (Elt F) → (⟨S100000, .f32⟩ : BufTy).Contents (Elt F)),
    unary main_v150 main_v153 (broadcastInDim S1700000x1 ![0] bcast_S1700000_S1700000x1_0 : (⟨S1700000, .i32⟩ : BufTy).Contents (Elt F) → (⟨S1700000x1, .i32⟩ : BufTy).Contents (Elt F)),
    ternary main_v152 main_v153 main_v151 main_v154 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_33 (constant S_ .f32 0x00000000#32),
    unary main_cst_33 main_v155 (broadcastInDim S100000 ![] bcast_S_S100000 : (⟨S_, .f32⟩ : BufTy).Contents (Elt F) → (⟨S100000, .f32⟩ : BufTy).Contents (Elt F)),
    binary main_v154 main_v155 main_v156 (cmpf .ogt : (⟨S100000, .f32⟩ : BufTy).Contents (Elt F) → (⟨S100000, .f32⟩ : BufTy).Contents (Elt F) → (⟨S100000, .i1⟩ : BufTy).Contents (Elt F)),
    unary main_v154 main_v157 (Host.rsqrt : (⟨S100000, .f32⟩ : BufTy).Contents (Elt F) → (⟨S100000, .f32⟩ : BufTy).Contents (Elt F)),
    nullary main_cst_34 (constant S_ .f32 0x00000000#32),
    TRef.unary (TRef.of (T := ⟨S_, .f32⟩) main_cst_34) (TRef.of (T := ⟨S_, .f32⟩) main_call6_v0) id,
    TRef.unary (TRef.of (T := ⟨S_, .f32⟩) main_call6_v0) (TRef.of (T := ⟨S100000, .f32⟩) main_call6_v1) (broadcastInDim S100000 ![] bcast_S_S100000),
    TRef.ternary (TRef.of (T := ⟨S100000, .i1⟩) main_v156) (TRef.of (T := ⟨S100000, .f32⟩) main_v157) (TRef.of (T := ⟨S100000, .f32⟩) main_call6_v1) (TRef.of (T := ⟨S100000, .f32⟩) main_v158) select,
    nullary main_c_35 (constantI S_ 32 0#32),
    unary main_c_35 main_v159 (broadcastInDim S1700000 ![] bcast_S_S1700000 : (⟨S_, .i32⟩ : BufTy).Contents (Elt F) → (⟨S1700000, .i32⟩ : BufTy).Contents (Elt F)),
    binary main_v149 main_v159 main_v160 (cmpi .slt : (⟨S1700000, .i32⟩ : BufTy).Contents (Elt F) → (⟨S1700000, .i32⟩ : BufTy).Contents (Elt F) → (⟨S1700000, .i1⟩ : BufTy).Contents (Elt F)),
    nullary main_c_36 (constantI S_ 32 100000#32),
    unary main_c_36 main_v161 (broadcastInDim S1700000 ![] bcast_S_S1700000 : (⟨S_, .i32⟩ : BufTy).Contents (Elt F) → (⟨S1700000, .i32⟩ : BufTy).Contents (Elt F)),
    binary main_v149 main_v161 main_v162 (addi : (⟨S1700000, .i32⟩ : BufTy).Contents (Elt F) → (⟨S1700000, .i32⟩ : BufTy).Contents (Elt F) → (⟨S1700000, .i32⟩ : BufTy).Contents (Elt F)),
    ternary main_v160 main_v162 main_v149 main_v163 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v163 main_v164 (broadcastInDim S1700000x1 ![0] bcast_S1700000_S1700000x1_0 : (⟨S1700000, .i32⟩ : BufTy).Contents (Elt F) → (⟨S1700000x1, .i32⟩ : BufTy).Contents (Elt F)),
    binary main_v158 main_v164 main_v165 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_37 (constantI S_ 32 0#32),
    unary main_c_37 main_v166 (broadcastInDim S1700000 ![] bcast_S_S1700000 : (⟨S_, .i32⟩ : BufTy).Contents (Elt F) → (⟨S1700000, .i32⟩ : BufTy).Contents (Elt F)),
    binary main_v150 main_v166 main_v167 (cmpi .slt : (⟨S1700000, .i32⟩ : BufTy).Contents (Elt F) → (⟨S1700000, .i32⟩ : BufTy).Contents (Elt F) → (⟨S1700000, .i1⟩ : BufTy).Contents (Elt F)),
    nullary main_c_38 (constantI S_ 32 100000#32),
    unary main_c_38 main_v168 (broadcastInDim S1700000 ![] bcast_S_S1700000 : (⟨S_, .i32⟩ : BufTy).Contents (Elt F) → (⟨S1700000, .i32⟩ : BufTy).Contents (Elt F)),
    binary main_v150 main_v168 main_v169 (addi : (⟨S1700000, .i32⟩ : BufTy).Contents (Elt F) → (⟨S1700000, .i32⟩ : BufTy).Contents (Elt F) → (⟨S1700000, .i32⟩ : BufTy).Contents (Elt F)),
    ternary main_v167 main_v169 main_v150 main_v170 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v170 main_v171 (broadcastInDim S1700000x1 ![0] bcast_S1700000_S1700000x1_0 : (⟨S1700000, .i32⟩ : BufTy).Contents (Elt F) → (⟨S1700000x1, .i32⟩ : BufTy).Contents (Elt F)),
    binary main_v158 main_v171 main_v172 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v165 main_v172 main_v173 (mulf : (⟨S1700000, .f32⟩ : BufTy).Contents (Elt F) → (⟨S1700000, .f32⟩ : BufTy).Contents (Elt F) → (⟨S1700000, .f32⟩ : BufTy).Contents (Elt F)),
    binary main_v95 main_arg10 main_v174 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_39 (constantI S_ 32 0#32),
    unary main_c_39 main_v175 (broadcastInDim S1700000 ![] bcast_S_S1700000 : (⟨S_, .i32⟩ : BufTy).Contents (Elt F) → (⟨S1700000, .i32⟩ : BufTy).Contents (Elt F)),
    binary main_v149 main_v175 main_v176 (cmpi .slt : (⟨S1700000, .i32⟩ : BufTy).Contents (Elt F) → (⟨S1700000, .i32⟩ : BufTy).Contents (Elt F) → (⟨S1700000, .i1⟩ : BufTy).Contents (Elt F)),
    nullary main_c_40 (constantI S_ 32 100000#32),
    unary main_c_40 main_v177 (broadcastInDim S1700000 ![] bcast_S_S1700000 : (⟨S_, .i32⟩ : BufTy).Contents (Elt F) → (⟨S1700000, .i32⟩ : BufTy).Contents (Elt F)),
    binary main_v149 main_v177 main_v178 (addi : (⟨S1700000, .i32⟩ : BufTy).Contents (Elt F) → (⟨S1700000, .i32⟩ : BufTy).Contents (Elt F) → (⟨S1700000, .i32⟩ : BufTy).Contents (Elt F)),
    ternary main_v176 main_v178 main_v149 main_v179 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v179 main_v180 (broadcastInDim S1700000x1 ![0] bcast_S1700000_S1700000x1_0 : (⟨S1700000, .i32⟩ : BufTy).Contents (Elt F) → (⟨S1700000x1, .i32⟩ : BufTy).Contents (Elt F)),
    binary main_v174 main_v180 main_v181 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v173 main_v182 (broadcastInDim S1700000x1 ![0] bcast_S1700000_S1700000x1_0 : (⟨S1700000, .f32⟩ : BufTy).Contents (Elt F) → (⟨S1700000x1, .f32⟩ : BufTy).Contents (Elt F)),
    unary main_v182 main_v183 (broadcastInDim S1700000x64 ![0, 1] bcast_S1700000x1_S1700000x64_0_1 : (⟨S1700000x1, .f32⟩ : BufTy).Contents (Elt F) → (⟨S1700000x64, .f32⟩ : BufTy).Contents (Elt F)),
    binary main_v181 main_v183 main_v184 (mulf : (⟨S1700000x64, .f32⟩ : BufTy).Contents (Elt F) → (⟨S1700000x64, .f32⟩ : BufTy).Contents (Elt F) → (⟨S1700000x64, .f32⟩ : BufTy).Contents (Elt F)),
    nullary main_cst_41 (constant S_ .f32 0x00000000#32),
    unary main_cst_41 main_v185 (broadcastInDim S100000x64 ![] bcast_S_S100000x64 : (⟨S_, .f32⟩ : BufTy).Contents (Elt F) → (⟨S100000x64, .f32⟩ : BufTy).Contents (Elt F)),
    unary main_v150 main_v186 (broadcastInDim S1700000x1 ![0] bcast_S1700000_S1700000x1_0 : (⟨S1700000, .i32⟩ : BufTy).Contents (Elt F) → (⟨S1700000x1, .i32⟩ : BufTy).Contents (Elt F)),
    ternary main_v185 main_v186 main_v184 main_v187 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg11 main_v188 (broadcastInDim S1x64 ![1] bcast_S64_S1x64_1 : (⟨S64, .f32⟩ : BufTy).Contents (Elt F) → (⟨S1x64, .f32⟩ : BufTy).Contents (Elt F)),
    unary main_v188 main_v189 (broadcastInDim S100000x64 ![0, 1] bcast_S1x64_S100000x64_0_1 : (⟨S1x64, .f32⟩ : BufTy).Contents (Elt F) → (⟨S100000x64, .f32⟩ : BufTy).Contents (Elt F)),
    binary main_v187 main_v189 main_v190 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x64, .f32⟩) main_call7_v0) (broadcastInDim S100000x64 ![] bcast_S_S100000x64),
    TRef.binary (TRef.of (T := ⟨S100000x64, .f32⟩) main_v190) (TRef.of (T := ⟨S100000x64, .f32⟩) main_call7_v0) (TRef.of (T := ⟨S100000x64, .f32⟩) main_v191) maximumf,
    binary main_v143 main_arg12 main_v192 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    unary main_arg13 main_v193 (broadcastInDim S1x2 ![1] bcast_S2_S1x2_1 : (⟨S2, .f32⟩ : BufTy).Contents (Elt F) → (⟨S1x2, .f32⟩ : BufTy).Contents (Elt F)),
    unary main_v193 main_v194 (broadcastInDim S100000x2 ![0, 1] bcast_S1x2_S100000x2_0_1 : (⟨S1x2, .f32⟩ : BufTy).Contents (Elt F) → (⟨S100000x2, .f32⟩ : BufTy).Contents (Elt F)),
    binary main_v192 main_v194 main_v195 (addf : (⟨S100000x2, .f32⟩ : BufTy).Contents (Elt F) → (⟨S100000x2, .f32⟩ : BufTy).Contents (Elt F) → (⟨S100000x2, .f32⟩ : BufTy).Contents (Elt F)),
    binary main_v191 main_arg14 main_v196 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    unary main_arg15 main_v197 (broadcastInDim S1x2 ![1] bcast_S2_S1x2_1 : (⟨S2, .f32⟩ : BufTy).Contents (Elt F) → (⟨S1x2, .f32⟩ : BufTy).Contents (Elt F)),
    unary main_v197 main_v198 (broadcastInDim S100000x2 ![0, 1] bcast_S1x2_S100000x2_0_1 : (⟨S1x2, .f32⟩ : BufTy).Contents (Elt F) → (⟨S100000x2, .f32⟩ : BufTy).Contents (Elt F)),
    binary main_v196 main_v198 main_v199 (addf : (⟨S100000x2, .f32⟩ : BufTy).Contents (Elt F) → (⟨S100000x2, .f32⟩ : BufTy).Contents (Elt F) → (⟨S100000x2, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub ..⟩

/-- Every buffer some operation writes. -/
abbrev written : List (Ref sig .tc) :=
  [
    main_v0, main_v1, main_v2, main_v3, main_v4, main_v5, main_v6, main_cst, main_v7, main_cst_0,
    main_v8, main_v9, main_v10, main_cst_1, main_v11, main_v12, main_v13, main_cst_2, main_call0_v0, main_call0_v1,
    main_v14, main_c, main_v15, main_v16, main_c_3, main_v17, main_v18, main_v19, main_v20, main_v21,
    main_c_4, main_v22, main_v23, main_c_5, main_v24, main_v25, main_v26, main_v27, main_v28, main_v29,
    main_v30, main_c_6, main_v31, main_v32, main_c_7, main_v33, main_v34, main_v35, main_v36, main_v37,
    main_v38, main_v39, main_v40, main_cst_8, main_v41, main_v42, main_v43, main_v44, main_v45, main_v46,
    main_call1_cst, main_call1_v0, main_v47, main_v48, main_v49, main_v50, main_v51, main_v52, main_v53, main_v54,
    main_cst_9, main_v55, main_cst_10, main_v56, main_v57, main_v58, main_cst_11, main_v59, main_v60, main_v61,
    main_cst_12, main_call2_v0, main_call2_v1, main_v62, main_c_13, main_v63, main_v64, main_c_14, main_v65, main_v66,
    main_v67, main_v68, main_v69, main_c_15, main_v70, main_v71, main_c_16, main_v72, main_v73, main_v74,
    main_v75, main_v76, main_v77, main_v78, main_c_17, main_v79, main_v80, main_c_18, main_v81, main_v82,
    main_v83, main_v84, main_v85, main_v86, main_v87, main_v88, main_cst_19, main_v89, main_v90, main_v91,
    main_v92, main_v93, main_v94, main_call3_cst, main_call3_v0, main_v95, main_v96, main_v97, main_v98, main_v99,
    main_v100, main_v101, main_v102, main_cst_20, main_v103, main_cst_21, main_v104, main_v105, main_v106, main_cst_22,
    main_v107, main_v108, main_v109, main_cst_23, main_call4_v0, main_call4_v1, main_v110, main_c_24, main_v111, main_v112,
    main_c_25, main_v113, main_v114, main_v115, main_v116, main_v117, main_c_26, main_v118, main_v119, main_c_27,
    main_v120, main_v121, main_v122, main_v123, main_v124, main_v125, main_v126, main_c_28, main_v127, main_v128,
    main_c_29, main_v129, main_v130, main_v131, main_v132, main_v133, main_v134, main_v135, main_v136, main_cst_30,
    main_v137, main_v138, main_v139, main_v140, main_v141, main_v142, main_call5_cst, main_call5_v0, main_v143, main_v144,
    main_v145, main_v146, main_v147, main_v148, main_v149, main_v150, main_cst_31, main_v151, main_cst_32, main_v152,
    main_v153, main_v154, main_cst_33, main_v155, main_v156, main_v157, main_cst_34, main_call6_v0, main_call6_v1, main_v158,
    main_c_35, main_v159, main_v160, main_c_36, main_v161, main_v162, main_v163, main_v164, main_v165, main_c_37,
    main_v166, main_v167, main_c_38, main_v168, main_v169, main_v170, main_v171, main_v172, main_v173, main_v174,
    main_c_39, main_v175, main_v176, main_c_40, main_v177, main_v178, main_v179, main_v180, main_v181, main_v182,
    main_v183, main_v184, main_cst_41, main_v185, main_v186, main_v187, main_v188, main_v189, main_v190, main_call7_cst,
    main_call7_v0, main_v191, main_v192, main_v193, main_v194, main_v195, main_v196, main_v197, main_v198, main_v199 ]

set_option maxHeartbeats 40000000 in
/-- Each operation writes only buffers of that list. -/
theorem writes_sub : (ops : List (HloOp τ sig (Elt F))).Forall fun op => op.writes ⊆ (written.map (Proc.devRef (τ := τ) .tc)).toFinset := by
  simp only [ops, List.Forall, nullary_writes, unary_writes, binary_writes, ternary_writes, quaternary_writes, reshape_writes,
    Finset.singleton_subset_iff, List.mem_toFinset]
  repeat' apply And.intro
  all_goals exact List.mem_map_of_mem (by decide)

/-- A buffer outside that list is unchanged by the whole line. -/
theorem kept (V : Valuation τ sig (Elt F)) (b : Ref sig .tc) (hb : b ∉ written) : after ops V (Proc.devRef .tc b) = V (Proc.devRef .tc b) :=
  after_of_writes_sub ops V writes_sub hb

/-- Running two lines one after the other. -/
theorem after_append (l₁ l₂ : List (HloOp τ sig (Elt F))) (V : Valuation τ sig (Elt F)) : after (l₁ ++ l₂) V = after l₂ (after l₁ V) := by
  induction l₁ generalizing V with
  | nil => rfl
  | cons op l ih => exact ih _

/-! ## The line cut at its calls -/

abbrev P0 : List (HloOp τ sig (Elt F)) :=
  [ unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

abbrev P1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

abbrev P2 : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v5 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v5 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg4 main_v30 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v5 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v5 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v5 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)) ]

abbrev P3 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf ]

abbrev P4 : List (HloOp τ sig (Elt F)) :=
  [ unary main_arg3 main_v48 ((extractStridedSlice S1x1600000 ![0, 0] · slices_S2x1600000_S1x1600000_0_0) : (⟨S2x1600000, .i32⟩ : BufTy).Contents (Elt F) → (⟨S1x1600000, .i32⟩ : BufTy).Contents (Elt F)),
    reshape main_v48 main_v49 rfl shapeCasts_S1x1600000_S1600000,
    unary main_arg3 main_v50 ((extractStridedSlice S1x1600000 ![1, 0] · slices_S2x1600000_S1x1600000_1_0) : (⟨S2x1600000, .i32⟩ : BufTy).Contents (Elt F) → (⟨S1x1600000, .i32⟩ : BufTy).Contents (Elt F)),
    reshape main_v50 main_v51 rfl shapeCasts_S1x1600000_S1600000,
    nullary main_v52 (iotaInDim S100000 32 0),
    binary main_v49 main_v52 main_v53 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v51 main_v52 main_v54 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v55 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v56 (broadcastInDim S100000 ![] bcast_S_S100000 : (⟨S_, .f32⟩ : BufTy).Contents (Elt F) → (⟨S100000, .f32⟩ : BufTy).Contents (Elt F)),
    unary main_v54 main_v57 (broadcastInDim S1700000x1 ![0] bcast_S1700000_S1700000x1_0 : (⟨S1700000, .i32⟩ : BufTy).Contents (Elt F) → (⟨S1700000x1, .i32⟩ : BufTy).Contents (Elt F)),
    ternary main_v56 main_v57 main_v55 main_v58 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v59 (broadcastInDim S100000 ![] bcast_S_S100000 : (⟨S_, .f32⟩ : BufTy).Contents (Elt F) → (⟨S100000, .f32⟩ : BufTy).Contents (Elt F)),
    binary main_v58 main_v59 main_v60 (cmpf .ogt : (⟨S100000, .f32⟩ : BufTy).Contents (Elt F) → (⟨S100000, .f32⟩ : BufTy).Contents (Elt F) → (⟨S100000, .i1⟩ : BufTy).Contents (Elt F)),
    unary main_v58 main_v61 (Host.rsqrt : (⟨S100000, .f32⟩ : BufTy).Contents (Elt F) → (⟨S100000, .f32⟩ : BufTy).Contents (Elt F)),
    nullary main_cst_12 (constant S_ .f32 0x00000000#32) ]

abbrev P5 : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v60) (TRef.of (T := ⟨S100000, .f32⟩) main_v61) (TRef.of (T := ⟨S100000, .f32⟩) main_call2_v1) (TRef.of (T := ⟨S100000, .f32⟩) main_v62) select ]

abbrev P6 : List (HloOp τ sig (Elt F)) :=
  [ nullary main_c_13 (constantI S_ 32 0#32),
    unary main_c_13 main_v63 (broadcastInDim S1700000 ![] bcast_S_S1700000 : (⟨S_, .i32⟩ : BufTy).Contents (Elt F) → (⟨S1700000, .i32⟩ : BufTy).Contents (Elt F)),
    binary main_v53 main_v63 main_v64 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v65 (broadcastInDim S1700000 ![] bcast_S_S1700000 : (⟨S_, .i32⟩ : BufTy).Contents (Elt F) → (⟨S1700000, .i32⟩ : BufTy).Contents (Elt F)),
    binary main_v53 main_v65 main_v66 (addi : (⟨S1700000, .i32⟩ : BufTy).Contents (Elt F) → (⟨S1700000, .i32⟩ : BufTy).Contents (Elt F) → (⟨S1700000, .i32⟩ : BufTy).Contents (Elt F)),
    ternary main_v64 main_v66 main_v53 main_v67 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v67 main_v68 (broadcastInDim S1700000x1 ![0] bcast_S1700000_S1700000x1_0 : (⟨S1700000, .i32⟩ : BufTy).Contents (Elt F) → (⟨S1700000x1, .i32⟩ : BufTy).Contents (Elt F)),
    binary main_v62 main_v68 main_v69 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v70 (broadcastInDim S1700000 ![] bcast_S_S1700000 : (⟨S_, .i32⟩ : BufTy).Contents (Elt F) → (⟨S1700000, .i32⟩ : BufTy).Contents (Elt F)),
    binary main_v54 main_v70 main_v71 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v72 (broadcastInDim S1700000 ![] bcast_S_S1700000 : (⟨S_, .i32⟩ : BufTy).Contents (Elt F) → (⟨S1700000, .i32⟩ : BufTy).Contents (Elt F)),
    binary main_v54 main_v72 main_v73 (addi : (⟨S1700000, .i32⟩ : BufTy).Contents (Elt F) → (⟨S1700000, .i32⟩ : BufTy).Contents (Elt F) → (⟨S1700000, .i32⟩ : BufTy).Contents (Elt F)),
    ternary main_v71 main_v73 main_v54 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v74 main_v75 (broadcastInDim S1700000x1 ![0] bcast_S1700000_S1700000x1_0 : (⟨S1700000, .i32⟩ : BufTy).Contents (Elt F) → (⟨S1700000x1, .i32⟩ : BufTy).Contents (Elt F)),
    binary main_v62 main_v75 main_v76 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v69 main_v76 main_v77 (mulf : (⟨S1700000, .f32⟩ : BufTy).Contents (Elt F) → (⟨S1700000, .f32⟩ : BufTy).Contents (Elt F) → (⟨S1700000, .f32⟩ : BufTy).Contents (Elt F)),
    binary main_arg1 main_arg6 main_v78 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_17 (constantI S_ 32 0#32),
    unary main_c_17 main_v79 (broadcastInDim S1700000 ![] bcast_S_S1700000 : (⟨S_, .i32⟩ : BufTy).Contents (Elt F) → (⟨S1700000, .i32⟩ : BufTy).Contents (Elt F)),
    binary main_v53 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v81 (broadcastInDim S1700000 ![] bcast_S_S1700000 : (⟨S_, .i32⟩ : BufTy).Contents (Elt F) → (⟨S1700000, .i32⟩ : BufTy).Contents (Elt F)),
    binary main_v53 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v53 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v78 main_v84 main_v85 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v77 main_v86 (broadcastInDim S1700000x1 ![0] bcast_S1700000_S1700000x1_0 : (⟨S1700000, .f32⟩ : BufTy).Contents (Elt F) → (⟨S1700000x1, .f32⟩ : BufTy).Contents (Elt F)),
    unary main_v86 main_v87 (broadcastInDim S1700000x64 ![0, 1] bcast_S1700000x1_S1700000x64_0_1 : (⟨S1700000x1, .f32⟩ : BufTy).Contents (Elt F) → (⟨S1700000x64, .f32⟩ : BufTy).Contents (Elt F)),
    binary main_v85 main_v87 main_v88 (mulf : (⟨S1700000x64, .f32⟩ : BufTy).Contents (Elt F) → (⟨S1700000x64, .f32⟩ : BufTy).Contents (Elt F) → (⟨S1700000x64, .f32⟩ : BufTy).Contents (Elt F)),
    nullary main_cst_19 (constant S_ .f32 0x00000000#32),
    unary main_cst_19 main_v89 (broadcastInDim S100000x64 ![] bcast_S_S100000x64 : (⟨S_, .f32⟩ : BufTy).Contents (Elt F) → (⟨S100000x64, .f32⟩ : BufTy).Contents (Elt F)),
    unary main_v54 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v92 (broadcastInDim S1x64 ![1] bcast_S64_S1x64_1 : (⟨S64, .f32⟩ : BufTy).Contents (Elt F) → (⟨S1x64, .f32⟩ : BufTy).Contents (Elt F)),
    unary main_v92 main_v93 (broadcastInDim S100000x64 ![0, 1] bcast_S1x64_S100000x64_0_1 : (⟨S1x64, .f32⟩ : BufTy).Contents (Elt F) → (⟨S100000x64, .f32⟩ : BufTy).Contents (Elt F)),
    binary main_v91 main_v93 main_v94 (addf : (⟨S100000x64, .f32⟩ : BufTy).Contents (Elt F) → (⟨S100000x64, .f32⟩ : BufTy).Contents (Elt F) → (⟨S100000x64, .f32⟩ : BufTy).Contents (Elt F)) ]

abbrev P7 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v94) (TRef.of (T := ⟨S100000x64, .f32⟩) main_call3_v0) (TRef.of (T := ⟨S100000x64, .f32⟩) main_v95) maximumf ]

abbrev P8 : List (HloOp τ sig (Elt F)) :=
  [ unary main_arg2 main_v96 ((extractStridedSlice S1x1600000 ![0, 0] · slices_S2x1600000_S1x1600000_0_0) : (⟨S2x1600000, .i32⟩ : BufTy).Contents (Elt F) → (⟨S1x1600000, .i32⟩ : BufTy).Contents (Elt F)),
    reshape main_v96 main_v97 rfl shapeCasts_S1x1600000_S1600000,
    unary main_arg2 main_v98 ((extractStridedSlice S1x1600000 ![1, 0] · slices_S2x1600000_S1x1600000_1_0) : (⟨S2x1600000, .i32⟩ : BufTy).Contents (Elt F) → (⟨S1x1600000, .i32⟩ : BufTy).Contents (Elt F)),
    reshape main_v98 main_v99 rfl shapeCasts_S1x1600000_S1600000,
    nullary main_v100 (iotaInDim S100000 32 0),
    binary main_v97 main_v100 main_v101 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v99 main_v100 main_v102 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_20 (constant S_ .f32 0x3F800000#32),
    unary main_cst_20 main_v103 (broadcastInDim S1700000 ![] bcast_S_S1700000 : (⟨S_, .f32⟩ : BufTy).Contents (Elt F) → (⟨S1700000, .f32⟩ : BufTy).Contents (Elt F)),
    nullary main_cst_21 (constant S_ .f32 0x00000000#32),
    unary main_cst_21 main_v104 (broadcastInDim S100000 ![] bcast_S_S100000 : (⟨S_, .f32⟩ : BufTy).Contents (Elt F) → (⟨S100000, .f32⟩ : BufTy).Contents (Elt F)),
    unary main_v102 main_v105 (broadcastInDim S1700000x1 ![0] bcast_S1700000_S1700000x1_0 : (⟨S1700000, .i32⟩ : BufTy).Contents (Elt F) → (⟨S1700000x1, .i32⟩ : BufTy).Contents (Elt F)),
    ternary main_v104 main_v105 main_v103 main_v106 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_22 (constant S_ .f32 0x00000000#32),
    unary main_cst_22 main_v107 (broadcastInDim S100000 ![] bcast_S_S100000 : (⟨S_, .f32⟩ : BufTy).Contents (Elt F) → (⟨S100000, .f32⟩ : BufTy).Contents (Elt F)),
    binary main_v106 main_v107 main_v108 (cmpf .ogt : (⟨S100000, .f32⟩ : BufTy).Contents (Elt F) → (⟨S100000, .f32⟩ : BufTy).Contents (Elt F) → (⟨S100000, .i1⟩ : BufTy).Contents (Elt F)),
    unary main_v106 main_v109 (Host.rsqrt : (⟨S100000, .f32⟩ : BufTy).Contents (Elt F) → (⟨S100000, .f32⟩ : BufTy).Contents (Elt F)),
    nullary main_cst_23 (constant S_ .f32 0x00000000#32) ]

abbrev P9 : List (HloOp τ sig (Elt F)) :=
  [ TRef.unary (TRef.of (T := ⟨S_, .f32⟩) main_cst_23) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v108) (TRef.of (T := ⟨S100000, .f32⟩) main_v109) (TRef.of (T := ⟨S100000, .f32⟩) main_call4_v1) (TRef.of (T := ⟨S100000, .f32⟩) main_v110) select ]

abbrev P10 : List (HloOp τ sig (Elt F)) :=
  [ nullary main_c_24 (constantI S_ 32 0#32),
    unary main_c_24 main_v111 (broadcastInDim S1700000 ![] bcast_S_S1700000 : (⟨S_, .i32⟩ : BufTy).Contents (Elt F) → (⟨S1700000, .i32⟩ : BufTy).Contents (Elt F)),
    binary main_v101 main_v111 main_v112 (cmpi .slt : (⟨S1700000, .i32⟩ : BufTy).Contents (Elt F) → (⟨S1700000, .i32⟩ : BufTy).Contents (Elt F) → (⟨S1700000, .i1⟩ : BufTy).Contents (Elt F)),
    nullary main_c_25 (constantI S_ 32 100000#32),
    unary main_c_25 main_v113 (broadcastInDim S1700000 ![] bcast_S_S1700000 : (⟨S_, .i32⟩ : BufTy).Contents (Elt F) → (⟨S1700000, .i32⟩ : BufTy).Contents (Elt F)),
    binary main_v101 main_v113 main_v114 (addi : (⟨S1700000, .i32⟩ : BufTy).Contents (Elt F) → (⟨S1700000, .i32⟩ : BufTy).Contents (Elt F) → (⟨S1700000, .i32⟩ : BufTy).Contents (Elt F)),
    ternary main_v112 main_v114 main_v101 main_v115 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v115 main_v116 (broadcastInDim S1700000x1 ![0] bcast_S1700000_S1700000x1_0 : (⟨S1700000, .i32⟩ : BufTy).Contents (Elt F) → (⟨S1700000x1, .i32⟩ : BufTy).Contents (Elt F)),
    binary main_v110 main_v116 main_v117 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_26 (constantI S_ 32 0#32),
    unary main_c_26 main_v118 (broadcastInDim S1700000 ![] bcast_S_S1700000 : (⟨S_, .i32⟩ : BufTy).Contents (Elt F) → (⟨S1700000, .i32⟩ : BufTy).Contents (Elt F)),
    binary main_v102 main_v118 main_v119 (cmpi .slt : (⟨S1700000, .i32⟩ : BufTy).Contents (Elt F) → (⟨S1700000, .i32⟩ : BufTy).Contents (Elt F) → (⟨S1700000, .i1⟩ : BufTy).Contents (Elt F)),
    nullary main_c_27 (constantI S_ 32 100000#32),
    unary main_c_27 main_v120 (broadcastInDim S1700000 ![] bcast_S_S1700000 : (⟨S_, .i32⟩ : BufTy).Contents (Elt F) → (⟨S1700000, .i32⟩ : BufTy).Contents (Elt F)),
    binary main_v102 main_v120 main_v121 (addi : (⟨S1700000, .i32⟩ : BufTy).Contents (Elt F) → (⟨S1700000, .i32⟩ : BufTy).Contents (Elt F) → (⟨S1700000, .i32⟩ : BufTy).Contents (Elt F)),
    ternary main_v119 main_v121 main_v102 main_v122 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v122 main_v123 (broadcastInDim S1700000x1 ![0] bcast_S1700000_S1700000x1_0 : (⟨S1700000, .i32⟩ : BufTy).Contents (Elt F) → (⟨S1700000x1, .i32⟩ : BufTy).Contents (Elt F)),
    binary main_v110 main_v123 main_v124 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v117 main_v124 main_v125 (mulf : (⟨S1700000, .f32⟩ : BufTy).Contents (Elt F) → (⟨S1700000, .f32⟩ : BufTy).Contents (Elt F) → (⟨S1700000, .f32⟩ : BufTy).Contents (Elt F)),
    binary main_v47 main_arg8 main_v126 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_28 (constantI S_ 32 0#32),
    unary main_c_28 main_v127 (broadcastInDim S1700000 ![] bcast_S_S1700000 : (⟨S_, .i32⟩ : BufTy).Contents (Elt F) → (⟨S1700000, .i32⟩ : BufTy).Contents (Elt F)),
    binary main_v101 main_v127 main_v128 (cmpi .slt : (⟨S1700000, .i32⟩ : BufTy).Contents (Elt F) → (⟨S1700000, .i32⟩ : BufTy).Contents (Elt F) → (⟨S1700000, .i1⟩ : BufTy).Contents (Elt F)),
    nullary main_c_29 (constantI S_ 32 100000#32),
    unary main_c_29 main_v129 (broadcastInDim S1700000 ![] bcast_S_S1700000 : (⟨S_, .i32⟩ : BufTy).Contents (Elt F) → (⟨S1700000, .i32⟩ : BufTy).Contents (Elt F)),
    binary main_v101 main_v129 main_v130 (addi : (⟨S1700000, .i32⟩ : BufTy).Contents (Elt F) → (⟨S1700000, .i32⟩ : BufTy).Contents (Elt F) → (⟨S1700000, .i32⟩ : BufTy).Contents (Elt F)),
    ternary main_v128 main_v130 main_v101 main_v131 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v131 main_v132 (broadcastInDim S1700000x1 ![0] bcast_S1700000_S1700000x1_0 : (⟨S1700000, .i32⟩ : BufTy).Contents (Elt F) → (⟨S1700000x1, .i32⟩ : BufTy).Contents (Elt F)),
    binary main_v126 main_v132 main_v133 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v125 main_v134 (broadcastInDim S1700000x1 ![0] bcast_S1700000_S1700000x1_0 : (⟨S1700000, .f32⟩ : BufTy).Contents (Elt F) → (⟨S1700000x1, .f32⟩ : BufTy).Contents (Elt F)),
    unary main_v134 main_v135 (broadcastInDim S1700000x64 ![0, 1] bcast_S1700000x1_S1700000x64_0_1 : (⟨S1700000x1, .f32⟩ : BufTy).Contents (Elt F) → (⟨S1700000x64, .f32⟩ : BufTy).Contents (Elt F)),
    binary main_v133 main_v135 main_v136 (mulf : (⟨S1700000x64, .f32⟩ : BufTy).Contents (Elt F) → (⟨S1700000x64, .f32⟩ : BufTy).Contents (Elt F) → (⟨S1700000x64, .f32⟩ : BufTy).Contents (Elt F)),
    nullary main_cst_30 (constant S_ .f32 0x00000000#32),
    unary main_cst_30 main_v137 (broadcastInDim S100000x64 ![] bcast_S_S100000x64 : (⟨S_, .f32⟩ : BufTy).Contents (Elt F) → (⟨S100000x64, .f32⟩ : BufTy).Contents (Elt F)),
    unary main_v102 main_v138 (broadcastInDim S1700000x1 ![0] bcast_S1700000_S1700000x1_0 : (⟨S1700000, .i32⟩ : BufTy).Contents (Elt F) → (⟨S1700000x1, .i32⟩ : BufTy).Contents (Elt F)),
    ternary main_v137 main_v138 main_v136 main_v139 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg9 main_v140 (broadcastInDim S1x64 ![1] bcast_S64_S1x64_1 : (⟨S64, .f32⟩ : BufTy).Contents (Elt F) → (⟨S1x64, .f32⟩ : BufTy).Contents (Elt F)),
    unary main_v140 main_v141 (broadcastInDim S100000x64 ![0, 1] bcast_S1x64_S100000x64_0_1 : (⟨S1x64, .f32⟩ : BufTy).Contents (Elt F) → (⟨S100000x64, .f32⟩ : BufTy).Contents (Elt F)),
    binary main_v139 main_v141 main_v142 (addf : (⟨S100000x64, .f32⟩ : BufTy).Contents (Elt F) → (⟨S100000x64, .f32⟩ : BufTy).Contents (Elt F) → (⟨S100000x64, .f32⟩ : BufTy).Contents (Elt F)) ]

abbrev P11 : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v142) (TRef.of (T := ⟨S100000x64, .f32⟩) main_call5_v0) (TRef.of (T := ⟨S100000x64, .f32⟩) main_v143) maximumf ]

abbrev P12 : List (HloOp τ sig (Elt F)) :=
  [ unary main_arg3 main_v144 ((extractStridedSlice S1x1600000 ![0, 0] · slices_S2x1600000_S1x1600000_0_0) : (⟨S2x1600000, .i32⟩ : BufTy).Contents (Elt F) → (⟨S1x1600000, .i32⟩ : BufTy).Contents (Elt F)),
    reshape main_v144 main_v145 rfl shapeCasts_S1x1600000_S1600000,
    unary main_arg3 main_v146 ((extractStridedSlice S1x1600000 ![1, 0] · slices_S2x1600000_S1x1600000_1_0) : (⟨S2x1600000, .i32⟩ : BufTy).Contents (Elt F) → (⟨S1x1600000, .i32⟩ : BufTy).Contents (Elt F)),
    reshape main_v146 main_v147 rfl shapeCasts_S1x1600000_S1600000,
    nullary main_v148 (iotaInDim S100000 32 0),
    binary main_v145 main_v148 main_v149 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v147 main_v148 main_v150 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_31 (constant S_ .f32 0x3F800000#32),
    unary main_cst_31 main_v151 (broadcastInDim S1700000 ![] bcast_S_S1700000 : (⟨S_, .f32⟩ : BufTy).Contents (Elt F) → (⟨S1700000, .f32⟩ : BufTy).Contents (Elt F)),
    nullary main_cst_32 (constant S_ .f32 0x00000000#32),
    unary main_cst_32 main_v152 (broadcastInDim S100000 ![] bcast_S_S100000 : (⟨S_, .f32⟩ : BufTy).Contents (Elt F) → (⟨S100000, .f32⟩ : BufTy).Contents (Elt F)),
    unary main_v150 main_v153 (broadcastInDim S1700000x1 ![0] bcast_S1700000_S1700000x1_0 : (⟨S1700000, .i32⟩ : BufTy).Contents (Elt F) → (⟨S1700000x1, .i32⟩ : BufTy).Contents (Elt F)),
    ternary main_v152 main_v153 main_v151 main_v154 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_33 (constant S_ .f32 0x00000000#32),
    unary main_cst_33 main_v155 (broadcastInDim S100000 ![] bcast_S_S100000 : (⟨S_, .f32⟩ : BufTy).Contents (Elt F) → (⟨S100000, .f32⟩ : BufTy).Contents (Elt F)),
    binary main_v154 main_v155 main_v156 (cmpf .ogt : (⟨S100000, .f32⟩ : BufTy).Contents (Elt F) → (⟨S100000, .f32⟩ : BufTy).Contents (Elt F) → (⟨S100000, .i1⟩ : BufTy).Contents (Elt F)),
    unary main_v154 main_v157 (Host.rsqrt : (⟨S100000, .f32⟩ : BufTy).Contents (Elt F) → (⟨S100000, .f32⟩ : BufTy).Contents (Elt F)),
    nullary main_cst_34 (constant S_ .f32 0x00000000#32) ]

abbrev P13 : List (HloOp τ sig (Elt F)) :=
  [ TRef.unary (TRef.of (T := ⟨S_, .f32⟩) main_cst_34) (TRef.of (T := ⟨S_, .f32⟩) main_call6_v0) id,
    TRef.unary (TRef.of (T := ⟨S_, .f32⟩) main_call6_v0) (TRef.of (T := ⟨S100000, .f32⟩) main_call6_v1) (broadcastInDim S100000 ![] bcast_S_S100000),
    TRef.ternary (TRef.of (T := ⟨S100000, .i1⟩) main_v156) (TRef.of (T := ⟨S100000, .f32⟩) main_v157) (TRef.of (T := ⟨S100000, .f32⟩) main_call6_v1) (TRef.of (T := ⟨S100000, .f32⟩) main_v158) select ]

abbrev P14 : List (HloOp τ sig (Elt F)) :=
  [ nullary main_c_35 (constantI S_ 32 0#32),
    unary main_c_35 main_v159 (broadcastInDim S1700000 ![] bcast_S_S1700000 : (⟨S_, .i32⟩ : BufTy).Contents (Elt F) → (⟨S1700000, .i32⟩ : BufTy).Contents (Elt F)),
    binary main_v149 main_v159 main_v160 (cmpi .slt : (⟨S1700000, .i32⟩ : BufTy).Contents (Elt F) → (⟨S1700000, .i32⟩ : BufTy).Contents (Elt F) → (⟨S1700000, .i1⟩ : BufTy).Contents (Elt F)),
    nullary main_c_36 (constantI S_ 32 100000#32),
    unary main_c_36 main_v161 (broadcastInDim S1700000 ![] bcast_S_S1700000 : (⟨S_, .i32⟩ : BufTy).Contents (Elt F) → (⟨S1700000, .i32⟩ : BufTy).Contents (Elt F)),
    binary main_v149 main_v161 main_v162 (addi : (⟨S1700000, .i32⟩ : BufTy).Contents (Elt F) → (⟨S1700000, .i32⟩ : BufTy).Contents (Elt F) → (⟨S1700000, .i32⟩ : BufTy).Contents (Elt F)),
    ternary main_v160 main_v162 main_v149 main_v163 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v163 main_v164 (broadcastInDim S1700000x1 ![0] bcast_S1700000_S1700000x1_0 : (⟨S1700000, .i32⟩ : BufTy).Contents (Elt F) → (⟨S1700000x1, .i32⟩ : BufTy).Contents (Elt F)),
    binary main_v158 main_v164 main_v165 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_37 (constantI S_ 32 0#32),
    unary main_c_37 main_v166 (broadcastInDim S1700000 ![] bcast_S_S1700000 : (⟨S_, .i32⟩ : BufTy).Contents (Elt F) → (⟨S1700000, .i32⟩ : BufTy).Contents (Elt F)),
    binary main_v150 main_v166 main_v167 (cmpi .slt : (⟨S1700000, .i32⟩ : BufTy).Contents (Elt F) → (⟨S1700000, .i32⟩ : BufTy).Contents (Elt F) → (⟨S1700000, .i1⟩ : BufTy).Contents (Elt F)),
    nullary main_c_38 (constantI S_ 32 100000#32),
    unary main_c_38 main_v168 (broadcastInDim S1700000 ![] bcast_S_S1700000 : (⟨S_, .i32⟩ : BufTy).Contents (Elt F) → (⟨S1700000, .i32⟩ : BufTy).Contents (Elt F)),
    binary main_v150 main_v168 main_v169 (addi : (⟨S1700000, .i32⟩ : BufTy).Contents (Elt F) → (⟨S1700000, .i32⟩ : BufTy).Contents (Elt F) → (⟨S1700000, .i32⟩ : BufTy).Contents (Elt F)),
    ternary main_v167 main_v169 main_v150 main_v170 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v170 main_v171 (broadcastInDim S1700000x1 ![0] bcast_S1700000_S1700000x1_0 : (⟨S1700000, .i32⟩ : BufTy).Contents (Elt F) → (⟨S1700000x1, .i32⟩ : BufTy).Contents (Elt F)),
    binary main_v158 main_v171 main_v172 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v165 main_v172 main_v173 (mulf : (⟨S1700000, .f32⟩ : BufTy).Contents (Elt F) → (⟨S1700000, .f32⟩ : BufTy).Contents (Elt F) → (⟨S1700000, .f32⟩ : BufTy).Contents (Elt F)),
    binary main_v95 main_arg10 main_v174 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_39 (constantI S_ 32 0#32),
    unary main_c_39 main_v175 (broadcastInDim S1700000 ![] bcast_S_S1700000 : (⟨S_, .i32⟩ : BufTy).Contents (Elt F) → (⟨S1700000, .i32⟩ : BufTy).Contents (Elt F)),
    binary main_v149 main_v175 main_v176 (cmpi .slt : (⟨S1700000, .i32⟩ : BufTy).Contents (Elt F) → (⟨S1700000, .i32⟩ : BufTy).Contents (Elt F) → (⟨S1700000, .i1⟩ : BufTy).Contents (Elt F)),
    nullary main_c_40 (constantI S_ 32 100000#32),
    unary main_c_40 main_v177 (broadcastInDim S1700000 ![] bcast_S_S1700000 : (⟨S_, .i32⟩ : BufTy).Contents (Elt F) → (⟨S1700000, .i32⟩ : BufTy).Contents (Elt F)),
    binary main_v149 main_v177 main_v178 (addi : (⟨S1700000, .i32⟩ : BufTy).Contents (Elt F) → (⟨S1700000, .i32⟩ : BufTy).Contents (Elt F) → (⟨S1700000, .i32⟩ : BufTy).Contents (Elt F)),
    ternary main_v176 main_v178 main_v149 main_v179 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v179 main_v180 (broadcastInDim S1700000x1 ![0] bcast_S1700000_S1700000x1_0 : (⟨S1700000, .i32⟩ : BufTy).Contents (Elt F) → (⟨S1700000x1, .i32⟩ : BufTy).Contents (Elt F)),
    binary main_v174 main_v180 main_v181 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v173 main_v182 (broadcastInDim S1700000x1 ![0] bcast_S1700000_S1700000x1_0 : (⟨S1700000, .f32⟩ : BufTy).Contents (Elt F) → (⟨S1700000x1, .f32⟩ : BufTy).Contents (Elt F)),
    unary main_v182 main_v183 (broadcastInDim S1700000x64 ![0, 1] bcast_S1700000x1_S1700000x64_0_1 : (⟨S1700000x1, .f32⟩ : BufTy).Contents (Elt F) → (⟨S1700000x64, .f32⟩ : BufTy).Contents (Elt F)),
    binary main_v181 main_v183 main_v184 (mulf : (⟨S1700000x64, .f32⟩ : BufTy).Contents (Elt F) → (⟨S1700000x64, .f32⟩ : BufTy).Contents (Elt F) → (⟨S1700000x64, .f32⟩ : BufTy).Contents (Elt F)),
    nullary main_cst_41 (constant S_ .f32 0x00000000#32),
    unary main_cst_41 main_v185 (broadcastInDim S100000x64 ![] bcast_S_S100000x64 : (⟨S_, .f32⟩ : BufTy).Contents (Elt F) → (⟨S100000x64, .f32⟩ : BufTy).Contents (Elt F)),
    unary main_v150 main_v186 (broadcastInDim S1700000x1 ![0] bcast_S1700000_S1700000x1_0 : (⟨S1700000, .i32⟩ : BufTy).Contents (Elt F) → (⟨S1700000x1, .i32⟩ : BufTy).Contents (Elt F)),
    ternary main_v185 main_v186 main_v184 main_v187 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg11 main_v188 (broadcastInDim S1x64 ![1] bcast_S64_S1x64_1 : (⟨S64, .f32⟩ : BufTy).Contents (Elt F) → (⟨S1x64, .f32⟩ : BufTy).Contents (Elt F)),
    unary main_v188 main_v189 (broadcastInDim S100000x64 ![0, 1] bcast_S1x64_S100000x64_0_1 : (⟨S1x64, .f32⟩ : BufTy).Contents (Elt F) → (⟨S100000x64, .f32⟩ : BufTy).Contents (Elt F)),
    binary main_v187 main_v189 main_v190 (addf : (⟨S100000x64, .f32⟩ : BufTy).Contents (Elt F) → (⟨S100000x64, .f32⟩ : BufTy).Contents (Elt F) → (⟨S100000x64, .f32⟩ : BufTy).Contents (Elt F)) ]

abbrev P15 : List (HloOp τ sig (Elt F)) :=
  [ TRef.nullary (TRef.of (T := ⟨S_, .f32⟩) main_call7_cst) (constant S_ .f32 0x00000000#32),
    TRef.unary (TRef.of (T := ⟨S_, .f32⟩) main_call7_cst) (TRef.of (T := ⟨S100000x64, .f32⟩) main_call7_v0) (broadcastInDim S100000x64 ![] bcast_S_S100000x64),
    TRef.binary (TRef.of (T := ⟨S100000x64, .f32⟩) main_v190) (TRef.of (T := ⟨S100000x64, .f32⟩) main_call7_v0) (TRef.of (T := ⟨S100000x64, .f32⟩) main_v191) maximumf ]

abbrev P16 : List (HloOp τ sig (Elt F)) :=
  [ binary main_v143 main_arg12 main_v192 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    unary main_arg13 main_v193 (broadcastInDim S1x2 ![1] bcast_S2_S1x2_1 : (⟨S2, .f32⟩ : BufTy).Contents (Elt F) → (⟨S1x2, .f32⟩ : BufTy).Contents (Elt F)),
    unary main_v193 main_v194 (broadcastInDim S100000x2 ![0, 1] bcast_S1x2_S100000x2_0_1 : (⟨S1x2, .f32⟩ : BufTy).Contents (Elt F) → (⟨S100000x2, .f32⟩ : BufTy).Contents (Elt F)),
    binary main_v192 main_v194 main_v195 (addf : (⟨S100000x2, .f32⟩ : BufTy).Contents (Elt F) → (⟨S100000x2, .f32⟩ : BufTy).Contents (Elt F) → (⟨S100000x2, .f32⟩ : BufTy).Contents (Elt F)),
    binary main_v191 main_arg14 main_v196 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    unary main_arg15 main_v197 (broadcastInDim S1x2 ![1] bcast_S2_S1x2_1 : (⟨S2, .f32⟩ : BufTy).Contents (Elt F) → (⟨S1x2, .f32⟩ : BufTy).Contents (Elt F)),
    unary main_v197 main_v198 (broadcastInDim S100000x2 ![0, 1] bcast_S1x2_S100000x2_0_1 : (⟨S1x2, .f32⟩ : BufTy).Contents (Elt F) → (⟨S100000x2, .f32⟩ : BufTy).Contents (Elt F)),
    binary main_v196 main_v198 main_v199 (addf : (⟨S100000x2, .f32⟩ : BufTy).Contents (Elt F) → (⟨S100000x2, .f32⟩ : BufTy).Contents (Elt F) → (⟨S100000x2, .f32⟩ : BufTy).Contents (Elt F)) ]

set_option maxHeartbeats 40000000 in
theorem ops_split : (ops : List (HloOp τ sig (Elt F))) = P0 ++ P1 ++ P2 ++ P3 ++ P4 ++ P5 ++ P6 ++ P7 ++ P8 ++ P9 ++ P10 ++ P11 ++ P12 ++ P13 ++ P14 ++ P15 ++ P16 := rfl

abbrev U0 (V : Valuation τ sig (Elt F)) : Valuation τ sig (Elt F) := after P0 V
abbrev U1 (V : Valuation τ sig (Elt F)) : Valuation τ sig (Elt F) := after P1 (U0 V)
abbrev U2 (V : Valuation τ sig (Elt F)) : Valuation τ sig (Elt F) := after P2 (U1 V)
abbrev U3 (V : Valuation τ sig (Elt F)) : Valuation τ sig (Elt F) := after P3 (U2 V)
abbrev U4 (V : Valuation τ sig (Elt F)) : Valuation τ sig (Elt F) := after P4 (U3 V)
abbrev U5 (V : Valuation τ sig (Elt F)) : Valuation τ sig (Elt F) := after P5 (U4 V)
abbrev U6 (V : Valuation τ sig (Elt F)) : Valuation τ sig (Elt F) := after P6 (U5 V)
abbrev U7 (V : Valuation τ sig (Elt F)) : Valuation τ sig (Elt F) := after P7 (U6 V)
abbrev U8 (V : Valuation τ sig (Elt F)) : Valuation τ sig (Elt F) := after P8 (U7 V)
abbrev U9 (V : Valuation τ sig (Elt F)) : Valuation τ sig (Elt F) := after P9 (U8 V)
abbrev U10 (V : Valuation τ sig (Elt F)) : Valuation τ sig (Elt F) := after P10 (U9 V)
abbrev U11 (V : Valuation τ sig (Elt F)) : Valuation τ sig (Elt F) := after P11 (U10 V)
abbrev U12 (V : Valuation τ sig (Elt F)) : Valuation τ sig (Elt F) := after P12 (U11 V)
abbrev U13 (V : Valuation τ sig (Elt F)) : Valuation τ sig (Elt F) := after P13 (U12 V)
abbrev U14 (V : Valuation τ sig (Elt F)) : Valuation τ sig (Elt F) := after P14 (U13 V)
abbrev U15 (V : Valuation τ sig (Elt F)) : Valuation τ sig (Elt F) := after P15 (U14 V)
abbrev U16 (V : Valuation τ sig (Elt F)) : Valuation τ sig (Elt F) := after P16 (U15 V)

theorem after_ops (V : Valuation τ sig (Elt F)) : after ops V = U16 V := by
  rw [ops_split]
  simp only [after_append]

end Program

/-- Each operation's value at its own result buffer, and the earlier contents at any other buffer, by rewriting. -/
macro "results_rw" : tactic =>
  `(tactic| repeat (first
     | rw [nullary_result] | rw [unary_result] | rw [binary_result] | rw [ternary_result] | rw [quaternary_result]
     | rw [reshape_result]
     | (rw [nullary_result_ne]; rotate_left; decide)
     | (rw [unary_result_ne]; rotate_left; decide)
     | (rw [binary_result_ne]; rotate_left; decide)
     | (rw [ternary_result_ne]; rotate_left; decide)
     | (rw [quaternary_result_ne]; rotate_left; decide)
     | (rw [reshape_result_ne]; rotate_left; decide)))

/-- Read a buffer back through the pieces below it. -/
macro "through_ref" : tactic => `(tactic| (
  dsimp only [U0, U1, U2, U3, U4, U5, U6, U7, U8, U9, U10, U11, U12, U13, U14, U15, U16, P0, P1, P2, P3, P4, P5, P6, P7, P8, P9, P10, P11, P12, P13, P14, P15, P16]
  after_results_simp
  try results_rw))

/-! ## The user side -/

theorem user1_call (W : Valuation τ sig (Elt Ideal)) :
    after P1 W (Proc.devRef .tc main_v14)
      = select (W (Proc.devRef .tc main_v12)) (W (Proc.devRef .tc main_v13)) (broadcastInDim S100000 ![] bcast_S_S100000 (id (W (Proc.devRef .tc main_cst_2)))) := by
  dsimp only [P1]
  after_results_simp
  try results_rw
  rfl

theorem user1_dinv (V : Valuation τ sig (Elt Ideal)) : U1 V (Proc.devRef .tc main_v14) = invSqrtDeg (V (Proc.devRef .tc main_arg2)) := by
  refine (user1_call (U0 V)).trans ?_
  through_ref
  rfl

theorem user1_pre (V : Valuation τ sig (Elt Ideal)) : U2 V (Proc.devRef .tc main_v46) = addf (neighbourSum (firstLayer (V (Proc.devRef .tc main_arg0)) (V (Proc.devRef .tc main_arg4))) (V (Proc.devRef .tc main_arg2))) (rows64 (V (Proc.devRef .tc main_arg5))) := by
  have h1 := user1_dinv V
  have h2 : U1 V (Proc.devRef .tc main_v5) = sources (V (Proc.devRef .tc main_arg2)) := by through_ref; rfl
  have h3 : U1 V (Proc.devRef .tc main_v6) = targets (V (Proc.devRef .tc main_arg2)) := by through_ref; rfl
  have a0 : U1 V (Proc.devRef .tc main_arg0) = (V (Proc.devRef .tc main_arg0)) := by through_ref
  have a4 : U1 V (Proc.devRef .tc main_arg4) = (V (Proc.devRef .tc main_arg4)) := by through_ref
  have a5 : U1 V (Proc.devRef .tc main_arg5) = (V (Proc.devRef .tc main_arg5)) := by through_ref
  show after P2 (U1 V) (Proc.devRef .tc main_v46) = _
  generalize U1 V = W at h1 h2 h3 a0 a4 a5 ⊢
  dsimp only [P2]
  after_results_simp
  try results_rw
  simp only [h1, h2, h3, a0, a4, a5]
  rfl

theorem user1_clamp (W : Valuation τ sig (Elt Ideal)) :
    after P3 W (Proc.devRef .tc main_v47) = maximumf (W (Proc.devRef .tc main_v46)) zeros64 := by
  dsimp only [P3]
  after_results_simp
  try results_rw
  rfl

theorem user1_act (V : Valuation τ sig (Elt Ideal)) : U3 V (Proc.devRef .tc main_v47) = maximumf (addf (neighbourSum (firstLayer (V (Proc.devRef .tc main_arg0)) (V (Proc.devRef .tc main_arg4))) (V (Proc.devRef .tc main_arg2))) (rows64 (V (Proc.devRef .tc main_arg5)))) zeros64 :=
  (user1_clamp (U2 V)).trans (by rw [user1_pre V])

theorem user2_call (W : Valuation τ sig (Elt Ideal)) :
    after P9 W (Proc.devRef .tc main_v110)
      = select (W (Proc.devRef .tc main_v108)) (W (Proc.devRef .tc main_v109)) (broadcastInDim S100000 ![] bcast_S_S100000 (id (W (Proc.devRef .tc main_cst_23)))) := by
  dsimp only [P9]
  after_results_simp
  try results_rw
  rfl

theorem user2_dinv (V : Valuation τ sig (Elt Ideal)) : U9 V (Proc.devRef .tc main_v110) = invSqrtDeg (V (Proc.devRef .tc main_arg2)) := by
  refine (user2_call (U8 V)).trans ?_
  through_ref
  rfl

theorem user1_act_later (V : Valuation τ sig (Elt Ideal)) : U9 V (Proc.devRef .tc main_v47) = maximumf (addf (neighbourSum (firstLayer (V (Proc.devRef .tc main_arg0)) (V (Proc.devRef .tc main_arg4))) (V (Proc.devRef .tc main_arg2))) (rows64 (V (Proc.devRef .tc main_arg5)))) zeros64 := by
  have h := user1_act V
  show (after P9 (after P8 (after P7 (after P6 (after P5 (after P4 (U3 V))))))) (Proc.devRef .tc main_v47) = _
  generalize U3 V = W at h ⊢
  dsimp only [P0, P1, P2, P3, P4, P5, P6, P7, P8, P9, P10, P11, P12, P13, P14, P15, P16]
  after_results_simp
  try results_rw
  exact h

theorem user2_pre (V : Valuation τ sig (Elt Ideal)) : U10 V (Proc.devRef .tc main_v142) = addf (neighbourSum (hiddenLayer (neighbourSum (firstLayer (V (Proc.devRef .tc main_arg0)) (V (Proc.devRef .tc main_arg4))) (V (Proc.devRef .tc main_arg2))) (V (Proc.devRef .tc main_arg5)) (V (Proc.devRef .tc main_arg8))) (V (Proc.devRef .tc main_arg2))) (rows64 (V (Proc.devRef .tc main_arg9))) := by
  have h1 := user2_dinv V
  have h2 : U9 V (Proc.devRef .tc main_v101) = sources (V (Proc.devRef .tc main_arg2)) := by through_ref; rfl
  have h3 : U9 V (Proc.devRef .tc main_v102) = targets (V (Proc.devRef .tc main_arg2)) := by through_ref; rfl
  have h4 := user1_act_later V
  have a8 : U9 V (Proc.devRef .tc main_arg8) = (V (Proc.devRef .tc main_arg8)) := by through_ref
  have a9 : U9 V (Proc.devRef .tc main_arg9) = (V (Proc.devRef .tc main_arg9)) := by through_ref
  show after P10 (U9 V) (Proc.devRef .tc main_v142) = _
  generalize U9 V = W at h1 h2 h3 h4 a8 a9 ⊢
  dsimp only [P10]
  after_results_simp
  try results_rw
  simp only [h1, h2, h3, h4, a8, a9]
  rfl

theorem user2_clamp (W : Valuation τ sig (Elt Ideal)) :
    after P11 W (Proc.devRef .tc main_v143) = maximumf (W (Proc.devRef .tc main_v142)) zeros64 := by
  dsimp only [P11]
  after_results_simp
  try results_rw
  rfl

theorem user2_act (V : Valuation τ sig (Elt Ideal)) : U11 V (Proc.devRef .tc main_v143) = maximumf (addf (neighbourSum (hiddenLayer (neighbourSum (firstLayer (V (Proc.devRef .tc main_arg0)) (V (Proc.devRef .tc main_arg4))) (V (Proc.devRef .tc main_arg2))) (V (Proc.devRef .tc main_arg5)) (V (Proc.devRef .tc main_arg8))) (V (Proc.devRef .tc main_arg2))) (rows64 (V (Proc.devRef .tc main_arg9)))) zeros64 :=
  (user2_clamp (U10 V)).trans (by rw [user2_pre V])

theorem user2_act_later (V : Valuation τ sig (Elt Ideal)) : U15 V (Proc.devRef .tc main_v143) = maximumf (addf (neighbourSum (hiddenLayer (neighbourSum (firstLayer (V (Proc.devRef .tc main_arg0)) (V (Proc.devRef .tc main_arg4))) (V (Proc.devRef .tc main_arg2))) (V (Proc.devRef .tc main_arg5)) (V (Proc.devRef .tc main_arg8))) (V (Proc.devRef .tc main_arg2))) (rows64 (V (Proc.devRef .tc main_arg9)))) zeros64 := by
  have h := user2_act V
  show (after P15 (after P14 (after P13 (after P12 (U11 V))))) (Proc.devRef .tc main_v143) = _
  generalize U11 V = W at h ⊢
  dsimp only [P0, P1, P2, P3, P4, P5, P6, P7, P8, P9, P10, P11, P12, P13, P14, P15, P16]
  after_results_simp
  try results_rw
  exact h

/-- The user-side result buffer after the whole line. -/
theorem result_user (V : Valuation τ sig (Elt Ideal)) : after ops V (Proc.devRef .tc main_v195) = head (neighbourSum (hiddenLayer (neighbourSum (firstLayer (V (Proc.devRef .tc main_arg0)) (V (Proc.devRef .tc main_arg4))) (V (Proc.devRef .tc main_arg2))) (V (Proc.devRef .tc main_arg5)) (V (Proc.devRef .tc main_arg8))) (V (Proc.devRef .tc main_arg2))) (V (Proc.devRef .tc main_arg9)) (V (Proc.devRef .tc main_arg12)) (V (Proc.devRef .tc main_arg13)) := by
  rw [after_ops]
  have h4 := user2_act_later V
  have a12 : U15 V (Proc.devRef .tc main_arg12) = (V (Proc.devRef .tc main_arg12)) := by through_ref
  have a13 : U15 V (Proc.devRef .tc main_arg13) = (V (Proc.devRef .tc main_arg13)) := by through_ref
  show after P16 (U15 V) (Proc.devRef .tc main_v195) = _
  generalize U15 V = W at h4 a12 a13 ⊢
  dsimp only [P16]
  after_results_simp
  try results_rw
  simp only [h4, a12, a13]
  rfl

/-! ## The item side -/

theorem item1_call (W : Valuation τ sig (Elt Ideal)) :
    after P5 W (Proc.devRef .tc main_v62)
      = select (W (Proc.devRef .tc main_v60)) (W (Proc.devRef .tc main_v61)) (broadcastInDim S100000 ![] bcast_S_S100000 (id (W (Proc.devRef .tc main_cst_12)))) := by
  dsimp only [P5]
  after_results_simp
  try results_rw
  rfl

theorem item1_dinv (V : Valuation τ sig (Elt Ideal)) : U5 V (Proc.devRef .tc main_v62) = invSqrtDeg (V (Proc.devRef .tc main_arg3)) := by
  refine (item1_call (U4 V)).trans ?_
  through_ref
  rfl

theorem item1_pre (V : Valuation τ sig (Elt Ideal)) : U6 V (Proc.devRef .tc main_v94) = addf (neighbourSum (firstLayer (V (Proc.devRef .tc main_arg1)) (V (Proc.devRef .tc main_arg6))) (V (Proc.devRef .tc main_arg3))) (rows64 (V (Proc.devRef .tc main_arg7))) := by
  have h1 := item1_dinv V
  have h2 : U5 V (Proc.devRef .tc main_v53) = sources (V (Proc.devRef .tc main_arg3)) := by through_ref; rfl
  have h3 : U5 V (Proc.devRef .tc main_v54) = targets (V (Proc.devRef .tc main_arg3)) := by through_ref; rfl
  have a1 : U5 V (Proc.devRef .tc main_arg1) = (V (Proc.devRef .tc main_arg1)) := by through_ref
  have a6 : U5 V (Proc.devRef .tc main_arg6) = (V (Proc.devRef .tc main_arg6)) := by through_ref
  have a7 : U5 V (Proc.devRef .tc main_arg7) = (V (Proc.devRef .tc main_arg7)) := by through_ref
  show after P6 (U5 V) (Proc.devRef .tc main_v94) = _
  generalize U5 V = W at h1 h2 h3 a1 a6 a7 ⊢
  dsimp only [P6]
  after_results_simp
  try results_rw
  simp only [h1, h2, h3, a1, a6, a7]
  rfl

theorem item1_clamp (W : Valuation τ sig (Elt Ideal)) :
    after P7 W (Proc.devRef .tc main_v95) = maximumf (W (Proc.devRef .tc main_v94)) zeros64 := by
  dsimp only [P7]
  after_results_simp
  try results_rw
  rfl

theorem item1_act (V : Valuation τ sig (Elt Ideal)) : U7 V (Proc.devRef .tc main_v95) = maximumf (addf (neighbourSum (firstLayer (V (Proc.devRef .tc main_arg1)) (V (Proc.devRef .tc main_arg6))) (V (Proc.devRef .tc main_arg3))) (rows64 (V (Proc.devRef .tc main_arg7)))) zeros64 :=
  (item1_clamp (U6 V)).trans (by rw [item1_pre V])

theorem item2_call (W : Valuation τ sig (Elt Ideal)) :
    after P13 W (Proc.devRef .tc main_v158)
      = select (W (Proc.devRef .tc main_v156)) (W (Proc.devRef .tc main_v157)) (broadcastInDim S100000 ![] bcast_S_S100000 (id (W (Proc.devRef .tc main_cst_34)))) := by
  dsimp only [P13]
  after_results_simp
  try results_rw
  rfl

theorem item2_dinv (V : Valuation τ sig (Elt Ideal)) : U13 V (Proc.devRef .tc main_v158) = invSqrtDeg (V (Proc.devRef .tc main_arg3)) := by
  refine (item2_call (U12 V)).trans ?_
  through_ref
  rfl

theorem item1_act_later (V : Valuation τ sig (Elt Ideal)) : U13 V (Proc.devRef .tc main_v95) = maximumf (addf (neighbourSum (firstLayer (V (Proc.devRef .tc main_arg1)) (V (Proc.devRef .tc main_arg6))) (V (Proc.devRef .tc main_arg3))) (rows64 (V (Proc.devRef .tc main_arg7)))) zeros64 := by
  have h := item1_act V
  show (after P13 (after P12 (after P11 (after P10 (after P9 (after P8 (U7 V))))))) (Proc.devRef .tc main_v95) = _
  generalize U7 V = W at h ⊢
  dsimp only [P0, P1, P2, P3, P4, P5, P6, P7, P8, P9, P10, P11, P12, P13, P14, P15, P16]
  after_results_simp
  try results_rw
  exact h

theorem item2_pre (V : Valuation τ sig (Elt Ideal)) : U14 V (Proc.devRef .tc main_v190) = addf (neighbourSum (hiddenLayer (neighbourSum (firstLayer (V (Proc.devRef .tc main_arg1)) (V (Proc.devRef .tc main_arg6))) (V (Proc.devRef .tc main_arg3))) (V (Proc.devRef .tc main_arg7)) (V (Proc.devRef .tc main_arg10))) (V (Proc.devRef .tc main_arg3))) (rows64 (V (Proc.devRef .tc main_arg11))) := by
  have h1 := item2_dinv V
  have h2 : U13 V (Proc.devRef .tc main_v149) = sources (V (Proc.devRef .tc main_arg3)) := by through_ref; rfl
  have h3 : U13 V (Proc.devRef .tc main_v150) = targets (V (Proc.devRef .tc main_arg3)) := by through_ref; rfl
  have h4 := item1_act_later V
  have a10 : U13 V (Proc.devRef .tc main_arg10) = (V (Proc.devRef .tc main_arg10)) := by through_ref
  have a11 : U13 V (Proc.devRef .tc main_arg11) = (V (Proc.devRef .tc main_arg11)) := by through_ref
  show after P14 (U13 V) (Proc.devRef .tc main_v190) = _
  generalize U13 V = W at h1 h2 h3 h4 a10 a11 ⊢
  dsimp only [P14]
  after_results_simp
  try results_rw
  simp only [h1, h2, h3, h4, a10, a11]
  rfl

theorem item2_clamp (W : Valuation τ sig (Elt Ideal)) :
    after P15 W (Proc.devRef .tc main_v191) = maximumf (W (Proc.devRef .tc main_v190)) zeros64 := by
  dsimp only [P15]
  after_results_simp
  try results_rw
  rfl

theorem item2_act (V : Valuation τ sig (Elt Ideal)) : U15 V (Proc.devRef .tc main_v191) = maximumf (addf (neighbourSum (hiddenLayer (neighbourSum (firstLayer (V (Proc.devRef .tc main_arg1)) (V (Proc.devRef .tc main_arg6))) (V (Proc.devRef .tc main_arg3))) (V (Proc.devRef .tc main_arg7)) (V (Proc.devRef .tc main_arg10))) (V (Proc.devRef .tc main_arg3))) (rows64 (V (Proc.devRef .tc main_arg11)))) zeros64 :=
  (item2_clamp (U14 V)).trans (by rw [item2_pre V])

theorem item2_act_later (V : Valuation τ sig (Elt Ideal)) : U15 V (Proc.devRef .tc main_v191) = maximumf (addf (neighbourSum (hiddenLayer (neighbourSum (firstLayer (V (Proc.devRef .tc main_arg1)) (V (Proc.devRef .tc main_arg6))) (V (Proc.devRef .tc main_arg3))) (V (Proc.devRef .tc main_arg7)) (V (Proc.devRef .tc main_arg10))) (V (Proc.devRef .tc main_arg3))) (rows64 (V (Proc.devRef .tc main_arg11)))) zeros64 := by
  have h := item2_act V
  exact h

/-- The item-side result buffer after the whole line. -/
theorem result_item (V : Valuation τ sig (Elt Ideal)) : after ops V (Proc.devRef .tc main_v199) = head (neighbourSum (hiddenLayer (neighbourSum (firstLayer (V (Proc.devRef .tc main_arg1)) (V (Proc.devRef .tc main_arg6))) (V (Proc.devRef .tc main_arg3))) (V (Proc.devRef .tc main_arg7)) (V (Proc.devRef .tc main_arg10))) (V (Proc.devRef .tc main_arg3))) (V (Proc.devRef .tc main_arg11)) (V (Proc.devRef .tc main_arg14)) (V (Proc.devRef .tc main_arg15)) := by
  rw [after_ops]
  have h4 := item2_act_later V
  have a14 : U15 V (Proc.devRef .tc main_arg14) = (V (Proc.devRef .tc main_arg14)) := by through_ref
  have a15 : U15 V (Proc.devRef .tc main_arg15) = (V (Proc.devRef .tc main_arg15)) := by through_ref
  show after P16 (U15 V) (Proc.devRef .tc main_v199) = _
  generalize U15 V = W at h4 a14 a15 ⊢
  dsimp only [P16]
  after_results_simp
  try results_rw
  simp only [h4, a14, a15]
  rfl

/-- Every weakly fair execution of the host program terminates without a fault, with the two results at the composition
    of layers and neighbourhood sums of the arguments, and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v195) = head (neighbourSum (hiddenLayer (neighbourSum (firstLayer (m ((c.tc : Thread nD τ).loc main_arg0)) (m ((c.tc : Thread nD τ).loc main_arg4))) (m ((c.tc : Thread nD τ).loc main_arg2))) (m ((c.tc : Thread nD τ).loc main_arg5)) (m ((c.tc : Thread nD τ).loc main_arg8))) (m ((c.tc : Thread nD τ).loc main_arg2))) (m ((c.tc : Thread nD τ).loc main_arg9)) (m ((c.tc : Thread nD τ).loc main_arg12)) (m ((c.tc : Thread nD τ).loc main_arg13))
      ∧ r.2.mem ((c.tc : Thread nD τ).loc main_v199) = head (neighbourSum (hiddenLayer (neighbourSum (firstLayer (m ((c.tc : Thread nD τ).loc main_arg1)) (m ((c.tc : Thread nD τ).loc main_arg6))) (m ((c.tc : Thread nD τ).loc main_arg3))) (m ((c.tc : Thread nD τ).loc main_arg7)) (m ((c.tc : Thread nD τ).loc main_arg10))) (m ((c.tc : Thread nD τ).loc main_arg3))) (m ((c.tc : Thread nD τ).loc main_arg11)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v195).trans (result_user (launchContents m c)),
      (h c main_v199).trans (result_item (launchContents m c)),
      (h c main_arg0).trans (kept (launchContents m c) main_arg0 (by decide)),
      (h c main_arg1).trans (kept (launchContents m c) main_arg1 (by decide)),
      (h c main_arg2).trans (kept (launchContents m c) main_arg2 (by decide)),
      (h c main_arg3).trans (kept (launchContents m c) main_arg3 (by decide)),
      (h c main_arg4).trans (kept (launchContents m c) main_arg4 (by decide)),
      (h c main_arg5).trans (kept (launchContents m c) main_arg5 (by decide)),
      (h c main_arg6).trans (kept (launchContents m c) main_arg6 (by decide)),
      (h c main_arg7).trans (kept (launchContents m c) main_arg7 (by decide)),
      (h c main_arg8).trans (kept (launchContents m c) main_arg8 (by decide)),
      (h c main_arg9).trans (kept (launchContents m c) main_arg9 (by decide)),
      (h c main_arg10).trans (kept (launchContents m c) main_arg10 (by decide)),
      (h c main_arg11).trans (kept (launchContents m c) main_arg11 (by decide)),
      (h c main_arg12).trans (kept (launchContents m c) main_arg12 (by decide)),
      (h c main_arg13).trans (kept (launchContents m c) main_arg13 (by decide)),
      (h c main_arg14).trans (kept (launchContents m c) main_arg14 (by decide)),
      (h c main_arg15).trans (kept (launchContents m c) main_arg15 (by decide))⟩)
    (run_seq scopedRefs_eq scopedSems_eq defs main (fun _ => ops) main_eq (fun _ => ops_sub) m ρ)

end Cert.ReferenceIdeal.HostRun

end
-- ==== Proof.lean ====
/-
  The five claims.

  Both programs compute, for each node type,
     head (neighbourSum (hiddenLayer (neighbourSum (firstLayer x W1) e) b1 W2) e) b2 Wl bl :
  a dense layer x·W1, the normalised neighbourhood sum over the edges, max(· + b1, 0)·W2, the neighbourhood sum again,
  and max(· + b2, 0)·Wl + bl. The host program adds each bias and clamps right after the neighbourhood sum; the kernel
  program does both inside the next launch, together with the product. Over the extended reals the products are the same
  finite sums (a change of float format before a product is the identity), so the two programs' results are the same
  function of the arguments with no rearrangement of any sum: no finiteness of the inputs is used.

  The three programs' runs: the two kernel programs' frames are generated; the host program is a straight line. The
  idealized kernel program's two results are read off the chain of its boundary contents; the host program's off the fold
  of its operations.
-/
import proofs.«149183_j34282428956831_1_alg».proof.Defs
import proofs.«149183_j34282428956831_1_alg».proof.Proof.Gen.Kernel
import proofs.«149183_j34282428956831_1_alg».proof.Proof.Gen.Kernel.Skeleton
import proofs.«149183_j34282428956831_1_alg».proof.Proof.Gen.Kernel.Launch
import proofs.«149183_j34282428956831_1_alg».proof.Proof.Gen.Kernel.Points
import proofs.«149183_j34282428956831_1_alg».proof.Proof.Gen.Kernel.Frame
import proofs.«149183_j34282428956831_1_alg».proof.Proof.Gen.KernelIdeal
import proofs.«149183_j34282428956831_1_alg».proof.Proof.Gen.KernelIdeal.Skeleton
import proofs.«149183_j34282428956831_1_alg».proof.Proof.Gen.KernelIdeal.Launch
import proofs.«149183_j34282428956831_1_alg».proof.Proof.Gen.KernelIdeal.Points
import proofs.«149183_j34282428956831_1_alg».proof.Proof.Gen.KernelIdeal.Frame
import proofs.«149183_j34282428956831_1_alg».proof.Proof.Gen.ReferenceIdeal
import proofs.«149183_j34282428956831_1_alg».proof.Proof.Gen.Pre_finite_inputs
import proofs.«149183_j34282428956831_1_alg».proof.Proof.KernelRun
import proofs.«149183_j34282428956831_1_alg».proof.Proof.Chain
import proofs.«149183_j34282428956831_1_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The host program's frame is its run with the two results dropped. -/
theorem frame_reference : Cert.frame_ReferenceIdeal := fun m ρ _ =>
  (θ_run Cert.ReferenceIdeal.defs _ _).mono (fun _ h c => (h c).2.2) (Cert.ReferenceIdeal.HostRun.run m ρ)

/-- From memories agreeing on the arguments both programs end with the same two results: each side's result is the
    composition of layers and neighbourhood sums of its own arguments. -/
theorem algebraic : Cert.algebraic_KernelIdeal_ReferenceIdeal := by
  intro m ρ m' ρ' _ hagree
  refine ⟨fun c => Cert.KernelIdeal.Gen.W18 m ρ c (Proc.devRef .tc Cert.KernelIdeal.main_v180),
    fun c => Cert.KernelIdeal.Gen.W18 m ρ c (Proc.devRef .tc Cert.KernelIdeal.main_v183),
    Cert.KernelIdeal.Whole.run_results m ρ, ?_⟩
  refine (θ_run Cert.ReferenceIdeal.defs _ _).mono (fun r h c => ⟨?_, ?_, (h c).2.2⟩) (Cert.ReferenceIdeal.HostRun.run m' ρ')
  · obtain ⟨e0, e1, e2, e3, e4, e5, e6, e7, e8, e9, e10, e11, e12, e13, e14, e15⟩ := hagree c
    refine (h c).1.trans ?_
    show _ = Cert.KernelIdeal.Gen.W18 m ρ c (Proc.devRef .tc Cert.KernelIdeal.main_v180)
    rw [Cert.KernelIdeal.Chain.result_user m ρ c, e0, e2, e4, e5, e8, e9, e12, e13]
  · obtain ⟨e0, e1, e2, e3, e4, e5, e6, e7, e8, e9, e10, e11, e12, e13, e14, e15⟩ := hagree c
    refine (h c).2.1.trans ?_
    show _ = Cert.KernelIdeal.Gen.W18 m ρ c (Proc.devRef .tc Cert.KernelIdeal.main_v183)
    rw [Cert.KernelIdeal.Chain.result_item m ρ c, e1, e3, e6, e7, e10, e11, e14, e15]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
